-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x1 : Shape := ⟨2, ![12288, 1]⟩
abbrev S12288x12288 : Shape := ⟨2, ![12288, 12288]⟩
abbrev S9x1x1 : Shape := ⟨3, ![9, 1, 1]⟩
abbrev S_ : Shape := ⟨0, ![]⟩

class Facts : Prop where
  bcast_S_S12288x1 : S_.BroadcastsInDim S12288x1 (![] : Fin 0 → Fin S12288x1.rank)
  reducesTo_S12288x1_S_d0_1 : S12288x1.ReducesTo [0, 1] S_
  h_S_ : 0 < S_.numel
  bcast_S_S12288x12288 : S_.BroadcastsInDim S12288x12288 (![] : Fin 0 → Fin S12288x12288.rank)
  reducesTo_S12288x12288_S_d0_1 : S12288x12288.ReducesTo [0, 1] S_
  bcast_S_S9x1x1 : S_.BroadcastsInDim S9x1x1 (![] : Fin 0 → Fin S9x1x1.rank)
  reducesTo_S9x1x1_S_d0_1_2 : S9x1x1.ReducesTo [0, 1, 2] S_

variable [Facts]

def fn {F : FTy → Type} [FloatOps F] (main_arg0 : FVec F S12288x1 .f32) (main_arg1 : FVec F S12288x12288 .f32) (main_arg2 : FVec F S9x1x1 .f32) : IVec S_ 1 :=
  let main_v0 : FVec F S12288x1 .f32 := Host.absf main_arg0
  let main_cst : FVec F S_ .f32 := constant S_ .f32 0x7F800000#32
  let main_v1 : FVec F S12288x1 .f32 := broadcastInDim S12288x1 ![] bcast_S_S12288x1 main_cst
  let main_v2 : IVec S12288x1 1 := cmpf .olt main_v0 main_v1
  let main_c : IVec S_ 1 := constantI S_ 1 1#1
  let main_v3 : IVec S_ 1 := (fun x v => Host.reduce IntOp.andi x v reducesTo_S12288x1_S_d0_1 h_S_) main_v2 main_c
  let main_v4 : FVec F S12288x12288 .f32 := Host.absf main_arg1
  let main_cst_0 : FVec F S_ .f32 := constant S_ .f32 0x7F800000#32
  let main_v5 : FVec F S12288x12288 .f32 := broadcastInDim S12288x12288 ![] bcast_S_S12288x12288 main_cst_0
  let main_v6 : IVec S12288x12288 1 := cmpf .olt main_v4 main_v5
  let main_c_1 : IVec S_ 1 := constantI S_ 1 1#1
  let main_v7 : IVec S_ 1 := (fun x v => Host.reduce IntOp.andi x v reducesTo_S12288x12288_S_d0_1 h_S_) main_v6 main_c_1
  let main_v8 : IVec S_ 1 := andi main_v3 main_v7
  let main_v9 : FVec F S9x1x1 .f32 := Host.absf main_arg2
  let main_cst_2 : FVec F S_ .f32 := constant S_ .f32 0x7F800000#32
  let main_v10 : FVec F S9x1x1 .f32 := broadcastInDim S9x1x1 ![] bcast_S_S9x1x1 main_cst_2
  let main_v11 : IVec S9x1x1 1 := cmpf .olt main_v9 main_v10
  let main_c_3 : IVec S_ 1 := constantI S_ 1 1#1
  let main_v12 : IVec S_ 1 := (fun x v => Host.reduce IntOp.andi x v reducesTo_S9x1x1_S_d0_1_2 h_S_) main_v11 main_c_3
  let main_v13 : IVec S_ 1 := andi main_v8 main_v12
  main_v13
-- ==== Kernel.lean ====
abbrev S12288x1 : Shape := ⟨2, ![12288, 1]⟩
abbrev S12288x12288 : Shape := ⟨2, ![12288, 12288]⟩
abbrev S9x1x1 : Shape := ⟨3, ![9, 1, 1]⟩
abbrev S1x12288 : Shape := ⟨2, ![1, 12288]⟩
abbrev S1x1x1 : Shape := ⟨3, ![1, 1, 1]⟩
abbrev S1x1 : Shape := ⟨2, ![1, 1]⟩
abbrev S512x12288 : Shape := ⟨2, ![512, 12288]⟩
abbrev S512x1 : Shape := ⟨2, ![512, 1]⟩
abbrev S12288 : Shape := ⟨1, ![12288]⟩

abbrev nBuf : Space → Nat
  | .hbm => 42
  | .vmem => 72
  | .smem => 0
  | _ => 0

abbrev bufTy : (tb : Table) → Fin (tcTables nBuf tb) → BufTy
  | .hbm, ⟨0, _⟩ => ⟨S12288x1, .f32⟩
  | .hbm, ⟨1, _⟩ => ⟨S12288x12288, .f32⟩
  | .hbm, ⟨2, _⟩ => ⟨S9x1x1, .f32⟩
  | .hbm, ⟨3, _⟩ => ⟨S1x12288, .f32⟩
  | .hbm, ⟨4, _⟩ => ⟨S1x1x1, .f32⟩
  | .hbm, ⟨5, _⟩ => ⟨S1x1, .f32⟩
  | .hbm, ⟨6, _⟩ => ⟨S12288x1, .f32⟩
  | .hbm, ⟨7, _⟩ => ⟨S1x12288, .f32⟩
  | .hbm, ⟨8, _⟩ => ⟨S1x1x1, .f32⟩
  | .hbm, ⟨9, _⟩ => ⟨S1x1, .f32⟩
  | .hbm, ⟨10, _⟩ => ⟨S12288x1, .f32⟩
  | .hbm, ⟨11, _⟩ => ⟨S1x12288, .f32⟩
  | .hbm, ⟨12, _⟩ => ⟨S1x1x1, .f32⟩
  | .hbm, ⟨13, _⟩ => ⟨S1x1, .f32⟩
  | .hbm, ⟨14, _⟩ => ⟨S12288x1, .f32⟩
  | .hbm, ⟨15, _⟩ => ⟨S1x12288, .f32⟩
  | .hbm, ⟨16, _⟩ => ⟨S1x1x1, .f32⟩
  | .hbm, ⟨17, _⟩ => ⟨S1x1, .f32⟩
  | .hbm, ⟨18, _⟩ => ⟨S12288x1, .f32⟩
  | .hbm, ⟨19, _⟩ => ⟨S1x12288, .f32⟩
  | .hbm, ⟨20, _⟩ => ⟨S1x1x1, .f32⟩
  | .hbm, ⟨21, _⟩ => ⟨S1x1, .f32⟩
  | .hbm, ⟨22, _⟩ => ⟨S12288x1, .f32⟩
  | .hbm, ⟨23, _⟩ => ⟨S1x12288, .f32⟩
  | .hbm, ⟨24, _⟩ => ⟨S1x1x1, .f32⟩
  | .hbm, ⟨25, _⟩ => ⟨S1x1, .f32⟩
  | .hbm, ⟨26, _⟩ => ⟨S12288x1, .f32⟩
  | .hbm, ⟨27, _⟩ => ⟨S1x12288, .f32⟩
  | .hbm, ⟨28, _⟩ => ⟨S1x1x1, .f32⟩
  | .hbm, ⟨29, _⟩ => ⟨S1x1, .f32⟩
  | .hbm, ⟨30, _⟩ => ⟨S12288x1, .f32⟩
  | .hbm, ⟨31, _⟩ => ⟨S1x12288, .f32⟩
  | .hbm, ⟨32, _⟩ => ⟨S1x1x1, .f32⟩
  | .hbm, ⟨33, _⟩ => ⟨S1x1, .f32⟩
  | .hbm, ⟨34, _⟩ => ⟨S12288x1, .f32⟩
  | .hbm, ⟨35, _⟩ => ⟨S1x12288, .f32⟩
  | .hbm, ⟨36, _⟩ => ⟨S1x1x1, .f32⟩
  | .hbm, ⟨37, _⟩ => ⟨S1x1, .f32⟩
  | .hbm, ⟨38, _⟩ => ⟨S12288x1, .f32⟩
  | .hbm, ⟨39, _⟩ => ⟨S1x12288, .f32⟩
  | .hbm, ⟨40, _⟩ => ⟨S12288, .f32⟩
  | .hbm, ⟨41, _⟩ => ⟨S12288, .i32⟩
  | .local _ .vmem, ⟨0, _⟩ => ⟨S512x12288, .f32⟩
  | .local _ .vmem, ⟨1, _⟩ => ⟨S512x12288, .f32⟩
  | .local _ .vmem, ⟨2, _⟩ => ⟨S1x12288, .f32⟩
  | .local _ .vmem, ⟨3, _⟩ => ⟨S512x1, .f32⟩
  | .local _ .vmem, ⟨4, _⟩ => ⟨S512x1, .f32⟩
  | .local _ .vmem, ⟨5, _⟩ => ⟨S1x1, .f32⟩
  | .local _ .vmem, ⟨6, _⟩ => ⟨S512x1, .f32⟩
  | .local _ .vmem, ⟨7, _⟩ => ⟨S512x1, .f32⟩
  | .local _ .vmem, ⟨8, _⟩ => ⟨S512x12288, .f32⟩
  | .local _ .vmem, ⟨9, _⟩ => ⟨S512x12288, .f32⟩
  | .local _ .vmem, ⟨10, _⟩ => ⟨S1x12288, .f32⟩
  | .local _ .vmem, ⟨11, _⟩ => ⟨S512x1, .f32⟩
  | .local _ .vmem, ⟨12, _⟩ => ⟨S512x1, .f32⟩
  | .local _ .vmem, ⟨13, _⟩ => ⟨S1x1, .f32⟩
  | .local _ .vmem, ⟨14, _⟩ => ⟨S512x1, .f32⟩
  | .local _ .vmem, ⟨15, _⟩ => ⟨S512x1, .f32⟩
  | .local _ .vmem, ⟨16, _⟩ => ⟨S512x12288, .f32⟩
  | .local _ .vmem, ⟨17, _⟩ => ⟨S512x12288, .f32⟩
  | .local _ .vmem, ⟨18, _⟩ => ⟨S1x12288, .f32⟩
  | .local _ .vmem, ⟨19, _⟩ => ⟨S512x1, .f32⟩
  | .local _ .vmem, ⟨20, _⟩ => ⟨S512x1, .f32⟩
  | .local _ .vmem, ⟨21, _⟩ => ⟨S1x1, .f32⟩
  | .local _ .vmem, ⟨22, _⟩ => ⟨S512x1, .f32⟩
  | .local _ .vmem, ⟨23, _⟩ => ⟨S512x1, .f32⟩
  | .local _ .vmem, ⟨24, _⟩ => ⟨S512x12288, .f32⟩
  | .local _ .vmem, ⟨25, _⟩ => ⟨S512x12288, .f32⟩
  | .local _ .vmem, ⟨26, _⟩ => ⟨S1x12288, .f32⟩
  | .local _ .vmem, ⟨27, _⟩ => ⟨S512x1, .f32⟩
  | .local _ .vmem, ⟨28, _⟩ => ⟨S512x1, .f32⟩
  | .local _ .vmem, ⟨29, _⟩ => ⟨S1x1, .f32⟩
  | .local _ .vmem, ⟨30, _⟩ => ⟨S512x1, .f32⟩
  | .local _ .vmem, ⟨31, _⟩ => ⟨S512x1, .f32⟩
  | .local _ .vmem, ⟨32, _⟩ => ⟨S512x12288, .f32⟩
  | .local _ .vmem, ⟨33, _⟩ => ⟨S512x12288, .f32⟩
  | .local _ .vmem, ⟨34, _⟩ => ⟨S1x12288, .f32⟩
  | .local _ .vmem, ⟨35, _⟩ => ⟨S512x1, .f32⟩
  | .local _ .vmem, ⟨36, _⟩ => ⟨S512x1, .f32⟩
  | .local _ .vmem, ⟨37, _⟩ => ⟨S1x1, .f32⟩
  | .local _ .vmem, ⟨38, _⟩ => ⟨S512x1, .f32⟩
  | .local _ .vmem, ⟨39, _⟩ => ⟨S512x1, .f32⟩
  | .local _ .vmem, ⟨40, _⟩ => ⟨S512x12288, .f32⟩
  | .local _ .vmem, ⟨41, _⟩ => ⟨S512x12288, .f32⟩
  | .local _ .vmem, ⟨42, _⟩ => ⟨S1x12288, .f32⟩
  | .local _ .vmem, ⟨43, _⟩ => ⟨S512x1, .f32⟩
  | .local _ .vmem, ⟨44, _⟩ => ⟨S512x1, .f32⟩
  | .local _ .vmem, ⟨45, _⟩ => ⟨S1x1, .f32⟩
  | .local _ .vmem, ⟨46, _⟩ => ⟨S512x1, .f32⟩
  | .local _ .vmem, ⟨47, _⟩ => ⟨S512x1, .f32⟩
  | .local _ .vmem, ⟨48, _⟩ => ⟨S512x12288, .f32⟩
  | .local _ .vmem, ⟨49, _⟩ => ⟨S512x12288, .f32⟩
  | .local _ .vmem, ⟨50, _⟩ => ⟨S1x12288, .f32⟩
  | .local _ .vmem, ⟨51, _⟩ => ⟨S512x1, .f32⟩
  | .local _ .vmem, ⟨52, _⟩ => ⟨S512x1, .f32⟩
  | .local _ .vmem, ⟨53, _⟩ => ⟨S1x1, .f32⟩
  | .local _ .vmem, ⟨54, _⟩ => ⟨S512x1, .f32⟩
  | .local _ .vmem, ⟨55, _⟩ => ⟨S512x1, .f32⟩
  | .local _ .vmem, ⟨56, _⟩ => ⟨S512x12288, .f32⟩
  | .local _ .vmem, ⟨57, _⟩ => ⟨S512x12288, .f32⟩
  | .local _ .vmem, ⟨58, _⟩ => ⟨S1x12288, .f32⟩
  | .local _ .vmem, ⟨59, _⟩ => ⟨S512x1, .f32⟩
  | .local _ .vmem, ⟨60, _⟩ => ⟨S512x1, .f32⟩
  | .local _ .vmem, ⟨61, _⟩ => ⟨S1x1, .f32⟩
  | .local _ .vmem, ⟨62, _⟩ => ⟨S512x1, .f32⟩
  | .local _ .vmem, ⟨63, _⟩ => ⟨S512x1, .f32⟩
  | .local _ .vmem, ⟨64, _⟩ => ⟨S512x12288, .f32⟩
  | .local _ .vmem, ⟨65, _⟩ => ⟨S512x12288, .f32⟩
  | .local _ .vmem, ⟨66, _⟩ => ⟨S1x12288, .f32⟩
  | .local _ .vmem, ⟨67, _⟩ => ⟨S512x1, .f32⟩
  | .local _ .vmem, ⟨68, _⟩ => ⟨S512x1, .f32⟩
  | .local _ .vmem, ⟨69, _⟩ => ⟨S1x1, .f32⟩
  | .local _ .vmem, ⟨70, _⟩ => ⟨S512x1, .f32⟩
  | .local _ .vmem, ⟨71, _⟩ => ⟨S512x1, .f32⟩
  | _, _ => ⟨S12288x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg2_1 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg4_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg2_1 : Ref sig .tc := ⟨.vmem, 68, rfl⟩
abbrev cc8_stg3_0 : Ref sig .tc := ⟨.vmem, 69, rfl⟩
abbrev cc8_stg4_0 : Ref sig .tc := ⟨.vmem, 70, rfl⟩
abbrev cc8_stg4_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc6_sem3_0 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem2_1 : DmaSem sig := 60
abbrev cc7_sem3_0 : DmaSem sig := 61
abbrev cc7_sem4_0 : DmaSem sig := 62
abbrev cc7_sem4_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem2_1 : DmaSem sig := 68
abbrev cc8_sem3_0 : DmaSem sig := 69
abbrev cc8_sem4_0 : DmaSem sig := 70
abbrev cc8_sem4_1 : DmaSem sig := 71

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![24], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x12288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x12288 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![24], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x12288 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x12288 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![24], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x12288 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x12288 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![24], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x12288 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x12288 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S512x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![24], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x12288 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x12288 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S512x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![24], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x12288 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x12288 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S512x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![24], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x12288 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x12288 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S512x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S512x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![24], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x12288 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x12288 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S512x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S512x1 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

class Facts₀ : Prop where
  shapeCasts_S12288x1_S1x12288 : S12288x1.ShapeCasts S1x12288
  slices_S9x1x1_S1x1x1_0_0_0 : S9x1x1.Slices ![0, 0, 0] S1x1x1
  shapeCasts_S1x1x1_S1x1 : S1x1x1.ShapeCasts S1x1
  inb_S512x12288_S512x12288_0_0 : ∀ a, (![0, 0] : Fin 2 → Nat) a + S512x12288.size a ≤ S512x12288.size a
  h_S512x12288 : 0 < S512x12288.numel
  inb_S1x12288_S1x12288_0_0 : ∀ a, (![0, 0] : Fin 2 → Nat) a + S1x12288.size a ≤ S1x12288.size a
  h_S1x12288 : 0 < S1x12288.numel
  shapeCasts_S1x12288_S1x12288 : S1x12288.ShapeCasts S1x12288
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S9x1x1_S1x1x1_1_0_0 : S9x1x1.Slices ![1, 0, 0] S1x1x1
  slices_S9x1x1_S1x1x1_2_0_0 : S9x1x1.Slices ![2, 0, 0] S1x1x1
  slices_S9x1x1_S1x1x1_3_0_0 : S9x1x1.Slices ![3, 0, 0] S1x1x1
  slices_S9x1x1_S1x1x1_4_0_0 : S9x1x1.Slices ![4, 0, 0] S1x1x1
  slices_S9x1x1_S1x1x1_5_0_0 : S9x1x1.Slices ![5, 0, 0] S1x1x1
  slices_S9x1x1_S1x1x1_6_0_0 : S9x1x1.Slices ![6, 0, 0] S1x1x1
  slices_S9x1x1_S1x1x1_7_0_0 : S9x1x1.Slices ![7, 0, 0] S1x1x1
  slices_S9x1x1_S1x1x1_8_0_0 : S9x1x1.Slices ![8, 0, 0] S1x1x1
  shapeCasts_S12288x1_S12288 : S12288x1.ShapeCasts S12288
  dot_S512x12288_S1x12288_S512x1_1_1_0_0_n_n_wf : DotDims.WF S512x12288 S1x12288 S512x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x12288.size a ≤ S12288x12288.size a
  hwx0_0 : ∀ i : grid0.Coords, EltTy.bits .f32 = 32 ∨ (Rect.block (s := S12288x12288) S512x12288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x12288.size a ≤ S1x12288.size a
  hwx0_1 : ∀ i : grid0.Coords, EltTy.bits .f32 = 32 ∨ (Rect.block (s := S1x12288) S1x12288.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S12288x1.size a
  hwx0_2 : ∀ i : grid0.Coords, EltTy.bits .f32 = 32 ∨ (Rect.block (s := S12288x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S12288x1.size a
  hwx0_4 : ∀ i : grid0.Coords, EltTy.bits .f32 = 32 ∨ (Rect.block (s := S12288x1) S512x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x12288.size a ≤ S12288x12288.size a
  hwx1_0 : ∀ i : grid1.Coords, EltTy.bits .f32 = 32 ∨ (Rect.block (s := S12288x12288) S512x12288.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x12288.size a ≤ S1x12288.size a
  hwx1_1 : ∀ i : grid1.Coords, EltTy.bits .f32 = 32 ∨ (Rect.block (s := S1x12288) S1x12288.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S12288x1.size a
  hwx1_2 : ∀ i : grid1.Coords, EltTy.bits .f32 = 32 ∨ (Rect.block (s := S12288x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S12288x1.size a
  hwx1_4 : ∀ i : grid1.Coords, EltTy.bits .f32 = 32 ∨ (Rect.block (s := S12288x1) S512x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x12288.size a ≤ S12288x12288.size a
  hwx2_0 : ∀ i : grid2.Coords, EltTy.bits .f32 = 32 ∨ (Rect.block (s := S12288x12288) S512x12288.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x12288.size a ≤ S1x12288.size a
  hwx2_1 : ∀ i : grid2.Coords, EltTy.bits .f32 = 32 ∨ (Rect.block (s := S1x12288) S1x12288.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S12288x1.size a
  hwx2_2 : ∀ i : grid2.Coords, EltTy.bits .f32 = 32 ∨ (Rect.block (s := S12288x1) S512x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1.size a ≤ S12288x1.size a
  hwx2_4 : ∀ i : grid2.Coords, EltTy.bits .f32 = 32 ∨ (Rect.block (s := S12288x1) S512x1.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x12288.size a ≤ S12288x12288.size a
  hwx3_0 : ∀ i : grid3.Coords, EltTy.bits .f32 = 32 ∨ (Rect.block (s := S12288x12288) S512x12288.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x12288.size a ≤ S1x12288.size a
  hwx3_1 : ∀ i : grid3.Coords, EltTy.bits .f32 = 32 ∨ (Rect.block (s := S1x12288) S1x12288.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1.size a ≤ S12288x1.size a
  hwx3_2 : ∀ i : grid3.Coords, EltTy.bits .f32 = 32 ∨ (Rect.block (s := S12288x1) S512x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x1.size a ≤ S12288x1.size a
  hwx3_4 : ∀ i : grid3.Coords, EltTy.bits .f32 = 32 ∨ (Rect.block (s := S12288x1) S512x1.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x12288.size a ≤ S12288x12288.size a
  hwx4_0 : ∀ i : grid4.Coords, EltTy.bits .f32 = 32 ∨ (Rect.block (s := S12288x12288) S512x12288.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x12288.size a ≤ S1x12288.size a
  hwx4_1 : ∀ i : grid4.Coords, EltTy.bits .f32 = 32 ∨ (Rect.block (s := S1x12288) S1x12288.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1.size a ≤ S12288x1.size a
  hwx4_2 : ∀ i : grid4.Coords, EltTy.bits .f32 = 32 ∨ (Rect.block (s := S12288x1) S512x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x1.size a ≤ S12288x1.size a
  hwx4_4 : ∀ i : grid4.Coords, EltTy.bits .f32 = 32 ∨ (Rect.block (s := S12288x1) S512x1.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x12288.size a ≤ S12288x12288.size a
  hwx5_0 : ∀ i : grid5.Coords, EltTy.bits .f32 = 32 ∨ (Rect.block (s := S12288x12288) S512x12288.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x12288.size a ≤ S1x12288.size a
  hwx5_1 : ∀ i : grid5.Coords, EltTy.bits .f32 = 32 ∨ (Rect.block (s := S1x12288) S1x12288.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x1.size a ≤ S12288x1.size a
  hwx5_2 : ∀ i : grid5.Coords, EltTy.bits .f32 = 32 ∨ (Rect.block (s := S12288x1) S512x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S512x1.size a ≤ S12288x1.size a
  hwx5_4 : ∀ i : grid5.Coords, EltTy.bits .f32 = 32 ∨ (Rect.block (s := S12288x1) S512x1.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x12288.size a ≤ S12288x12288.size a
  hwx6_0 : ∀ i : grid6.Coords, EltTy.bits .f32 = 32 ∨ (Rect.block (s := S12288x12288) S512x12288.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x12288.size a ≤ S1x12288.size a
  hwx6_1 : ∀ i : grid6.Coords, EltTy.bits .f32 = 32 ∨ (Rect.block (s := S1x12288) S1x12288.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S512x1.size a ≤ S12288x1.size a
  hwx6_2 : ∀ i : grid6.Coords, EltTy.bits .f32 = 32 ∨ (Rect.block (s := S12288x1) S512x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x1.size a ≤ S1x1.size a
  hwx6_3 : ∀ i : grid6.Coords, EltTy.bits .f32 = 32 ∨ (Rect.block (s := S1x1) S1x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S512x1.size a ≤ S12288x1.size a
  hwx6_4 : ∀ i : grid6.Coords, EltTy.bits .f32 = 32 ∨ (Rect.block (s := S12288x1) S512x1.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x12288.size a ≤ S12288x12288.size a
  hwx7_0 : ∀ i : grid7.Coords, EltTy.bits .f32 = 32 ∨ (Rect.block (s := S12288x12288) S512x12288.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x12288.size a ≤ S1x12288.size a
  hwx7_1 : ∀ i : grid7.Coords, EltTy.bits .f32 = 32 ∨ (Rect.block (s := S1x12288) S1x12288.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x1.size a ≤ S12288x1.size a
  hwx7_2 : ∀ i : grid7.Coords, EltTy.bits .f32 = 32 ∨ (Rect.block (s := S12288x1) S512x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S512x1.size a ≤ S12288x1.size a
  hwx7_4 : ∀ i : grid7.Coords, EltTy.bits .f32 = 32 ∨ (Rect.block (s := S12288x1) S512x1.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x12288.size a ≤ S12288x12288.size a
  hwx8_0 : ∀ i : grid8.Coords, EltTy.bits .f32 = 32 ∨ (Rect.block (s := S12288x12288) S512x12288.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x12288.size a ≤ S1x12288.size a
  hwx8_1 : ∀ i : grid8.Coords, EltTy.bits .f32 = 32 ∨ (Rect.block (s := S1x12288) S1x12288.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S512x1.size a ≤ S12288x1.size a
  hwx8_2 : ∀ i : grid8.Coords, EltTy.bits .f32 = 32 ∨ (Rect.block (s := S12288x1) S512x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x1.size a ≤ S1x1.size a
  hwx8_3 : ∀ i : grid8.Coords, EltTy.bits .f32 = 32 ∨ (Rect.block (s := S1x1) S1x1.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S512x1.size a ≤ S12288x1.size a
  hwx8_4 : ∀ i : grid8.Coords, EltTy.bits .f32 = 32 ∨ (Rect.block (s := S12288x1) S512x1.size (cc8_transform_4 i) (hinb8_4 i)).WholeWords (EltTy.packing .f32)

variable [Facts₀]

def dot_S512x12288_S1x12288_S512x1_1_1_0_0_n_n : DotDims S512x12288 S1x12288 S512x1 where
  lhsContracting := [1]
  rhsContracting := [1]
  lhsNonContracting := [0]
  rhsNonContracting := [0]
  lhsBatch := []
  rhsBatch := []
  wf := dot_S512x12288_S1x12288_S512x1_1_1_0_0_n_n_wf

abbrev win0_0 : Pipeline.Window sig grid0 :=
  Pipeline.Window.ofSpec (Memref.whole main_arg1) S512x12288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x12288.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S512x12288.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x12288.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S512x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S512x12288.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1x12288.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S512x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S512x12288.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S1x12288.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S512x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v14) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v15) S512x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg1) S512x12288.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v16) S1x12288.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg0) S512x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v18) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v19) S512x1.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_arg1) S512x12288.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v20) S1x12288.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg0) S512x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v22) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v23) S512x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_arg1) S512x12288.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v24) S1x12288.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg0) S512x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v26) S1x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v27) S512x1.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_arg1) S512x12288.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v28) S1x12288.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg0) S512x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v30) S1x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v31) S512x1.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_arg1) S512x12288.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v32) S1x12288.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg0) S512x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v34) S1x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v35) S512x1.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

class Facts : Prop extends Facts₀ where

variable [Facts]
-- ==== ReferenceIdeal.lean ====
abbrev S12288x1 : Shape := ⟨2, ![12288, 1]⟩
abbrev S12288x12288 : Shape := ⟨2, ![12288, 12288]⟩
abbrev S9x1x1 : Shape := ⟨3, ![9, 1, 1]⟩
abbrev S1x1x1 : Shape := ⟨3, ![1, 1, 1]⟩
abbrev S1x1 : Shape := ⟨2, ![1, 1]⟩
abbrev S_ : Shape := ⟨0, ![]⟩
abbrev S12288 : Shape := ⟨1, ![12288]⟩

abbrev nBuf : Space → Nat
  | .hbm => 145
  | .vmem => 0
  | .smem => 0
  | _ => 0

abbrev hbmTy0_0 (i : Nat) : BufTy := match i % 128 with
  | 0 => ⟨S12288x1, .f32⟩
  | 1 => ⟨S12288x12288, .f32⟩
  | 2 => ⟨S9x1x1, .f32⟩
  | 3 => ⟨S1x1x1, .f32⟩
  | 4 => ⟨S1x1, .f32⟩
  | 5 => ⟨S12288x1, .f32⟩
  | 6 => ⟨S_, .f32⟩
  | 7 => ⟨S12288x1, .f32⟩
  | 8 => ⟨S12288x1, .f32⟩
  | 9 => ⟨S_, .f32⟩
  | 10 => ⟨S12288x1, .f32⟩
  | 11 => ⟨S12288x1, .f32⟩
  | 12 => ⟨S12288x1, .f32⟩
  | 13 => ⟨S12288x1, .f32⟩
  | 14 => ⟨S1x1x1, .f32⟩
  | 15 => ⟨S1x1, .f32⟩
  | 16 => ⟨S12288x1, .f32⟩
  | 17 => ⟨S_, .f32⟩
  | 18 => ⟨S12288x1, .f32⟩
  | 19 => ⟨S12288x1, .f32⟩
  | 20 => ⟨S_, .f32⟩
  | 21 => ⟨S12288x1, .f32⟩
  | 22 => ⟨S12288x1, .f32⟩
  | 23 => ⟨S12288x1, .f32⟩
  | 24 => ⟨S12288x1, .f32⟩
  | 25 => ⟨S_, .f32⟩
  | 26 => ⟨S12288x1, .f32⟩
  | 27 => ⟨S12288x1, .i1⟩
  | 28 => ⟨S_, .f32⟩
  | 29 => ⟨S12288x1, .f32⟩
  | 30 => ⟨S12288x1, .f32⟩
  | 31 => ⟨S12288x1, .f32⟩
  | 32 => ⟨S1x1x1, .f32⟩
  | 33 => ⟨S1x1, .f32⟩
  | 34 => ⟨S12288x1, .f32⟩
  | 35 => ⟨S_, .f32⟩
  | 36 => ⟨S12288x1, .f32⟩
  | 37 => ⟨S12288x1, .f32⟩
  | 38 => ⟨S_, .f32⟩
  | 39 => ⟨S12288x1, .f32⟩
  | 40 => ⟨S12288x1, .f32⟩
  | 41 => ⟨S12288x1, .f32⟩
  | 42 => ⟨S12288x1, .f32⟩
  | 43 => ⟨S_, .f32⟩
  | 44 => ⟨S12288x1, .f32⟩
  | 45 => ⟨S12288x1, .f32⟩
  | 46 => ⟨S1x1x1, .f32⟩
  | 47 => ⟨S1x1, .f32⟩
  | 48 => ⟨S12288x1, .f32⟩
  | 49 => ⟨S_, .f32⟩
  | 50 => ⟨S12288x1, .f32⟩
  | 51 => ⟨S12288x1, .f32⟩
  | 52 => ⟨S_, .f32⟩
  | 53 => ⟨S12288x1, .f32⟩
  | 54 => ⟨S12288x1, .f32⟩
  | 55 => ⟨S12288x1, .f32⟩
  | 56 => ⟨S12288x1, .f32⟩
  | 57 => ⟨S_, .f32⟩
  | 58 => ⟨S12288x1, .f32⟩
  | 59 => ⟨S12288x1, .f32⟩
  | 60 => ⟨S1x1x1, .f32⟩
  | 61 => ⟨S1x1, .f32⟩
  | 62 => ⟨S12288x1, .f32⟩
  | 63 => ⟨S_, .f32⟩
  | 64 => ⟨S12288x1, .f32⟩
  | 65 => ⟨S12288x1, .f32⟩
  | 66 => ⟨S_, .f32⟩
  | 67 => ⟨S12288x1, .f32⟩
  | 68 => ⟨S12288x1, .f32⟩
  | 69 => ⟨S12288x1, .f32⟩
  | 70 => ⟨S12288x1, .f32⟩
  | 71 => ⟨S12288x1, .f32⟩
  | 72 => ⟨S12288x1, .f32⟩
  | 73 => ⟨S_, .f32⟩
  | 74 => ⟨S12288x1, .f32⟩
  | 75 => ⟨S12288x1, .f32⟩
  | 76 => ⟨S_, .f32⟩
  | 77 => ⟨S12288x1, .f32⟩
  | 78 => ⟨S12288x1, .f32⟩
  | 79 => ⟨S1x1x1, .f32⟩
  | 80 => ⟨S1x1, .f32⟩
  | 81 => ⟨S12288x1, .f32⟩
  | 82 => ⟨S_, .f32⟩
  | 83 => ⟨S12288x1, .f32⟩
  | 84 => ⟨S12288x1, .f32⟩
  | 85 => ⟨S_, .f32⟩
  | 86 => ⟨S12288x1, .f32⟩
  | 87 => ⟨S12288x1, .f32⟩
  | 88 => ⟨S12288x1, .f32⟩
  | 89 => ⟨S12288x1, .f32⟩
  | 90 => ⟨S_, .f32⟩
  | 91 => ⟨S12288x1, .f32⟩
  | 92 => ⟨S12288x1, .f32⟩
  | 93 => ⟨S1x1x1, .f32⟩
  | 94 => ⟨S1x1, .f32⟩
  | 95 => ⟨S12288x1, .f32⟩
  | 96 => ⟨S_, .f32⟩
  | 97 => ⟨S12288x1, .f32⟩
  | 98 => ⟨S12288x1, .f32⟩
  | 99 => ⟨S_, .f32⟩
  | 100 => ⟨S12288x1, .f32⟩
  | 101 => ⟨S12288x1, .f32⟩
  | 102 => ⟨S12288x1, .f32⟩
  | 103 => ⟨S12288x1, .f32⟩
  | 104 => ⟨S_, .f32⟩
  | 105 => ⟨S12288x1, .f32⟩
  | 106 => ⟨S12288x1, .f32⟩
  | 107 => ⟨S1x1x1, .f32⟩
  | 108 => ⟨S1x1, .f32⟩
  | 109 => ⟨S12288x1, .f32⟩
  | 110 => ⟨S_, .f32⟩
  | 111 => ⟨S12288x1, .f32⟩
  | 112 => ⟨S12288x1, .f32⟩
  | 113 => ⟨S_, .f32⟩
  | 114 => ⟨S12288x1, .f32⟩
  | 115 => ⟨S12288x1, .f32⟩
  | 116 => ⟨S12288x1, .f32⟩
  | 117 => ⟨S12288x1, .f32⟩
  | 118 => ⟨S_, .f32⟩
  | 119 => ⟨S12288x1, .f32⟩
  | 120 => ⟨S12288x1, .f32⟩
  | 121 => ⟨S1x1x1, .f32⟩
  | 122 => ⟨S1x1, .f32⟩
  | 123 => ⟨S12288x1, .f32⟩
  | 124 => ⟨S_, .f32⟩
  | 125 => ⟨S12288x1, .f32⟩
  | 126 => ⟨S12288x1, .f32⟩
  | 127 => ⟨S_, .f32⟩
  | _ => ⟨S12288x1, .f32⟩

abbrev hbmTy0_1 (i : Nat) : BufTy := match i % 128 with
  | 0 => ⟨S12288x1, .f32⟩
  | 1 => ⟨S12288x1, .f32⟩
  | 2 => ⟨S12288x1, .f32⟩
  | 3 => ⟨S12288x1, .f32⟩
  | 4 => ⟨S12288x1, .f32⟩
  | 5 => ⟨S12288x1, .f32⟩
  | 6 => ⟨S_, .f32⟩
  | 7 => ⟨S12288x1, .f32⟩
  | 8 => ⟨S12288x1, .f32⟩
  | 9 => ⟨S_, .f32⟩
  | 10 => ⟨S12288x1, .f32⟩
  | 11 => ⟨S12288x1, .f32⟩
  | 12 => ⟨S_, .f32⟩
  | 13 => ⟨S12288x1, .f32⟩
  | 14 => ⟨S12288x1, .f32⟩
  | 15 => ⟨S12288, .f32⟩
  | 16 => ⟨S12288, .i32⟩
  | _ => ⟨S12288x1, .f32⟩

abbrev hbmTy (i : Nat) : BufTy := match i / 128 with
  | 0 => hbmTy0_0 i
  | 1 => hbmTy0_1 i
  | _ => ⟨S12288x1, .f32⟩

abbrev bufTy : (tb : Table) → Fin (tcTables nBuf tb) → BufTy
  | .hbm, ⟨i, _⟩ => hbmTy i
  | _, _ => ⟨S12288x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call2_cst : Ref sig .tc := ⟨.hbm, 57, rfl⟩
abbrev main_call2_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_call3_cst : Ref sig .tc := ⟨.hbm, 90, rfl⟩
abbrev main_call3_v0 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_13 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call4_cst : Ref sig .tc := ⟨.hbm, 104, rfl⟩
abbrev main_call4_v0 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_cst_16 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call5_cst : Ref sig .tc := ⟨.hbm, 118, rfl⟩
abbrev main_call5_v0 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_17 : Ref sig .tc := ⟨.hbm, 124, rfl⟩
abbrev main_v87 : Ref sig .tc := ⟨.hbm, 125, rfl⟩
abbrev main_v88 : Ref sig .tc := ⟨.hbm, 126, rfl⟩
abbrev main_cst_18 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_19 : Ref sig .tc := ⟨.hbm, 134, rfl⟩
abbrev main_v95 : Ref sig .tc := ⟨.hbm, 135, rfl⟩
abbrev main_v96 : Ref sig .tc := ⟨.hbm, 136, rfl⟩
abbrev main_cst_20 : Ref sig .tc := ⟨.hbm, 137, rfl⟩
abbrev main_v97 : Ref sig .tc := ⟨.hbm, 138, rfl⟩
abbrev main_v98 : Ref sig .tc := ⟨.hbm, 139, rfl⟩
abbrev main_cst_21 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩

abbrev nD : Nat := 1
abbrev τ : Topo := Topo.v7x

variable {F : FTy → Type} [FloatOps F]

class Facts₀ : Prop where
  slices_S9x1x1_S1x1x1_0_0_0 : S9x1x1.Slices ![0, 0, 0] S1x1x1
  shapeCasts_S1x1x1_S1x1 : S1x1x1.ShapeCasts S1x1
  bcast_S_S12288x1 : S_.BroadcastsInDim S12288x1 (![] : Fin 0 → Fin S12288x1.rank)
  slices_S9x1x1_S1x1x1_1_0_0 : S9x1x1.Slices ![1, 0, 0] S1x1x1
  slices_S9x1x1_S1x1x1_2_0_0 : S9x1x1.Slices ![2, 0, 0] S1x1x1
  slices_S9x1x1_S1x1x1_3_0_0 : S9x1x1.Slices ![3, 0, 0] S1x1x1
  slices_S9x1x1_S1x1x1_4_0_0 : S9x1x1.Slices ![4, 0, 0] S1x1x1
  slices_S9x1x1_S1x1x1_5_0_0 : S9x1x1.Slices ![5, 0, 0] S1x1x1
  slices_S9x1x1_S1x1x1_6_0_0 : S9x1x1.Slices ![6, 0, 0] S1x1x1
  slices_S9x1x1_S1x1x1_7_0_0 : S9x1x1.Slices ![7, 0, 0] S1x1x1
  slices_S9x1x1_S1x1x1_8_0_0 : S9x1x1.Slices ![8, 0, 0] S1x1x1
  shapeCasts_S12288x1_S12288 : S12288x1.ShapeCasts S12288
  dot_S12288x12288_S12288x1_S12288x1_1_0_0_1_n_n_wf : DotDims.WF S12288x12288 S12288x1 S12288x1 [1] [0] [0] [1] [] []
  dot_S12288x1_S1x1_S12288x1_1_0_0_1_n_n_wf : DotDims.WF S12288x1 S1x1 S12288x1 [1] [0] [0] [1] [] []

variable [Facts₀]

def dot_S12288x12288_S12288x1_S12288x1_1_0_0_1_n_n : DotDims S12288x12288 S12288x1 S12288x1 where
  lhsContracting := [1]
  rhsContracting := [0]
  lhsNonContracting := [0]
  rhsNonContracting := [1]
  lhsBatch := []
  rhsBatch := []
  wf := dot_S12288x12288_S12288x1_S12288x1_1_0_0_1_n_n_wf
def dot_S12288x1_S1x1_S12288x1_1_0_0_1_n_n : DotDims S12288x1 S1x1 S12288x1 where
  lhsContracting := [1]
  rhsContracting := [0]
  lhsNonContracting := [0]
  rhsNonContracting := [1]
  lhsBatch := []
  rhsBatch := []
  wf := dot_S12288x1_S1x1_S12288x1_1_0_0_1_n_n_wf

class Facts : Prop extends Facts₀ where

variable [Facts]
-- ==== Proof.KRun.lean ====
import proofs.«160488_j4389456576945_2_alg».proof.Proof.Gen.KernelIdeal.Frame

/-!
# The kernel program's run, with its result buffer named

Every weakly fair execution of the kernel program's `@main` on the TensorCores, from any memory with zero
counters, terminates without a fault, and in every final state

* the result buffer `main_v38` holds `W19 m ρ c` at that buffer — the last boundary's contents of the fold of
  buffer contents over the program's segments, nine regions among ten stretches of host operations, from the
  launch memory `m` —, and
* the three argument arrays are as launched.

The thread state the last segment leaves holds EVERY unscoped TensorCore buffer at `W19 m ρ c`; the result buffer
lives in the device's main memory, so it is unscoped and is one of them, and reading it off that state gives the
first fact exactly as reading an argument array off it gives the others.
-/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the launch theorem's implicit arguments are found by unifying its conclusion with this one, which takes
-- unfolding plain definitions in a metavariable's type
set_option backward.isDefEq.respectTransparency.types false in
/-- The run of the kernel program: it terminates, nothing faulting, and every final state has the result buffer at
    the last boundary's contents `W19 m ρ c` and the argument arrays as launched. The launch over the segments ends
    in the thread state "every unscoped buffer at `W19 m ρ c`"; that state is read against the final state buffer by
    buffer, and the result buffer is among the unscoped ones. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v38) = Gen.W19 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v38 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c)⟩)

end Cert.KernelIdeal.KRun

end
-- ==== Proof.RefOps.lean ====
/- The reference program's statements as lists of host operations. The program is nine propagation steps and a
   conversion: step l slices weight l out of the weights and reshapes it, multiplies the square matrix by the previous
   column, mixes 0.7 of that with 0.3 of the input column, multiplies by the weight (a contraction over one entry) and
   applies the step's activation, whose operations (a called function's, listed at the call over the call's own
   buffers) end the step's list; the conversion reshapes the last column to a vector and converts it to integers.
   The same statements are also listed window by window as the program text groups them (sixty statements each, a
   call counted once), and the two groupings concatenate to one list. -/
import proofs.«160488_j4389456576945_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- Propagation step 1: weight 0, the product with the square matrix, the mix, the product with the weight, the activation. -/
abbrev opsL0 : List (HloOp τ sig (Elt F)) :=
  [ StableHlo.unary main_arg2 main_v0 ((extractStridedSlice S1x1x1 ![0, 0, 0] · slices_S9x1x1_S1x1x1_0_0_0) : (⟨S9x1x1, .f32⟩ : BufTy).Contents (Elt F) → (⟨S1x1x1, .f32⟩ : BufTy).Contents (Elt F)),
    StableHlo.reshape main_v0 main_v1 rfl shapeCasts_S1x1x1_S1x1,
    StableHlo.binary main_arg1 main_arg0 main_v2 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst (constant S_ .f32 0x3F333333#32),
    StableHlo.unary main_cst main_v3 (broadcastInDim S12288x1 ![] bcast_S_S12288x1 : (⟨S_, .f32⟩ : BufTy).Contents (Elt F) → (⟨S12288x1, .f32⟩ : BufTy).Contents (Elt F)),
    StableHlo.binary main_v3 main_v2 main_v4 (mulf : (⟨S12288x1, .f32⟩ : BufTy).Contents (Elt F) → (⟨S12288x1, .f32⟩ : BufTy).Contents (Elt F) → (⟨S12288x1, .f32⟩ : BufTy).Contents (Elt F)),
    StableHlo.nullary main_cst_0 (constant S_ .f32 0x3E99999A#32),
    StableHlo.unary main_cst_0 main_v5 (broadcastInDim S12288x1 ![] bcast_S_S12288x1 : (⟨S_, .f32⟩ : BufTy).Contents (Elt F) → (⟨S12288x1, .f32⟩ : BufTy).Contents (Elt F)),
    StableHlo.binary main_v5 main_arg0 main_v6 (mulf : (⟨S12288x1, .f32⟩ : BufTy).Contents (Elt F) → (⟨S12288x1, .f32⟩ : BufTy).Contents (Elt F) → (⟨S12288x1, .f32⟩ : BufTy).Contents (Elt F)),
    StableHlo.binary main_v4 main_v6 main_v7 (addf : (⟨S12288x1, .f32⟩ : BufTy).Contents (Elt F) → (⟨S12288x1, .f32⟩ : BufTy).Contents (Elt F) → (⟨S12288x1, .f32⟩ : BufTy).Contents (Elt F)),
    StableHlo.binary main_v7 main_v1 main_v8 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)) ]

/-- Propagation step 2: weight 1, the product with the square matrix, the mix, the product with the weight, the activation. -/
abbrev opsL1 : List (HloOp τ sig (Elt F)) :=
  [ StableHlo.unary main_arg2 main_v9 ((extractStridedSlice S1x1x1 ![1, 0, 0] · slices_S9x1x1_S1x1x1_1_0_0) : (⟨S9x1x1, .f32⟩ : BufTy).Contents (Elt F) → (⟨S1x1x1, .f32⟩ : BufTy).Contents (Elt F)),
    StableHlo.reshape main_v9 main_v10 rfl shapeCasts_S1x1x1_S1x1,
    StableHlo.binary main_arg1 main_v8 main_v11 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst_1 (constant S_ .f32 0x3F333333#32),
    StableHlo.unary main_cst_1 main_v12 (broadcastInDim S12288x1 ![] bcast_S_S12288x1 : (⟨S_, .f32⟩ : BufTy).Contents (Elt F) → (⟨S12288x1, .f32⟩ : BufTy).Contents (Elt F)),
    StableHlo.binary main_v12 main_v11 main_v13 (mulf : (⟨S12288x1, .f32⟩ : BufTy).Contents (Elt F) → (⟨S12288x1, .f32⟩ : BufTy).Contents (Elt F) → (⟨S12288x1, .f32⟩ : BufTy).Contents (Elt F)),
    StableHlo.nullary main_cst_2 (constant S_ .f32 0x3E99999A#32),
    StableHlo.unary main_cst_2 main_v14 (broadcastInDim S12288x1 ![] bcast_S_S12288x1 : (⟨S_, .f32⟩ : BufTy).Contents (Elt F) → (⟨S12288x1, .f32⟩ : BufTy).Contents (Elt F)),
    StableHlo.binary main_v14 main_arg0 main_v15 (mulf : (⟨S12288x1, .f32⟩ : BufTy).Contents (Elt F) → (⟨S12288x1, .f32⟩ : BufTy).Contents (Elt F) → (⟨S12288x1, .f32⟩ : BufTy).Contents (Elt F)),
    StableHlo.binary main_v13 main_v15 main_v16 (addf : (⟨S12288x1, .f32⟩ : BufTy).Contents (Elt F) → (⟨S12288x1, .f32⟩ : BufTy).Contents (Elt F) → (⟨S12288x1, .f32⟩ : BufTy).Contents (Elt F)),
    StableHlo.binary main_v16 main_v10 main_v17 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.TRef.nullary main_call0.cst (constant S_ .f32 0x00000000#32),
    StableHlo.TRef.unary main_call0.cst main_call0.v0 (broadcastInDim S12288x1 ![] bcast_S_S12288x1),
    StableHlo.TRef.binary (.of main_v17) main_call0.v0 main_call0.v1 (cmpf .oge),
    StableHlo.TRef.nullary main_call0.cst_0 (constant S_ .f32 0x3C23D70A#32),
    StableHlo.TRef.unary main_call0.cst_0 main_call0.v2 (broadcastInDim S12288x1 ![] bcast_S_S12288x1),
    StableHlo.TRef.binary main_call0.v2 (.of main_v17) main_call0.v3 mulf,
    StableHlo.TRef.ternary main_call0.v1 (.of main_v17) main_call0.v3 main_call0.call0.v0 select ]

/-- Propagation step 3: weight 2, the product with the square matrix, the mix, the product with the weight, the activation. -/
abbrev opsL2 : List (HloOp τ sig (Elt F)) :=
  [ StableHlo.unary main_arg2 main_v19 ((extractStridedSlice S1x1x1 ![2, 0, 0] · slices_S9x1x1_S1x1x1_2_0_0) : (⟨S9x1x1, .f32⟩ : BufTy).Contents (Elt F) → (⟨S1x1x1, .f32⟩ : BufTy).Contents (Elt F)),
    StableHlo.reshape main_v19 main_v20 rfl shapeCasts_S1x1x1_S1x1,
    StableHlo.binary main_arg1 main_v18 main_v21 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst_3 (constant S_ .f32 0x3F333333#32),
    StableHlo.unary main_cst_3 main_v22 (broadcastInDim S12288x1 ![] bcast_S_S12288x1 : (⟨S_, .f32⟩ : BufTy).Contents (Elt F) → (⟨S12288x1, .f32⟩ : BufTy).Contents (Elt F)),
    StableHlo.binary main_v22 main_v21 main_v23 (mulf : (⟨S12288x1, .f32⟩ : BufTy).Contents (Elt F) → (⟨S12288x1, .f32⟩ : BufTy).Contents (Elt F) → (⟨S12288x1, .f32⟩ : BufTy).Contents (Elt F)),
    StableHlo.nullary main_cst_4 (constant S_ .f32 0x3E99999A#32),
    StableHlo.unary main_cst_4 main_v24 (broadcastInDim S12288x1 ![] bcast_S_S12288x1 : (⟨S_, .f32⟩ : BufTy).Contents (Elt F) → (⟨S12288x1, .f32⟩ : BufTy).Contents (Elt F)),
    StableHlo.binary main_v24 main_arg0 main_v25 (mulf : (⟨S12288x1, .f32⟩ : BufTy).Contents (Elt F) → (⟨S12288x1, .f32⟩ : BufTy).Contents (Elt F) → (⟨S12288x1, .f32⟩ : BufTy).Contents (Elt F)),
    StableHlo.binary main_v23 main_v25 main_v26 (addf : (⟨S12288x1, .f32⟩ : BufTy).Contents (Elt F) → (⟨S12288x1, .f32⟩ : BufTy).Contents (Elt F) → (⟨S12288x1, .f32⟩ : BufTy).Contents (Elt F)),
    StableHlo.binary main_v26 main_v20 main_v27 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.TRef.nullary main_call1.cst (constant S_ .f32 0x00000000#32),
    StableHlo.TRef.unary main_call1.cst main_call1.v0 (broadcastInDim S12288x1 ![] bcast_S_S12288x1),
    StableHlo.TRef.binary (.of main_v27) main_call1.v0 main_call1.v1 maximumf ]

/-- Propagation step 4: weight 3, the product with the square matrix, the mix, the product with the weight, the activation. -/
abbrev opsL3 : List (HloOp τ sig (Elt F)) :=
  [ StableHlo.unary main_arg2 main_v29 ((extractStridedSlice S1x1x1 ![3, 0, 0] · slices_S9x1x1_S1x1x1_3_0_0) : (⟨S9x1x1, .f32⟩ : BufTy).Contents (Elt F) → (⟨S1x1x1, .f32⟩ : BufTy).Contents (Elt F)),
    StableHlo.reshape main_v29 main_v30 rfl shapeCasts_S1x1x1_S1x1,
    StableHlo.binary main_arg1 main_v28 main_v31 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst_5 (constant S_ .f32 0x3F333333#32),
    StableHlo.unary main_cst_5 main_v32 (broadcastInDim S12288x1 ![] bcast_S_S12288x1 : (⟨S_, .f32⟩ : BufTy).Contents (Elt F) → (⟨S12288x1, .f32⟩ : BufTy).Contents (Elt F)),
    StableHlo.binary main_v32 main_v31 main_v33 (mulf : (⟨S12288x1, .f32⟩ : BufTy).Contents (Elt F) → (⟨S12288x1, .f32⟩ : BufTy).Contents (Elt F) → (⟨S12288x1, .f32⟩ : BufTy).Contents (Elt F)),
    StableHlo.nullary main_cst_6 (constant S_ .f32 0x3E99999A#32),
    StableHlo.unary main_cst_6 main_v34 (broadcastInDim S12288x1 ![] bcast_S_S12288x1 : (⟨S_, .f32⟩ : BufTy).Contents (Elt F) → (⟨S12288x1, .f32⟩ : BufTy).Contents (Elt F)),
    StableHlo.binary main_v34 main_arg0 main_v35 (mulf : (⟨S12288x1, .f32⟩ : BufTy).Contents (Elt F) → (⟨S12288x1, .f32⟩ : BufTy).Contents (Elt F) → (⟨S12288x1, .f32⟩ : BufTy).Contents (Elt F)),
    StableHlo.binary main_v33 main_v35 main_v36 (addf : (⟨S12288x1, .f32⟩ : BufTy).Contents (Elt F) → (⟨S12288x1, .f32⟩ : BufTy).Contents (Elt F) → (⟨S12288x1, .f32⟩ : BufTy).Contents (Elt F)),
    StableHlo.binary main_v36 main_v30 main_v37 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.TRef.nullary main_call2.cst (constant S_ .f32 0x00000000#32),
    StableHlo.TRef.unary main_call2.cst main_call2.v0 (broadcastInDim S12288x1 ![] bcast_S_S12288x1),
    StableHlo.TRef.binary (.of main_v37) main_call2.v0 main_call2.v1 maximumf ]

/-- Propagation step 5: weight 4, the product with the square matrix, the mix, the product with the weight, the activation. -/
abbrev opsL4 : List (HloOp τ sig (Elt F)) :=
  [ StableHlo.unary main_arg2 main_v39 ((extractStridedSlice S1x1x1 ![4, 0, 0] · slices_S9x1x1_S1x1x1_4_0_0) : (⟨S9x1x1, .f32⟩ : BufTy).Contents (Elt F) → (⟨S1x1x1, .f32⟩ : BufTy).Contents (Elt F)),
    StableHlo.reshape main_v39 main_v40 rfl shapeCasts_S1x1x1_S1x1,
    StableHlo.binary main_arg1 main_v38 main_v41 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst_7 (constant S_ .f32 0x3F333333#32),
    StableHlo.unary main_cst_7 main_v42 (broadcastInDim S12288x1 ![] bcast_S_S12288x1 : (⟨S_, .f32⟩ : BufTy).Contents (Elt F) → (⟨S12288x1, .f32⟩ : BufTy).Contents (Elt F)),
    StableHlo.binary main_v42 main_v41 main_v43 (mulf : (⟨S12288x1, .f32⟩ : BufTy).Contents (Elt F) → (⟨S12288x1, .f32⟩ : BufTy).Contents (Elt F) → (⟨S12288x1, .f32⟩ : BufTy).Contents (Elt F)),
    StableHlo.nullary main_cst_8 (constant S_ .f32 0x3E99999A#32),
    StableHlo.unary main_cst_8 main_v44 (broadcastInDim S12288x1 ![] bcast_S_S12288x1 : (⟨S_, .f32⟩ : BufTy).Contents (Elt F) → (⟨S12288x1, .f32⟩ : BufTy).Contents (Elt F)),
    StableHlo.binary main_v44 main_arg0 main_v45 (mulf : (⟨S12288x1, .f32⟩ : BufTy).Contents (Elt F) → (⟨S12288x1, .f32⟩ : BufTy).Contents (Elt F) → (⟨S12288x1, .f32⟩ : BufTy).Contents (Elt F)),
    StableHlo.binary main_v43 main_v45 main_v46 (addf : (⟨S12288x1, .f32⟩ : BufTy).Contents (Elt F) → (⟨S12288x1, .f32⟩ : BufTy).Contents (Elt F) → (⟨S12288x1, .f32⟩ : BufTy).Contents (Elt F)),
    StableHlo.binary main_v46 main_v40 main_v47 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.unary main_v47 main_v48 (Host.negf : (⟨S12288x1, .f32⟩ : BufTy).Contents (Elt F) → (⟨S12288x1, .f32⟩ : BufTy).Contents (Elt F)),
    StableHlo.unary main_v48 main_v49 (Host.exp : (⟨S12288x1, .f32⟩ : BufTy).Contents (Elt F) → (⟨S12288x1, .f32⟩ : BufTy).Contents (Elt F)),
    StableHlo.nullary main_cst_9 (constant S_ .f32 0x3F800000#32),
    StableHlo.unary main_cst_9 main_v50 (broadcastInDim S12288x1 ![] bcast_S_S12288x1 : (⟨S_, .f32⟩ : BufTy).Contents (Elt F) → (⟨S12288x1, .f32⟩ : BufTy).Contents (Elt F)),
    StableHlo.binary main_v50 main_v49 main_v51 (addf : (⟨S12288x1, .f32⟩ : BufTy).Contents (Elt F) → (⟨S12288x1, .f32⟩ : BufTy).Contents (Elt F) → (⟨S12288x1, .f32⟩ : BufTy).Contents (Elt F)),
    StableHlo.nullary main_cst_10 (constant S_ .f32 0x3F800000#32),
    StableHlo.unary main_cst_10 main_v52 (broadcastInDim S12288x1 ![] bcast_S_S12288x1 : (⟨S_, .f32⟩ : BufTy).Contents (Elt F) → (⟨S12288x1, .f32⟩ : BufTy).Contents (Elt F)),
    StableHlo.binary main_v52 main_v51 main_v53 (Host.divf : (⟨S12288x1, .f32⟩ : BufTy).Contents (Elt F) → (⟨S12288x1, .f32⟩ : BufTy).Contents (Elt F) → (⟨S12288x1, .f32⟩ : BufTy).Contents (Elt F)) ]

/-- Propagation step 6: weight 5, the product with the square matrix, the mix, the product with the weight, the activation. -/
abbrev opsL5 : List (HloOp τ sig (Elt F)) :=
  [ StableHlo.unary main_arg2 main_v54 ((extractStridedSlice S1x1x1 ![5, 0, 0] · slices_S9x1x1_S1x1x1_5_0_0) : (⟨S9x1x1, .f32⟩ : BufTy).Contents (Elt F) → (⟨S1x1x1, .f32⟩ : BufTy).Contents (Elt F)),
    StableHlo.reshape main_v54 main_v55 rfl shapeCasts_S1x1x1_S1x1,
    StableHlo.binary main_arg1 main_v53 main_v56 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst_11 (constant S_ .f32 0x3F333333#32),
    StableHlo.unary main_cst_11 main_v57 (broadcastInDim S12288x1 ![] bcast_S_S12288x1 : (⟨S_, .f32⟩ : BufTy).Contents (Elt F) → (⟨S12288x1, .f32⟩ : BufTy).Contents (Elt F)),
    StableHlo.binary main_v57 main_v56 main_v58 (mulf : (⟨S12288x1, .f32⟩ : BufTy).Contents (Elt F) → (⟨S12288x1, .f32⟩ : BufTy).Contents (Elt F) → (⟨S12288x1, .f32⟩ : BufTy).Contents (Elt F)),
    StableHlo.nullary main_cst_12 (constant S_ .f32 0x3E99999A#32),
    StableHlo.unary main_cst_12 main_v59 (broadcastInDim S12288x1 ![] bcast_S_S12288x1 : (⟨S_, .f32⟩ : BufTy).Contents (Elt F) → (⟨S12288x1, .f32⟩ : BufTy).Contents (Elt F)),
    StableHlo.binary main_v59 main_arg0 main_v60 (mulf : (⟨S12288x1, .f32⟩ : BufTy).Contents (Elt F) → (⟨S12288x1, .f32⟩ : BufTy).Contents (Elt F) → (⟨S12288x1, .f32⟩ : BufTy).Contents (Elt F)),
    StableHlo.binary main_v58 main_v60 main_v61 (addf : (⟨S12288x1, .f32⟩ : BufTy).Contents (Elt F) → (⟨S12288x1, .f32⟩ : BufTy).Contents (Elt F) → (⟨S12288x1, .f32⟩ : BufTy).Contents (Elt F)),
    StableHlo.binary main_v61 main_v55 main_v62 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.TRef.nullary main_call3.cst (constant S_ .f32 0x00000000#32),
    StableHlo.TRef.unary main_call3.cst main_call3.v0 (broadcastInDim S12288x1 ![] bcast_S_S12288x1),
    StableHlo.TRef.binary (.of main_v62) main_call3.v0 main_call3.v1 maximumf ]

/-- Propagation step 7: weight 6, the product with the square matrix, the mix, the product with the weight, the activation. -/
abbrev opsL6 : List (HloOp τ sig (Elt F)) :=
  [ StableHlo.unary main_arg2 main_v64 ((extractStridedSlice S1x1x1 ![6, 0, 0] · slices_S9x1x1_S1x1x1_6_0_0) : (⟨S9x1x1, .f32⟩ : BufTy).Contents (Elt F) → (⟨S1x1x1, .f32⟩ : BufTy).Contents (Elt F)),
    StableHlo.reshape main_v64 main_v65 rfl shapeCasts_S1x1x1_S1x1,
    StableHlo.binary main_arg1 main_v63 main_v66 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst_13 (constant S_ .f32 0x3F333333#32),
    StableHlo.unary main_cst_13 main_v67 (broadcastInDim S12288x1 ![] bcast_S_S12288x1 : (⟨S_, .f32⟩ : BufTy).Contents (Elt F) → (⟨S12288x1, .f32⟩ : BufTy).Contents (Elt F)),
    StableHlo.binary main_v67 main_v66 main_v68 (mulf : (⟨S12288x1, .f32⟩ : BufTy).Contents (Elt F) → (⟨S12288x1, .f32⟩ : BufTy).Contents (Elt F) → (⟨S12288x1, .f32⟩ : BufTy).Contents (Elt F)),
    StableHlo.nullary main_cst_14 (constant S_ .f32 0x3E99999A#32),
    StableHlo.unary main_cst_14 main_v69 (broadcastInDim S12288x1 ![] bcast_S_S12288x1 : (⟨S_, .f32⟩ : BufTy).Contents (Elt F) → (⟨S12288x1, .f32⟩ : BufTy).Contents (Elt F)),
    StableHlo.binary main_v69 main_arg0 main_v70 (mulf : (⟨S12288x1, .f32⟩ : BufTy).Contents (Elt F) → (⟨S12288x1, .f32⟩ : BufTy).Contents (Elt F) → (⟨S12288x1, .f32⟩ : BufTy).Contents (Elt F)),
    StableHlo.binary main_v68 main_v70 main_v71 (addf : (⟨S12288x1, .f32⟩ : BufTy).Contents (Elt F) → (⟨S12288x1, .f32⟩ : BufTy).Contents (Elt F) → (⟨S12288x1, .f32⟩ : BufTy).Contents (Elt F)),
    StableHlo.binary main_v71 main_v65 main_v72 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.TRef.nullary main_call4.cst (constant S_ .f32 0x00000000#32),
    StableHlo.TRef.unary main_call4.cst main_call4.v0 (broadcastInDim S12288x1 ![] bcast_S_S12288x1),
    StableHlo.TRef.binary (.of main_v72) main_call4.v0 main_call4.v1 maximumf ]

/-- Propagation step 8: weight 7, the product with the square matrix, the mix, the product with the weight, the activation. -/
abbrev opsL7 : List (HloOp τ sig (Elt F)) :=
  [ StableHlo.unary main_arg2 main_v74 ((extractStridedSlice S1x1x1 ![7, 0, 0] · slices_S9x1x1_S1x1x1_7_0_0) : (⟨S9x1x1, .f32⟩ : BufTy).Contents (Elt F) → (⟨S1x1x1, .f32⟩ : BufTy).Contents (Elt F)),
    StableHlo.reshape main_v74 main_v75 rfl shapeCasts_S1x1x1_S1x1,
    StableHlo.binary main_arg1 main_v73 main_v76 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst_15 (constant S_ .f32 0x3F333333#32),
    StableHlo.unary main_cst_15 main_v77 (broadcastInDim S12288x1 ![] bcast_S_S12288x1 : (⟨S_, .f32⟩ : BufTy).Contents (Elt F) → (⟨S12288x1, .f32⟩ : BufTy).Contents (Elt F)),
    StableHlo.binary main_v77 main_v76 main_v78 (mulf : (⟨S12288x1, .f32⟩ : BufTy).Contents (Elt F) → (⟨S12288x1, .f32⟩ : BufTy).Contents (Elt F) → (⟨S12288x1, .f32⟩ : BufTy).Contents (Elt F)),
    StableHlo.nullary main_cst_16 (constant S_ .f32 0x3E99999A#32),
    StableHlo.unary main_cst_16 main_v79 (broadcastInDim S12288x1 ![] bcast_S_S12288x1 : (⟨S_, .f32⟩ : BufTy).Contents (Elt F) → (⟨S12288x1, .f32⟩ : BufTy).Contents (Elt F)),
    StableHlo.binary main_v79 main_arg0 main_v80 (mulf : (⟨S12288x1, .f32⟩ : BufTy).Contents (Elt F) → (⟨S12288x1, .f32⟩ : BufTy).Contents (Elt F) → (⟨S12288x1, .f32⟩ : BufTy).Contents (Elt F)),
    StableHlo.binary main_v78 main_v80 main_v81 (addf : (⟨S12288x1, .f32⟩ : BufTy).Contents (Elt F) → (⟨S12288x1, .f32⟩ : BufTy).Contents (Elt F) → (⟨S12288x1, .f32⟩ : BufTy).Contents (Elt F)),
    StableHlo.binary main_v81 main_v75 main_v82 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.TRef.nullary main_call5.cst (constant S_ .f32 0x00000000#32),
    StableHlo.TRef.unary main_call5.cst main_call5.v0 (broadcastInDim S12288x1 ![] bcast_S_S12288x1),
    StableHlo.TRef.binary (.of main_v82) main_call5.v0 main_call5.v1 maximumf ]

/-- Propagation step 9: weight 8, the product with the square matrix, the mix, the product with the weight, the activation. -/
abbrev opsL8 : List (HloOp τ sig (Elt F)) :=
  [ StableHlo.unary main_arg2 main_v84 ((extractStridedSlice S1x1x1 ![8, 0, 0] · slices_S9x1x1_S1x1x1_8_0_0) : (⟨S9x1x1, .f32⟩ : BufTy).Contents (Elt F) → (⟨S1x1x1, .f32⟩ : BufTy).Contents (Elt F)),
    StableHlo.reshape main_v84 main_v85 rfl shapeCasts_S1x1x1_S1x1,
    StableHlo.binary main_arg1 main_v83 main_v86 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst_17 (constant S_ .f32 0x3F333333#32),
    StableHlo.unary main_cst_17 main_v87 (broadcastInDim S12288x1 ![] bcast_S_S12288x1 : (⟨S_, .f32⟩ : BufTy).Contents (Elt F) → (⟨S12288x1, .f32⟩ : BufTy).Contents (Elt F)),
    StableHlo.binary main_v87 main_v86 main_v88 (mulf : (⟨S12288x1, .f32⟩ : BufTy).Contents (Elt F) → (⟨S12288x1, .f32⟩ : BufTy).Contents (Elt F) → (⟨S12288x1, .f32⟩ : BufTy).Contents (Elt F)),
    StableHlo.nullary main_cst_18 (constant S_ .f32 0x3E99999A#32),
    StableHlo.unary main_cst_18 main_v89 (broadcastInDim S12288x1 ![] bcast_S_S12288x1 : (⟨S_, .f32⟩ : BufTy).Contents (Elt F) → (⟨S12288x1, .f32⟩ : BufTy).Contents (Elt F)),
    StableHlo.binary main_v89 main_arg0 main_v90 (mulf : (⟨S12288x1, .f32⟩ : BufTy).Contents (Elt F) → (⟨S12288x1, .f32⟩ : BufTy).Contents (Elt F) → (⟨S12288x1, .f32⟩ : BufTy).Contents (Elt F)),
    StableHlo.binary main_v88 main_v90 main_v91 (addf : (⟨S12288x1, .f32⟩ : BufTy).Contents (Elt F) → (⟨S12288x1, .f32⟩ : BufTy).Contents (Elt F) → (⟨S12288x1, .f32⟩ : BufTy).Contents (Elt F)),
    StableHlo.binary main_v91 main_v85 main_v92 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.unary main_v92 main_v93 (Host.negf : (⟨S12288x1, .f32⟩ : BufTy).Contents (Elt F) → (⟨S12288x1, .f32⟩ : BufTy).Contents (Elt F)),
    StableHlo.unary main_v93 main_v94 (Host.exp : (⟨S12288x1, .f32⟩ : BufTy).Contents (Elt F) → (⟨S12288x1, .f32⟩ : BufTy).Contents (Elt F)),
    StableHlo.nullary main_cst_19 (constant S_ .f32 0x3F800000#32),
    StableHlo.unary main_cst_19 main_v95 (broadcastInDim S12288x1 ![] bcast_S_S12288x1 : (⟨S_, .f32⟩ : BufTy).Contents (Elt F) → (⟨S12288x1, .f32⟩ : BufTy).Contents (Elt F)),
    StableHlo.binary main_v95 main_v94 main_v96 (addf : (⟨S12288x1, .f32⟩ : BufTy).Contents (Elt F) → (⟨S12288x1, .f32⟩ : BufTy).Contents (Elt F) → (⟨S12288x1, .f32⟩ : BufTy).Contents (Elt F)),
    StableHlo.nullary main_cst_20 (constant S_ .f32 0x3F800000#32),
    StableHlo.unary main_cst_20 main_v97 (broadcastInDim S12288x1 ![] bcast_S_S12288x1 : (⟨S_, .f32⟩ : BufTy).Contents (Elt F) → (⟨S12288x1, .f32⟩ : BufTy).Contents (Elt F)),
    StableHlo.binary main_v97 main_v96 main_v98 (Host.divf : (⟨S12288x1, .f32⟩ : BufTy).Contents (Elt F) → (⟨S12288x1, .f32⟩ : BufTy).Contents (Elt F) → (⟨S12288x1, .f32⟩ : BufTy).Contents (Elt F)),
    StableHlo.nullary main_cst_21 (constant S_ .f32 0x46400000#32),
    StableHlo.unary main_cst_21 main_v99 (broadcastInDim S12288x1 ![] bcast_S_S12288x1 : (⟨S_, .f32⟩ : BufTy).Contents (Elt F) → (⟨S12288x1, .f32⟩ : BufTy).Contents (Elt F)),
    StableHlo.binary main_v99 main_v98 main_v100 (mulf : (⟨S12288x1, .f32⟩ : BufTy).Contents (Elt F) → (⟨S12288x1, .f32⟩ : BufTy).Contents (Elt F) → (⟨S12288x1, .f32⟩ : BufTy).Contents (Elt F)) ]

/-- The conversion: the last column as a vector, then to 32-bit integers. -/
abbrev opsTail : List (HloOp τ sig (Elt F)) :=
  [ StableHlo.reshape main_v100 main_v101 rfl shapeCasts_S12288x1_S12288,
    StableHlo.unary main_v101 main_v102 (fptosi 32 : (⟨S12288, .f32⟩ : BufTy).Contents (Elt F) → (⟨S12288, .i32⟩ : BufTy).Contents (Elt F)) ]

/-- The statements of window 0 of the program text, in order. -/
abbrev opsP0 : List (HloOp τ sig (Elt F)) :=
  [ StableHlo.unary main_arg2 main_v0 ((extractStridedSlice S1x1x1 ![0, 0, 0] · slices_S9x1x1_S1x1x1_0_0_0) : (⟨S9x1x1, .f32⟩ : BufTy).Contents (Elt F) → (⟨S1x1x1, .f32⟩ : BufTy).Contents (Elt F)),
    StableHlo.reshape main_v0 main_v1 rfl shapeCasts_S1x1x1_S1x1,
    StableHlo.binary main_arg1 main_arg0 main_v2 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst (constant S_ .f32 0x3F333333#32),
    StableHlo.unary main_cst main_v3 (broadcastInDim S12288x1 ![] bcast_S_S12288x1 : (⟨S_, .f32⟩ : BufTy).Contents (Elt F) → (⟨S12288x1, .f32⟩ : BufTy).Contents (Elt F)),
    StableHlo.binary main_v3 main_v2 main_v4 (mulf : (⟨S12288x1, .f32⟩ : BufTy).Contents (Elt F) → (⟨S12288x1, .f32⟩ : BufTy).Contents (Elt F) → (⟨S12288x1, .f32⟩ : BufTy).Contents (Elt F)),
    StableHlo.nullary main_cst_0 (constant S_ .f32 0x3E99999A#32),
    StableHlo.unary main_cst_0 main_v5 (broadcastInDim S12288x1 ![] bcast_S_S12288x1 : (⟨S_, .f32⟩ : BufTy).Contents (Elt F) → (⟨S12288x1, .f32⟩ : BufTy).Contents (Elt F)),
    StableHlo.binary main_v5 main_arg0 main_v6 (mulf : (⟨S12288x1, .f32⟩ : BufTy).Contents (Elt F) → (⟨S12288x1, .f32⟩ : BufTy).Contents (Elt F) → (⟨S12288x1, .f32⟩ : BufTy).Contents (Elt F)),
    StableHlo.binary main_v4 main_v6 main_v7 (addf : (⟨S12288x1, .f32⟩ : BufTy).Contents (Elt F) → (⟨S12288x1, .f32⟩ : BufTy).Contents (Elt F) → (⟨S12288x1, .f32⟩ : BufTy).Contents (Elt F)),
    StableHlo.binary main_v7 main_v1 main_v8 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.unary main_arg2 main_v9 ((extractStridedSlice S1x1x1 ![1, 0, 0] · slices_S9x1x1_S1x1x1_1_0_0) : (⟨S9x1x1, .f32⟩ : BufTy).Contents (Elt F) → (⟨S1x1x1, .f32⟩ : BufTy).Contents (Elt F)),
    StableHlo.reshape main_v9 main_v10 rfl shapeCasts_S1x1x1_S1x1,
    StableHlo.binary main_arg1 main_v8 main_v11 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst_1 (constant S_ .f32 0x3F333333#32),
    StableHlo.unary main_cst_1 main_v12 (broadcastInDim S12288x1 ![] bcast_S_S12288x1 : (⟨S_, .f32⟩ : BufTy).Contents (Elt F) → (⟨S12288x1, .f32⟩ : BufTy).Contents (Elt F)),
    StableHlo.binary main_v12 main_v11 main_v13 (mulf : (⟨S12288x1, .f32⟩ : BufTy).Contents (Elt F) → (⟨S12288x1, .f32⟩ : BufTy).Contents (Elt F) → (⟨S12288x1, .f32⟩ : BufTy).Contents (Elt F)),
    StableHlo.nullary main_cst_2 (constant S_ .f32 0x3E99999A#32),
    StableHlo.unary main_cst_2 main_v14 (broadcastInDim S12288x1 ![] bcast_S_S12288x1 : (⟨S_, .f32⟩ : BufTy).Contents (Elt F) → (⟨S12288x1, .f32⟩ : BufTy).Contents (Elt F)),
    StableHlo.binary main_v14 main_arg0 main_v15 (mulf : (⟨S12288x1, .f32⟩ : BufTy).Contents (Elt F) → (⟨S12288x1, .f32⟩ : BufTy).Contents (Elt F) → (⟨S12288x1, .f32⟩ : BufTy).Contents (Elt F)),
    StableHlo.binary main_v13 main_v15 main_v16 (addf : (⟨S12288x1, .f32⟩ : BufTy).Contents (Elt F) → (⟨S12288x1, .f32⟩ : BufTy).Contents (Elt F) → (⟨S12288x1, .f32⟩ : BufTy).Contents (Elt F)),
    StableHlo.binary main_v16 main_v10 main_v17 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.TRef.nullary main_call0.cst (constant S_ .f32 0x00000000#32),
    StableHlo.TRef.unary main_call0.cst main_call0.v0 (broadcastInDim S12288x1 ![] bcast_S_S12288x1),
    StableHlo.TRef.binary (.of main_v17) main_call0.v0 main_call0.v1 (cmpf .oge),
    StableHlo.TRef.nullary main_call0.cst_0 (constant S_ .f32 0x3C23D70A#32),
    StableHlo.TRef.unary main_call0.cst_0 main_call0.v2 (broadcastInDim S12288x1 ![] bcast_S_S12288x1),
    StableHlo.TRef.binary main_call0.v2 (.of main_v17) main_call0.v3 mulf,
    StableHlo.TRef.ternary main_call0.v1 (.of main_v17) main_call0.v3 main_call0.call0.v0 select,
    StableHlo.unary main_arg2 main_v19 ((extractStridedSlice S1x1x1 ![2, 0, 0] · slices_S9x1x1_S1x1x1_2_0_0) : (⟨S9x1x1, .f32⟩ : BufTy).Contents (Elt F) → (⟨S1x1x1, .f32⟩ : BufTy).Contents (Elt F)),
    StableHlo.reshape main_v19 main_v20 rfl shapeCasts_S1x1x1_S1x1,
    StableHlo.binary main_arg1 main_v18 main_v21 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst_3 (constant S_ .f32 0x3F333333#32),
    StableHlo.unary main_cst_3 main_v22 (broadcastInDim S12288x1 ![] bcast_S_S12288x1 : (⟨S_, .f32⟩ : BufTy).Contents (Elt F) → (⟨S12288x1, .f32⟩ : BufTy).Contents (Elt F)),
    StableHlo.binary main_v22 main_v21 main_v23 (mulf : (⟨S12288x1, .f32⟩ : BufTy).Contents (Elt F) → (⟨S12288x1, .f32⟩ : BufTy).Contents (Elt F) → (⟨S12288x1, .f32⟩ : BufTy).Contents (Elt F)),
    StableHlo.nullary main_cst_4 (constant S_ .f32 0x3E99999A#32),
    StableHlo.unary main_cst_4 main_v24 (broadcastInDim S12288x1 ![] bcast_S_S12288x1 : (⟨S_, .f32⟩ : BufTy).Contents (Elt F) → (⟨S12288x1, .f32⟩ : BufTy).Contents (Elt F)),
    StableHlo.binary main_v24 main_arg0 main_v25 (mulf : (⟨S12288x1, .f32⟩ : BufTy).Contents (Elt F) → (⟨S12288x1, .f32⟩ : BufTy).Contents (Elt F) → (⟨S12288x1, .f32⟩ : BufTy).Contents (Elt F)),
    StableHlo.binary main_v23 main_v25 main_v26 (addf : (⟨S12288x1, .f32⟩ : BufTy).Contents (Elt F) → (⟨S12288x1, .f32⟩ : BufTy).Contents (Elt F) → (⟨S12288x1, .f32⟩ : BufTy).Contents (Elt F)),
    StableHlo.binary main_v26 main_v20 main_v27 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.TRef.nullary main_call1.cst (constant S_ .f32 0x00000000#32),
    StableHlo.TRef.unary main_call1.cst main_call1.v0 (broadcastInDim S12288x1 ![] bcast_S_S12288x1),
    StableHlo.TRef.binary (.of main_v27) main_call1.v0 main_call1.v1 maximumf,
    StableHlo.unary main_arg2 main_v29 ((extractStridedSlice S1x1x1 ![3, 0, 0] · slices_S9x1x1_S1x1x1_3_0_0) : (⟨S9x1x1, .f32⟩ : BufTy).Contents (Elt F) → (⟨S1x1x1, .f32⟩ : BufTy).Contents (Elt F)),
    StableHlo.reshape main_v29 main_v30 rfl shapeCasts_S1x1x1_S1x1,
    StableHlo.binary main_arg1 main_v28 main_v31 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst_5 (constant S_ .f32 0x3F333333#32),
    StableHlo.unary main_cst_5 main_v32 (broadcastInDim S12288x1 ![] bcast_S_S12288x1 : (⟨S_, .f32⟩ : BufTy).Contents (Elt F) → (⟨S12288x1, .f32⟩ : BufTy).Contents (Elt F)),
    StableHlo.binary main_v32 main_v31 main_v33 (mulf : (⟨S12288x1, .f32⟩ : BufTy).Contents (Elt F) → (⟨S12288x1, .f32⟩ : BufTy).Contents (Elt F) → (⟨S12288x1, .f32⟩ : BufTy).Contents (Elt F)),
    StableHlo.nullary main_cst_6 (constant S_ .f32 0x3E99999A#32),
    StableHlo.unary main_cst_6 main_v34 (broadcastInDim S12288x1 ![] bcast_S_S12288x1 : (⟨S_, .f32⟩ : BufTy).Contents (Elt F) → (⟨S12288x1, .f32⟩ : BufTy).Contents (Elt F)),
    StableHlo.binary main_v34 main_arg0 main_v35 (mulf : (⟨S12288x1, .f32⟩ : BufTy).Contents (Elt F) → (⟨S12288x1, .f32⟩ : BufTy).Contents (Elt F) → (⟨S12288x1, .f32⟩ : BufTy).Contents (Elt F)),
    StableHlo.binary main_v33 main_v35 main_v36 (addf : (⟨S12288x1, .f32⟩ : BufTy).Contents (Elt F) → (⟨S12288x1, .f32⟩ : BufTy).Contents (Elt F) → (⟨S12288x1, .f32⟩ : BufTy).Contents (Elt F)),
    StableHlo.binary main_v36 main_v30 main_v37 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.TRef.nullary main_call2.cst (constant S_ .f32 0x00000000#32),
    StableHlo.TRef.unary main_call2.cst main_call2.v0 (broadcastInDim S12288x1 ![] bcast_S_S12288x1),
    StableHlo.TRef.binary (.of main_v37) main_call2.v0 main_call2.v1 maximumf,
    StableHlo.unary main_arg2 main_v39 ((extractStridedSlice S1x1x1 ![4, 0, 0] · slices_S9x1x1_S1x1x1_4_0_0) : (⟨S9x1x1, .f32⟩ : BufTy).Contents (Elt F) → (⟨S1x1x1, .f32⟩ : BufTy).Contents (Elt F)),
    StableHlo.reshape main_v39 main_v40 rfl shapeCasts_S1x1x1_S1x1,
    StableHlo.binary main_arg1 main_v38 main_v41 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst_7 (constant S_ .f32 0x3F333333#32),
    StableHlo.unary main_cst_7 main_v42 (broadcastInDim S12288x1 ![] bcast_S_S12288x1 : (⟨S_, .f32⟩ : BufTy).Contents (Elt F) → (⟨S12288x1, .f32⟩ : BufTy).Contents (Elt F)),
    StableHlo.binary main_v42 main_v41 main_v43 (mulf : (⟨S12288x1, .f32⟩ : BufTy).Contents (Elt F) → (⟨S12288x1, .f32⟩ : BufTy).Contents (Elt F) → (⟨S12288x1, .f32⟩ : BufTy).Contents (Elt F)),
    StableHlo.nullary main_cst_8 (constant S_ .f32 0x3E99999A#32),
    StableHlo.unary main_cst_8 main_v44 (broadcastInDim S12288x1 ![] bcast_S_S12288x1 : (⟨S_, .f32⟩ : BufTy).Contents (Elt F) → (⟨S12288x1, .f32⟩ : BufTy).Contents (Elt F)),
    StableHlo.binary main_v44 main_arg0 main_v45 (mulf : (⟨S12288x1, .f32⟩ : BufTy).Contents (Elt F) → (⟨S12288x1, .f32⟩ : BufTy).Contents (Elt F) → (⟨S12288x1, .f32⟩ : BufTy).Contents (Elt F)),
    StableHlo.binary main_v43 main_v45 main_v46 (addf : (⟨S12288x1, .f32⟩ : BufTy).Contents (Elt F) → (⟨S12288x1, .f32⟩ : BufTy).Contents (Elt F) → (⟨S12288x1, .f32⟩ : BufTy).Contents (Elt F)),
    StableHlo.binary main_v46 main_v40 main_v47 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.unary main_v47 main_v48 (Host.negf : (⟨S12288x1, .f32⟩ : BufTy).Contents (Elt F) → (⟨S12288x1, .f32⟩ : BufTy).Contents (Elt F)),
    StableHlo.unary main_v48 main_v49 (Host.exp : (⟨S12288x1, .f32⟩ : BufTy).Contents (Elt F) → (⟨S12288x1, .f32⟩ : BufTy).Contents (Elt F)) ]

/-- The statements of window 1 of the program text, in order. -/
abbrev opsP1 : List (HloOp τ sig (Elt F)) :=
  [ StableHlo.nullary main_cst_9 (constant S_ .f32 0x3F800000#32),
    StableHlo.unary main_cst_9 main_v50 (broadcastInDim S12288x1 ![] bcast_S_S12288x1 : (⟨S_, .f32⟩ : BufTy).Contents (Elt F) → (⟨S12288x1, .f32⟩ : BufTy).Contents (Elt F)),
    StableHlo.binary main_v50 main_v49 main_v51 (addf : (⟨S12288x1, .f32⟩ : BufTy).Contents (Elt F) → (⟨S12288x1, .f32⟩ : BufTy).Contents (Elt F) → (⟨S12288x1, .f32⟩ : BufTy).Contents (Elt F)),
    StableHlo.nullary main_cst_10 (constant S_ .f32 0x3F800000#32),
    StableHlo.unary main_cst_10 main_v52 (broadcastInDim S12288x1 ![] bcast_S_S12288x1 : (⟨S_, .f32⟩ : BufTy).Contents (Elt F) → (⟨S12288x1, .f32⟩ : BufTy).Contents (Elt F)),
    StableHlo.binary main_v52 main_v51 main_v53 (Host.divf : (⟨S12288x1, .f32⟩ : BufTy).Contents (Elt F) → (⟨S12288x1, .f32⟩ : BufTy).Contents (Elt F) → (⟨S12288x1, .f32⟩ : BufTy).Contents (Elt F)),
    StableHlo.unary main_arg2 main_v54 ((extractStridedSlice S1x1x1 ![5, 0, 0] · slices_S9x1x1_S1x1x1_5_0_0) : (⟨S9x1x1, .f32⟩ : BufTy).Contents (Elt F) → (⟨S1x1x1, .f32⟩ : BufTy).Contents (Elt F)),
    StableHlo.reshape main_v54 main_v55 rfl shapeCasts_S1x1x1_S1x1,
    StableHlo.binary main_arg1 main_v53 main_v56 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst_11 (constant S_ .f32 0x3F333333#32),
    StableHlo.unary main_cst_11 main_v57 (broadcastInDim S12288x1 ![] bcast_S_S12288x1 : (⟨S_, .f32⟩ : BufTy).Contents (Elt F) → (⟨S12288x1, .f32⟩ : BufTy).Contents (Elt F)),
    StableHlo.binary main_v57 main_v56 main_v58 (mulf : (⟨S12288x1, .f32⟩ : BufTy).Contents (Elt F) → (⟨S12288x1, .f32⟩ : BufTy).Contents (Elt F) → (⟨S12288x1, .f32⟩ : BufTy).Contents (Elt F)),
    StableHlo.nullary main_cst_12 (constant S_ .f32 0x3E99999A#32),
    StableHlo.unary main_cst_12 main_v59 (broadcastInDim S12288x1 ![] bcast_S_S12288x1 : (⟨S_, .f32⟩ : BufTy).Contents (Elt F) → (⟨S12288x1, .f32⟩ : BufTy).Contents (Elt F)),
    StableHlo.binary main_v59 main_arg0 main_v60 (mulf : (⟨S12288x1, .f32⟩ : BufTy).Contents (Elt F) → (⟨S12288x1, .f32⟩ : BufTy).Contents (Elt F) → (⟨S12288x1, .f32⟩ : BufTy).Contents (Elt F)),
    StableHlo.binary main_v58 main_v60 main_v61 (addf : (⟨S12288x1, .f32⟩ : BufTy).Contents (Elt F) → (⟨S12288x1, .f32⟩ : BufTy).Contents (Elt F) → (⟨S12288x1, .f32⟩ : BufTy).Contents (Elt F)),
    StableHlo.binary main_v61 main_v55 main_v62 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.TRef.nullary main_call3.cst (constant S_ .f32 0x00000000#32),
    StableHlo.TRef.unary main_call3.cst main_call3.v0 (broadcastInDim S12288x1 ![] bcast_S_S12288x1),
    StableHlo.TRef.binary (.of main_v62) main_call3.v0 main_call3.v1 maximumf,
    StableHlo.unary main_arg2 main_v64 ((extractStridedSlice S1x1x1 ![6, 0, 0] · slices_S9x1x1_S1x1x1_6_0_0) : (⟨S9x1x1, .f32⟩ : BufTy).Contents (Elt F) → (⟨S1x1x1, .f32⟩ : BufTy).Contents (Elt F)),
    StableHlo.reshape main_v64 main_v65 rfl shapeCasts_S1x1x1_S1x1,
    StableHlo.binary main_arg1 main_v63 main_v66 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst_13 (constant S_ .f32 0x3F333333#32),
    StableHlo.unary main_cst_13 main_v67 (broadcastInDim S12288x1 ![] bcast_S_S12288x1 : (⟨S_, .f32⟩ : BufTy).Contents (Elt F) → (⟨S12288x1, .f32⟩ : BufTy).Contents (Elt F)),
    StableHlo.binary main_v67 main_v66 main_v68 (mulf : (⟨S12288x1, .f32⟩ : BufTy).Contents (Elt F) → (⟨S12288x1, .f32⟩ : BufTy).Contents (Elt F) → (⟨S12288x1, .f32⟩ : BufTy).Contents (Elt F)),
    StableHlo.nullary main_cst_14 (constant S_ .f32 0x3E99999A#32),
    StableHlo.unary main_cst_14 main_v69 (broadcastInDim S12288x1 ![] bcast_S_S12288x1 : (⟨S_, .f32⟩ : BufTy).Contents (Elt F) → (⟨S12288x1, .f32⟩ : BufTy).Contents (Elt F)),
    StableHlo.binary main_v69 main_arg0 main_v70 (mulf : (⟨S12288x1, .f32⟩ : BufTy).Contents (Elt F) → (⟨S12288x1, .f32⟩ : BufTy).Contents (Elt F) → (⟨S12288x1, .f32⟩ : BufTy).Contents (Elt F)),
    StableHlo.binary main_v68 main_v70 main_v71 (addf : (⟨S12288x1, .f32⟩ : BufTy).Contents (Elt F) → (⟨S12288x1, .f32⟩ : BufTy).Contents (Elt F) → (⟨S12288x1, .f32⟩ : BufTy).Contents (Elt F)),
    StableHlo.binary main_v71 main_v65 main_v72 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.TRef.nullary main_call4.cst (constant S_ .f32 0x00000000#32),
    StableHlo.TRef.unary main_call4.cst main_call4.v0 (broadcastInDim S12288x1 ![] bcast_S_S12288x1),
    StableHlo.TRef.binary (.of main_v72) main_call4.v0 main_call4.v1 maximumf,
    StableHlo.unary main_arg2 main_v74 ((extractStridedSlice S1x1x1 ![7, 0, 0] · slices_S9x1x1_S1x1x1_7_0_0) : (⟨S9x1x1, .f32⟩ : BufTy).Contents (Elt F) → (⟨S1x1x1, .f32⟩ : BufTy).Contents (Elt F)),
    StableHlo.reshape main_v74 main_v75 rfl shapeCasts_S1x1x1_S1x1,
    StableHlo.binary main_arg1 main_v73 main_v76 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst_15 (constant S_ .f32 0x3F333333#32),
    StableHlo.unary main_cst_15 main_v77 (broadcastInDim S12288x1 ![] bcast_S_S12288x1 : (⟨S_, .f32⟩ : BufTy).Contents (Elt F) → (⟨S12288x1, .f32⟩ : BufTy).Contents (Elt F)),
    StableHlo.binary main_v77 main_v76 main_v78 (mulf : (⟨S12288x1, .f32⟩ : BufTy).Contents (Elt F) → (⟨S12288x1, .f32⟩ : BufTy).Contents (Elt F) → (⟨S12288x1, .f32⟩ : BufTy).Contents (Elt F)),
    StableHlo.nullary main_cst_16 (constant S_ .f32 0x3E99999A#32),
    StableHlo.unary main_cst_16 main_v79 (broadcastInDim S12288x1 ![] bcast_S_S12288x1 : (⟨S_, .f32⟩ : BufTy).Contents (Elt F) → (⟨S12288x1, .f32⟩ : BufTy).Contents (Elt F)),
    StableHlo.binary main_v79 main_arg0 main_v80 (mulf : (⟨S12288x1, .f32⟩ : BufTy).Contents (Elt F) → (⟨S12288x1, .f32⟩ : BufTy).Contents (Elt F) → (⟨S12288x1, .f32⟩ : BufTy).Contents (Elt F)),
    StableHlo.binary main_v78 main_v80 main_v81 (addf : (⟨S12288x1, .f32⟩ : BufTy).Contents (Elt F) → (⟨S12288x1, .f32⟩ : BufTy).Contents (Elt F) → (⟨S12288x1, .f32⟩ : BufTy).Contents (Elt F)),
    StableHlo.binary main_v81 main_v75 main_v82 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.TRef.nullary main_call5.cst (constant S_ .f32 0x00000000#32),
    StableHlo.TRef.unary main_call5.cst main_call5.v0 (broadcastInDim S12288x1 ![] bcast_S_S12288x1),
    StableHlo.TRef.binary (.of main_v82) main_call5.v0 main_call5.v1 maximumf,
    StableHlo.unary main_arg2 main_v84 ((extractStridedSlice S1x1x1 ![8, 0, 0] · slices_S9x1x1_S1x1x1_8_0_0) : (⟨S9x1x1, .f32⟩ : BufTy).Contents (Elt F) → (⟨S1x1x1, .f32⟩ : BufTy).Contents (Elt F)),
    StableHlo.reshape main_v84 main_v85 rfl shapeCasts_S1x1x1_S1x1,
    StableHlo.binary main_arg1 main_v83 main_v86 ((fun l r => Host.dotGeneral dot_S12288x12288_S12288x1_S12288x1_1_0_0_1_n_n none l r) : (⟨S12288x12288, .f32⟩ : BufTy).Contents (Elt F) → (⟨S12288x1, .f32⟩ : BufTy).Contents (Elt F) → (⟨S12288x1, .f32⟩ : BufTy).Contents (Elt F)),
    StableHlo.nullary main_cst_17 (constant S_ .f32 0x3F333333#32),
    StableHlo.unary main_cst_17 main_v87 (broadcastInDim S12288x1 ![] bcast_S_S12288x1 : (⟨S_, .f32⟩ : BufTy).Contents (Elt F) → (⟨S12288x1, .f32⟩ : BufTy).Contents (Elt F)),
    StableHlo.binary main_v87 main_v86 main_v88 (mulf : (⟨S12288x1, .f32⟩ : BufTy).Contents (Elt F) → (⟨S12288x1, .f32⟩ : BufTy).Contents (Elt F) → (⟨S12288x1, .f32⟩ : BufTy).Contents (Elt F)),
    StableHlo.nullary main_cst_18 (constant S_ .f32 0x3E99999A#32),
    StableHlo.unary main_cst_18 main_v89 (broadcastInDim S12288x1 ![] bcast_S_S12288x1 : (⟨S_, .f32⟩ : BufTy).Contents (Elt F) → (⟨S12288x1, .f32⟩ : BufTy).Contents (Elt F)),
    StableHlo.binary main_v89 main_arg0 main_v90 (mulf : (⟨S12288x1, .f32⟩ : BufTy).Contents (Elt F) → (⟨S12288x1, .f32⟩ : BufTy).Contents (Elt F) → (⟨S12288x1, .f32⟩ : BufTy).Contents (Elt F)),
    StableHlo.binary main_v88 main_v90 main_v91 (addf : (⟨S12288x1, .f32⟩ : BufTy).Contents (Elt F) → (⟨S12288x1, .f32⟩ : BufTy).Contents (Elt F) → (⟨S12288x1, .f32⟩ : BufTy).Contents (Elt F)),
    StableHlo.binary main_v91 main_v85 main_v92 ((fun l r => Host.dotGeneral dot_S12288x1_S1x1_S12288x1_1_0_0_1_n_n none l r) : (⟨S12288x1, .f32⟩ : BufTy).Contents (Elt F) → (⟨S1x1, .f32⟩ : BufTy).Contents (Elt F) → (⟨S12288x1, .f32⟩ : BufTy).Contents (Elt F)),
    StableHlo.unary main_v92 main_v93 (Host.negf : (⟨S12288x1, .f32⟩ : BufTy).Contents (Elt F) → (⟨S12288x1, .f32⟩ : BufTy).Contents (Elt F)),
    StableHlo.unary main_v93 main_v94 (Host.exp : (⟨S12288x1, .f32⟩ : BufTy).Contents (Elt F) → (⟨S12288x1, .f32⟩ : BufTy).Contents (Elt F)),
    StableHlo.nullary main_cst_19 (constant S_ .f32 0x3F800000#32),
    StableHlo.unary main_cst_19 main_v95 (broadcastInDim S12288x1 ![] bcast_S_S12288x1 : (⟨S_, .f32⟩ : BufTy).Contents (Elt F) → (⟨S12288x1, .f32⟩ : BufTy).Contents (Elt F)),
    StableHlo.binary main_v95 main_v94 main_v96 (addf : (⟨S12288x1, .f32⟩ : BufTy).Contents (Elt F) → (⟨S12288x1, .f32⟩ : BufTy).Contents (Elt F) → (⟨S12288x1, .f32⟩ : BufTy).Contents (Elt F)),
    StableHlo.nullary main_cst_20 (constant S_ .f32 0x3F800000#32),
    StableHlo.unary main_cst_20 main_v97 (broadcastInDim S12288x1 ![] bcast_S_S12288x1 : (⟨S_, .f32⟩ : BufTy).Contents (Elt F) → (⟨S12288x1, .f32⟩ : BufTy).Contents (Elt F)) ]

/-- The statements of window 2 of the program text, in order. -/
abbrev opsP2 : List (HloOp τ sig (Elt F)) :=
  [ StableHlo.binary main_v97 main_v96 main_v98 (Host.divf : (⟨S12288x1, .f32⟩ : BufTy).Contents (Elt F) → (⟨S12288x1, .f32⟩ : BufTy).Contents (Elt F) → (⟨S12288x1, .f32⟩ : BufTy).Contents (Elt F)),
    StableHlo.nullary main_cst_21 (constant S_ .f32 0x46400000#32),
    StableHlo.unary main_cst_21 main_v99 (broadcastInDim S12288x1 ![] bcast_S_S12288x1 : (⟨S_, .f32⟩ : BufTy).Contents (Elt F) → (⟨S12288x1, .f32⟩ : BufTy).Contents (Elt F)),
    StableHlo.binary main_v99 main_v98 main_v100 (mulf : (⟨S12288x1, .f32⟩ : BufTy).Contents (Elt F) → (⟨S12288x1, .f32⟩ : BufTy).Contents (Elt F) → (⟨S12288x1, .f32⟩ : BufTy).Contents (Elt F)),
    StableHlo.reshape main_v100 main_v101 rfl shapeCasts_S12288x1_S12288,
    StableHlo.unary main_v101 main_v102 (fptosi 32 : (⟨S12288, .f32⟩ : BufTy).Contents (Elt F) → (⟨S12288, .i32⟩ : BufTy).Contents (Elt F)) ]

/-- Every statement, step by step. -/
abbrev ops : List (HloOp τ sig (Elt F)) :=
  opsL0 ++ (opsL1 ++ (opsL2 ++ (opsL3 ++ (opsL4 ++ (opsL5 ++ (opsL6 ++ (opsL7 ++ (opsL8 ++ opsTail))))))))

end Cert.ReferenceIdeal.RefOps

end
-- ==== Proof.RefMain.lean ====
import proofs.«160488_j4389456576945_2_alg».proof.Proof.RefOps

/-!
# The reference program's `@main` is the straight line of its operations, and its run

The reference has no kernel: its `@main` is 142 host operations — nine propagation steps and a conversion —, six of
the steps ending in a call of a module-local function (the leaky rectifier, which itself calls the selection, and five
rectifiers). A call is the callee's body applied to the call's own buffers, so unfolding the callees at their calls
leaves one chain of operation steps. The program text groups `@main`'s statements in three windows run in order;
each window is shown to be the line (`seq`) of its own operations, lines run one after the other are their
concatenation run as one (`seq_append`), and the three windows' lists concatenate to the list of all operations
grouped step by step (the same literal list, grouped differently).

Then the run: the signature scopes no TensorCore buffer and no semaphore and every operation touches TensorCore
references only and allocates nothing, so from any memory with zero counters every weakly fair execution of `@main`
terminates, and every TensorCore buffer ends at the fold (`after`) of the operations over the launch contents.
-/

noncomputable section

namespace Cert.ReferenceIdeal.RefMain

open Cert.ReferenceIdeal Cert.ReferenceIdeal.Gen Idealize.ShloMosaic Idealize.ShloMosaic.TcCoe Idealize.SL.Sem Idealize.ShloMosaic.StableHlo

variable {F : FTy → Type} [FloatOps F]

/-! ## The three windows, each the line of its operations -/

-- seventy binds re-associated: the rewrite under the chain recurses once per statement
set_option maxRecDepth 2048 in
/-- Window 0 (statements 1 … 60, four of them calls): the callees unfolded at their calls and their records at
    their fields, both sides are one chain of operation steps once sequencing is re-associated. -/
theorem part0_eq (c : Dev nD) : main_part0 (F := F) c = seq (RefOps.opsP0 (F := F)) := by
  simp only [main_part0, fn_leaky_relu.body, fn_where.body, fn_relu.body, seq, bind_assoc, pure_bind]
  rfl

set_option maxRecDepth 2048 in
/-- Window 1 (statements 61 … 120, three of them calls of the rectifier). -/
theorem part1_eq (c : Dev nD) : main_part1 (F := F) c = seq (RefOps.opsP1 (F := F)) := by
  simp only [main_part1, fn_relu.body, seq, bind_assoc, pure_bind]
  rfl

/-- Window 2 (statements 121 … 127: six operations and the return). -/
theorem part2_eq (c : Dev nD) : main_part2 (F := F) c = seq (RefOps.opsP2 (F := F)) := by
  simp only [main_part2, seq, bind_assoc, pure_bind]

/-! ## The join -/

/-- The operations grouped step by step are the operations grouped window by window: one literal list. -/
theorem ops_eq : (RefOps.ops (F := F)) = RefOps.opsP0 ++ (RefOps.opsP1 ++ RefOps.opsP2) := by
  simp only [RefOps.ops, RefOps.opsL0, RefOps.opsL1, RefOps.opsL2, RefOps.opsL3, RefOps.opsL4, RefOps.opsL5, RefOps.opsL6,
    RefOps.opsL7, RefOps.opsL8, RefOps.opsTail, RefOps.opsP0, RefOps.opsP1, RefOps.opsP2, List.cons_append, List.nil_append]

/-- `@main` is the straight line of its operations: the windows run in order are their lines run in order, which is
    the line of the concatenation. -/
theorem main_eq (c : Dev nD) : main (F := F) c = seq (RefOps.ops (F := F)) := by
  rw [ops_eq, seq_append, seq_append, ← part0_eq c, ← part1_eq c, ← part2_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- Every operation of window 0 touches TensorCore references only: the conjunction over the literal list, each conjunct
    rewritten to `True` by the fact of its operation's builder (chosen by the builder's name, nullary to ternary or reshape). -/
theorem opsP0_sub : (RefOps.opsP0 : List (HloOp τ sig (Elt F))).Forall fun op => op.bufs ⊆ tcRefs τ sig := by
  simp only [List.Forall, nullary_bufs_sub, unary_bufs_sub, binary_bufs_sub, ternary_bufs_sub, reshape_bufs_sub, and_self]

/-- Every operation of window 1 touches TensorCore references only. -/
theorem opsP1_sub : (RefOps.opsP1 : List (HloOp τ sig (Elt F))).Forall fun op => op.bufs ⊆ tcRefs τ sig := by
  simp only [List.Forall, nullary_bufs_sub, unary_bufs_sub, binary_bufs_sub, ternary_bufs_sub, reshape_bufs_sub, and_self]

/-- Every operation of window 2 touches TensorCore references only. -/
theorem opsP2_sub : (RefOps.opsP2 : List (HloOp τ sig (Elt F))).Forall fun op => op.bufs ⊆ tcRefs τ sig := by
  simp only [List.Forall, nullary_bufs_sub, unary_bufs_sub, binary_bufs_sub, ternary_bufs_sub, reshape_bufs_sub, and_self]

/-- Every operation touches TensorCore references only: the three windows' facts over the concatenation. -/
theorem ops_sub : (RefOps.ops : List (HloOp τ sig (Elt F))).Forall fun op => op.bufs ⊆ tcRefs τ sig := by
  rw [ops_eq]
  exact List.forall_append.mpr ⟨opsP0_sub, List.forall_append.mpr ⟨opsP1_sub, opsP2_sub⟩⟩

/-- No operation of window 0 allocates a buffer: each determines its results, by computation. -/
theorem opsP0_fresh : (RefOps.opsP0 : List (HloOp τ sig (Elt F))).Forall fun op => op.fresh = ∅ := by
  simp only [List.Forall]
  repeat' constructor

/-- No operation of window 1 allocates a buffer. -/
theorem opsP1_fresh : (RefOps.opsP1 : List (HloOp τ sig (Elt F))).Forall fun op => op.fresh = ∅ := by
  simp only [List.Forall]
  repeat' constructor

/-- No operation of window 2 allocates a buffer. -/
theorem opsP2_fresh : (RefOps.opsP2 : List (HloOp τ sig (Elt F))).Forall fun op => op.fresh = ∅ := by
  simp only [List.Forall]
  repeat' constructor

/-- No operation allocates a buffer. -/
theorem ops_fresh : ∀ op ∈ (RefOps.ops : List (HloOp τ sig (Elt F))), op.fresh = ∅ := by
  rw [ops_eq]
  exact List.forall_iff_forall_mem.mp
    (List.forall_append.mpr ⟨opsP0_fresh, List.forall_append.mpr ⟨opsP1_fresh, opsP2_fresh⟩⟩)

/-! ## The run -/

/-- At the compiled mesh, for any float values, from any memory with zero counters: every weakly fair execution of
    `@main` on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (RefOps.ops (F := F)) (launchContents m c) (b : DevRef τ sig) :=
  run_seq scopedRefs_eq scopedSems_eq defs main (fun _ => RefOps.ops) main_eq (fun _ => ops_sub) m ρ (fun _ => ops_fresh)

end Cert.ReferenceIdeal.RefMain

end
-- ==== Proof.Spec.lean ====
/-
  The network this certificate is about, as a formula on the extended reals.

  One propagation step takes a square matrix `A`, the previous layer's column `x`, the input column `x0` and one
  weight `w`, and produces at row `r`

      act ( (c₇ · Σ_k A(r, k) · x(k) + c₃ · x0(r)) · w )

  where `c₇`, `c₃` are the single-precision words nearest 0.7 and 0.3 read exactly, and `act` is one of: nothing,
  the leaky rectifier with slope the word nearest 0.01, the rectifier, the logistic function, the logistic function
  scaled by 12288. Nine steps are chained, every one against the same `A` and `x0`, the first starting from `x0`
  itself; the result converts the last column to 32-bit integers.
-/
import Idealize.ShloMosaic.PureOps.Ideal
import Idealize.ShloMosaic.PureOps.Vector
import Idealize.ShloMosaic.Lib.ValueIdx

noncomputable section

open scoped BigOperators

namespace Cert.Gcn

open Idealize.ShloMosaic Idealize.ShloMosaic.ValueIdx

/-- A single-precision word read as the extended real it denotes. -/
abbrev lit (b : BitVec 32) : Ideal .f32 := FloatOps.ofBits .f32 b

/-- The square matrix's index type and the weights' index type, by literal extents. -/
abbrev SA : Shape := ⟨2, ![12288, 12288]⟩
abbrev SW : Shape := ⟨3, ![9, 1, 1]⟩
abbrev SCol : Shape := ⟨2, ![12288, 1]⟩
abbrev SRow : Shape := ⟨2, ![1, 12288]⟩
abbrev SVec : Shape := ⟨1, ![12288]⟩

/-- One propagation step before its activation, at row `r`. -/
def mix (A : SA.Idx → Ideal .f32) (x x0 : Fin 12288 → Ideal .f32) (w : Ideal .f32) (r : Fin 12288) : Ideal .f32 :=
  FloatOps.mulf
    (FloatOps.addf (FloatOps.mulf (lit 0x3F333333#32) (∑ k : Fin 12288, A (ix2 r k) * x k))
      (FloatOps.mulf (lit 0x3E99999A#32) (x0 r)))
    w

/-- No activation. -/
def actId (z : Ideal .f32) : Ideal .f32 := z
/-- The leaky rectifier: `z` where `z ≥ 0`, the slope word times `z` elsewhere. -/
def actLeaky (z : Ideal .f32) : Ideal .f32 :=
  Scalar.select (FloatOps.cmpf .oge z (lit 0x00000000#32)) z (FloatOps.mulf (lit 0x3C23D70A#32) z)
/-- The rectifier: the larger of `z` and zero. -/
def actRelu (z : Ideal .f32) : Ideal .f32 := FloatOps.maximumf z (lit 0x00000000#32)
/-- The logistic function `1 / (1 + e^(-z))`. -/
def actSig (z : Ideal .f32) : Ideal .f32 := FloatOps.logistic z
/-- The logistic function scaled by 12288. -/
def actSigN (z : Ideal .f32) : Ideal .f32 := FloatOps.mulf (FloatOps.logistic z) (lit 0x46400000#32)

/-- One propagation step: the activation of the mixed row. -/
def layer (act : Ideal .f32 → Ideal .f32) (A : SA.Idx → Ideal .f32) (x x0 : Fin 12288 → Ideal .f32) (w : Ideal .f32) :
    Fin 12288 → Ideal .f32 := fun r => act (mix A x x0 w r)

/-- A column array read as a function of its row. -/
def rowsOf {α : Type} (a : SCol.Idx → α) : Fin 12288 → α := fun r => a (ix2 r (0 : Fin 1))
/-- A function of the row laid as a column array. -/
def colOf {α : Type} (f : Fin 12288 → α) : SCol.Idx → α := fun i => f (i 0)
/-- The weight of layer `l`. -/
def weight (W : SW.Idx → Ideal .f32) (l : Fin 9) : Ideal .f32 := W (ix3 l (0 : Fin 1) (0 : Fin 1))

theorem rowsOf_colOf {α : Type} (f : Fin 12288 → α) : rowsOf (colOf f) = f := rfl
theorem colOf_apply {α : Type} (f : Fin 12288 → α) (r : Fin 12288) (u : Fin 1) : colOf f (ix2 r u) = f r := rfl

/-- The columns after each of the nine steps. -/
def out1 (A : SA.Idx → Ideal .f32) (x0 : Fin 12288 → Ideal .f32) (W : SW.Idx → Ideal .f32) := layer actId A x0 x0 (weight W 0)
def out2 (A : SA.Idx → Ideal .f32) (x0 : Fin 12288 → Ideal .f32) (W : SW.Idx → Ideal .f32) := layer actLeaky A (out1 A x0 W) x0 (weight W 1)
def out3 (A : SA.Idx → Ideal .f32) (x0 : Fin 12288 → Ideal .f32) (W : SW.Idx → Ideal .f32) := layer actRelu A (out2 A x0 W) x0 (weight W 2)
def out4 (A : SA.Idx → Ideal .f32) (x0 : Fin 12288 → Ideal .f32) (W : SW.Idx → Ideal .f32) := layer actRelu A (out3 A x0 W) x0 (weight W 3)
def out5 (A : SA.Idx → Ideal .f32) (x0 : Fin 12288 → Ideal .f32) (W : SW.Idx → Ideal .f32) := layer actSig A (out4 A x0 W) x0 (weight W 4)
def out6 (A : SA.Idx → Ideal .f32) (x0 : Fin 12288 → Ideal .f32) (W : SW.Idx → Ideal .f32) := layer actRelu A (out5 A x0 W) x0 (weight W 5)
def out7 (A : SA.Idx → Ideal .f32) (x0 : Fin 12288 → Ideal .f32) (W : SW.Idx → Ideal .f32) := layer actRelu A (out6 A x0 W) x0 (weight W 6)
def out8 (A : SA.Idx → Ideal .f32) (x0 : Fin 12288 → Ideal .f32) (W : SW.Idx → Ideal .f32) := layer actRelu A (out7 A x0 W) x0 (weight W 7)
def out9 (A : SA.Idx → Ideal .f32) (x0 : Fin 12288 → Ideal .f32) (W : SW.Idx → Ideal .f32) := layer actSigN A (out8 A x0 W) x0 (weight W 8)

/-- The result: the last column converted to 32-bit integers, as a vector of 12288 words. -/
def result (A : SA.Idx → Ideal .f32) (x0c : SCol.Idx → Ideal .f32) (W : SW.Idx → Ideal .f32) : SVec.Idx → BitVec 32 :=
  fun i => FloatOps.fptosi 32 (out9 A (rowsOf x0c) W (i 0))

end Cert.Gcn

end
-- ==== Proof.KHost.lean ====
/-
  The host operations between the kernel program's regions, read back.

  Before region l the program reshapes the previous column (the input column for l = 0) from [12288, 1] to a row
  [1, 12288], slices weight l out of the [9, 1, 1] weights and reshapes it to [1, 1]; it writes no other buffer, so the
  arguments keep their contents. After the last region it reshapes the last column to a vector and converts it to
  32-bit integers. Read at an index: the row's entry (0, k) is the column's entry (k, 0) — both have row-major
  position k —, and the [1, 1] weight's one entry is the weights' entry (l, 0, 0).
-/
import proofs.«160488_j4389456576945_2_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.KHost

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-! ## The two layout readings -/

/-- A column [a, 1] reshaped to a row [1, a] has at (0, k) the column's entry (k, 0). -/
theorem row_of_col_apply {α : Type} {a : ℕ} (x : (⟨2, ![a, 1]⟩ : Shape).Idx → α)
    (h : (⟨2, ![a, 1]⟩ : Shape).ShapeCasts ⟨2, ![1, a]⟩) (u : Fin 1) (k : Fin a) :
    shapeCast ⟨2, ![1, a]⟩ x h (ix2 u k) = x (ix2 k (0 : Fin 1)) :=
  shapeCast_apply x h _ _ (by
    have hu : u.val = 0 := by omega
    rw [Shape.rowMajor_val_two, Shape.rowMajor_val_two]
    show k.val * 1 + 0 = u.val * a + k.val
    rw [hu, Nat.mul_one, Nat.add_zero, Nat.zero_mul, Nat.zero_add])

/-- The slice [l : l+1, 0 : 1, 0 : 1] of the [9, 1, 1] weights reshaped to [1, 1] has as its one entry the weights'
    entry (l, 0, 0). -/
theorem weight_apply {α : Type} (W : (⟨3, ![9, 1, 1]⟩ : Shape).Idx → α) (off : Fin 3 → ℕ) (l : Fin 9)
    (h0 : off 0 = l.val) (h1 : off 1 = 0) (h2 : off 2 = 0)
    (hs : (⟨3, ![9, 1, 1]⟩ : Shape).Slices off ⟨3, ![1, 1, 1]⟩)
    (hc : (⟨3, ![1, 1, 1]⟩ : Shape).ShapeCasts ⟨2, ![1, 1]⟩) (u v : Fin 1) :
    shapeCast ⟨2, ![1, 1]⟩ (extractStridedSlice ⟨3, ![1, 1, 1]⟩ off W hs) hc (ix2 u v) = W (ix3 l (0 : Fin 1) (0 : Fin 1)) := by
  have hu : u.val = 0 := by omega
  have hv : v.val = 0 := by omega
  rw [shapeCast_apply (extractStridedSlice ⟨3, ![1, 1, 1]⟩ off W hs) hc (ix2 u v) (ix3 (0 : Fin 1) (0 : Fin 1) (0 : Fin 1)) (by
    rw [Shape.rowMajor_val_three, Shape.rowMajor_val_two]
    show (0 * 1 + 0) * 1 + 0 = u.val * 1 + v.val
    rw [hu, hv])]
  refine extractStridedSlice_apply off W hs _ _ fun a => ?_
  match a with
  | ⟨0, _⟩ => show l.val = off 0 + 0; rw [h0, Nat.add_zero]
  | ⟨1, _⟩ => show 0 = off 1 + 0; rw [h1]
  | ⟨2, _⟩ => show 0 = off 2 + 0; rw [h2]

/-! ## The stretch before region 0 -/

theorem host0_row (U : Valuation τ sig (Elt F)) :
    after (hostOps0 (F := F)) U (Proc.devRef .tc main_v0)
      = shapeCast S1x12288 (U (Proc.devRef .tc main_arg0)) shapeCasts_S12288x1_S1x12288 := by
  after_results; rfl
theorem host0_weight (U : Valuation τ sig (Elt F)) :
    after (hostOps0 (F := F)) U (Proc.devRef .tc main_v2)
      = shapeCast S1x1 (extractStridedSlice S1x1x1 ![0, 0, 0] (U (Proc.devRef .tc main_arg2)) slices_S9x1x1_S1x1x1_0_0_0) shapeCasts_S1x1x1_S1x1 := by
  after_results; rfl
theorem host0_arg0 (U : Valuation τ sig (Elt F)) :
    after (hostOps0 (F := F)) U (Proc.devRef .tc main_arg0) = U (Proc.devRef .tc main_arg0) := by
  after_results
theorem host0_arg1 (U : Valuation τ sig (Elt F)) :
    after (hostOps0 (F := F)) U (Proc.devRef .tc main_arg1) = U (Proc.devRef .tc main_arg1) := by
  after_results
theorem host0_arg2 (U : Valuation τ sig (Elt F)) :
    after (hostOps0 (F := F)) U (Proc.devRef .tc main_arg2) = U (Proc.devRef .tc main_arg2) := by
  after_results

/-! ## The stretch before region 1 -/

theorem host1_row (U : Valuation τ sig (Elt F)) :
    after (hostOps1 (F := F)) U (Proc.devRef .tc main_v4)
      = shapeCast S1x12288 (U (Proc.devRef .tc main_v3)) shapeCasts_S12288x1_S1x12288 := by
  after_results; rfl
theorem host1_weight (U : Valuation τ sig (Elt F)) :
    after (hostOps1 (F := F)) U (Proc.devRef .tc main_v6)
      = shapeCast S1x1 (extractStridedSlice S1x1x1 ![1, 0, 0] (U (Proc.devRef .tc main_arg2)) slices_S9x1x1_S1x1x1_1_0_0) shapeCasts_S1x1x1_S1x1 := by
  after_results; rfl
theorem host1_arg0 (U : Valuation τ sig (Elt F)) :
    after (hostOps1 (F := F)) U (Proc.devRef .tc main_arg0) = U (Proc.devRef .tc main_arg0) := by
  after_results
theorem host1_arg1 (U : Valuation τ sig (Elt F)) :
    after (hostOps1 (F := F)) U (Proc.devRef .tc main_arg1) = U (Proc.devRef .tc main_arg1) := by
  after_results
theorem host1_arg2 (U : Valuation τ sig (Elt F)) :
    after (hostOps1 (F := F)) U (Proc.devRef .tc main_arg2) = U (Proc.devRef .tc main_arg2) := by
  after_results

/-! ## The stretch before region 2 -/

theorem host2_row (U : Valuation τ sig (Elt F)) :
    after (hostOps2 (F := F)) U (Proc.devRef .tc main_v8)
      = shapeCast S1x12288 (U (Proc.devRef .tc main_v7)) shapeCasts_S12288x1_S1x12288 := by
  after_results; rfl
theorem host2_weight (U : Valuation τ sig (Elt F)) :
    after (hostOps2 (F := F)) U (Proc.devRef .tc main_v10)
      = shapeCast S1x1 (extractStridedSlice S1x1x1 ![2, 0, 0] (U (Proc.devRef .tc main_arg2)) slices_S9x1x1_S1x1x1_2_0_0) shapeCasts_S1x1x1_S1x1 := by
  after_results; rfl
theorem host2_arg0 (U : Valuation τ sig (Elt F)) :
    after (hostOps2 (F := F)) U (Proc.devRef .tc main_arg0) = U (Proc.devRef .tc main_arg0) := by
  after_results
theorem host2_arg1 (U : Valuation τ sig (Elt F)) :
    after (hostOps2 (F := F)) U (Proc.devRef .tc main_arg1) = U (Proc.devRef .tc main_arg1) := by
  after_results
theorem host2_arg2 (U : Valuation τ sig (Elt F)) :
    after (hostOps2 (F := F)) U (Proc.devRef .tc main_arg2) = U (Proc.devRef .tc main_arg2) := by
  after_results

/-! ## The stretch before region 3 -/

theorem host3_row (U : Valuation τ sig (Elt F)) :
    after (hostOps3 (F := F)) U (Proc.devRef .tc main_v12)
      = shapeCast S1x12288 (U (Proc.devRef .tc main_v11)) shapeCasts_S12288x1_S1x12288 := by
  after_results; rfl
theorem host3_weight (U : Valuation τ sig (Elt F)) :
    after (hostOps3 (F := F)) U (Proc.devRef .tc main_v14)
      = shapeCast S1x1 (extractStridedSlice S1x1x1 ![3, 0, 0] (U (Proc.devRef .tc main_arg2)) slices_S9x1x1_S1x1x1_3_0_0) shapeCasts_S1x1x1_S1x1 := by
  after_results; rfl
theorem host3_arg0 (U : Valuation τ sig (Elt F)) :
    after (hostOps3 (F := F)) U (Proc.devRef .tc main_arg0) = U (Proc.devRef .tc main_arg0) := by
  after_results
theorem host3_arg1 (U : Valuation τ sig (Elt F)) :
    after (hostOps3 (F := F)) U (Proc.devRef .tc main_arg1) = U (Proc.devRef .tc main_arg1) := by
  after_results
theorem host3_arg2 (U : Valuation τ sig (Elt F)) :
    after (hostOps3 (F := F)) U (Proc.devRef .tc main_arg2) = U (Proc.devRef .tc main_arg2) := by
  after_results

/-! ## The stretch before region 4 -/

theorem host4_row (U : Valuation τ sig (Elt F)) :
    after (hostOps4 (F := F)) U (Proc.devRef .tc main_v16)
      = shapeCast S1x12288 (U (Proc.devRef .tc main_v15)) shapeCasts_S12288x1_S1x12288 := by
  after_results; rfl
theorem host4_weight (U : Valuation τ sig (Elt F)) :
    after (hostOps4 (F := F)) U (Proc.devRef .tc main_v18)
      = shapeCast S1x1 (extractStridedSlice S1x1x1 ![4, 0, 0] (U (Proc.devRef .tc main_arg2)) slices_S9x1x1_S1x1x1_4_0_0) shapeCasts_S1x1x1_S1x1 := by
  after_results; rfl
theorem host4_arg0 (U : Valuation τ sig (Elt F)) :
    after (hostOps4 (F := F)) U (Proc.devRef .tc main_arg0) = U (Proc.devRef .tc main_arg0) := by
  after_results
theorem host4_arg1 (U : Valuation τ sig (Elt F)) :
    after (hostOps4 (F := F)) U (Proc.devRef .tc main_arg1) = U (Proc.devRef .tc main_arg1) := by
  after_results
theorem host4_arg2 (U : Valuation τ sig (Elt F)) :
    after (hostOps4 (F := F)) U (Proc.devRef .tc main_arg2) = U (Proc.devRef .tc main_arg2) := by
  after_results

/-! ## The stretch before region 5 -/

theorem host5_row (U : Valuation τ sig (Elt F)) :
    after (hostOps5 (F := F)) U (Proc.devRef .tc main_v20)
      = shapeCast S1x12288 (U (Proc.devRef .tc main_v19)) shapeCasts_S12288x1_S1x12288 := by
  after_results; rfl
theorem host5_weight (U : Valuation τ sig (Elt F)) :
    after (hostOps5 (F := F)) U (Proc.devRef .tc main_v22)
      = shapeCast S1x1 (extractStridedSlice S1x1x1 ![5, 0, 0] (U (Proc.devRef .tc main_arg2)) slices_S9x1x1_S1x1x1_5_0_0) shapeCasts_S1x1x1_S1x1 := by
  after_results; rfl
theorem host5_arg0 (U : Valuation τ sig (Elt F)) :
    after (hostOps5 (F := F)) U (Proc.devRef .tc main_arg0) = U (Proc.devRef .tc main_arg0) := by
  after_results
theorem host5_arg1 (U : Valuation τ sig (Elt F)) :
    after (hostOps5 (F := F)) U (Proc.devRef .tc main_arg1) = U (Proc.devRef .tc main_arg1) := by
  after_results
theorem host5_arg2 (U : Valuation τ sig (Elt F)) :
    after (hostOps5 (F := F)) U (Proc.devRef .tc main_arg2) = U (Proc.devRef .tc main_arg2) := by
  after_results

/-! ## The stretch before region 6 -/

theorem host6_row (U : Valuation τ sig (Elt F)) :
    after (hostOps6 (F := F)) U (Proc.devRef .tc main_v24)
      = shapeCast S1x12288 (U (Proc.devRef .tc main_v23)) shapeCasts_S12288x1_S1x12288 := by
  after_results; rfl
theorem host6_weight (U : Valuation τ sig (Elt F)) :
    after (hostOps6 (F := F)) U (Proc.devRef .tc main_v26)
      = shapeCast S1x1 (extractStridedSlice S1x1x1 ![6, 0, 0] (U (Proc.devRef .tc main_arg2)) slices_S9x1x1_S1x1x1_6_0_0) shapeCasts_S1x1x1_S1x1 := by
  after_results; rfl
theorem host6_arg0 (U : Valuation τ sig (Elt F)) :
    after (hostOps6 (F := F)) U (Proc.devRef .tc main_arg0) = U (Proc.devRef .tc main_arg0) := by
  after_results
theorem host6_arg1 (U : Valuation τ sig (Elt F)) :
    after (hostOps6 (F := F)) U (Proc.devRef .tc main_arg1) = U (Proc.devRef .tc main_arg1) := by
  after_results
theorem host6_arg2 (U : Valuation τ sig (Elt F)) :
    after (hostOps6 (F := F)) U (Proc.devRef .tc main_arg2) = U (Proc.devRef .tc main_arg2) := by
  after_results

/-! ## The stretch before region 7 -/

theorem host7_row (U : Valuation τ sig (Elt F)) :
    after (hostOps7 (F := F)) U (Proc.devRef .tc main_v28)
      = shapeCast S1x12288 (U (Proc.devRef .tc main_v27)) shapeCasts_S12288x1_S1x12288 := by
  after_results; rfl
theorem host7_weight (U : Valuation τ sig (Elt F)) :
    after (hostOps7 (F := F)) U (Proc.devRef .tc main_v30)
      = shapeCast S1x1 (extractStridedSlice S1x1x1 ![7, 0, 0] (U (Proc.devRef .tc main_arg2)) slices_S9x1x1_S1x1x1_7_0_0) shapeCasts_S1x1x1_S1x1 := by
  after_results; rfl
theorem host7_arg0 (U : Valuation τ sig (Elt F)) :
    after (hostOps7 (F := F)) U (Proc.devRef .tc main_arg0) = U (Proc.devRef .tc main_arg0) := by
  after_results
theorem host7_arg1 (U : Valuation τ sig (Elt F)) :
    after (hostOps7 (F := F)) U (Proc.devRef .tc main_arg1) = U (Proc.devRef .tc main_arg1) := by
  after_results
theorem host7_arg2 (U : Valuation τ sig (Elt F)) :
    after (hostOps7 (F := F)) U (Proc.devRef .tc main_arg2) = U (Proc.devRef .tc main_arg2) := by
  after_results

/-! ## The stretch before region 8 -/

theorem host8_row (U : Valuation τ sig (Elt F)) :
    after (hostOps8 (F := F)) U (Proc.devRef .tc main_v32)
      = shapeCast S1x12288 (U (Proc.devRef .tc main_v31)) shapeCasts_S12288x1_S1x12288 := by
  after_results; rfl
theorem host8_weight (U : Valuation τ sig (Elt F)) :
    after (hostOps8 (F := F)) U (Proc.devRef .tc main_v34)
      = shapeCast S1x1 (extractStridedSlice S1x1x1 ![8, 0, 0] (U (Proc.devRef .tc main_arg2)) slices_S9x1x1_S1x1x1_8_0_0) shapeCasts_S1x1x1_S1x1 := by
  after_results; rfl
theorem host8_arg0 (U : Valuation τ sig (Elt F)) :
    after (hostOps8 (F := F)) U (Proc.devRef .tc main_arg0) = U (Proc.devRef .tc main_arg0) := by
  after_results
theorem host8_arg1 (U : Valuation τ sig (Elt F)) :
    after (hostOps8 (F := F)) U (Proc.devRef .tc main_arg1) = U (Proc.devRef .tc main_arg1) := by
  after_results
theorem host8_arg2 (U : Valuation τ sig (Elt F)) :
    after (hostOps8 (F := F)) U (Proc.devRef .tc main_arg2) = U (Proc.devRef .tc main_arg2) := by
  after_results

/-! ## The stretch after the last region -/

theorem host9_result (U : Valuation τ sig (Elt F)) :
    after (hostOps9 (F := F)) U (Proc.devRef .tc main_v38)
      = fptosi 32 (shapeCast S12288 (U (Proc.devRef .tc main_v35)) shapeCasts_S12288x1_S12288) := by
  after_results; rfl

end Cert.KernelIdeal.KHost

end
-- ==== Proof.LibColumn.lean ====
/-
  A column read as a vector.

  An `[a, 1]` column cast to a vector of `a` numbers keeps entry `(i, 0)` at `i`: both have row-major position `i`.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a, 1]` column cast to `[a]` reads, at `i`, the column's entry of row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.Column
-- ==== Proof.LibMatmulNT.lean ====
/-
  The matrix product that contracts the LAST axis of both operands ("md,nd->mn": rows of the left operand against rows
  of the right one, no transpose materialized), into a zero accumulator, read at an index on the extended reals:
  entry (i, j) is Σ_k l(i, k) · r(j, k). Stated for any extents M, K, N.
-/
import Idealize.ShloMosaic.PureOps.Ideal.Laws
import Idealize.ShloMosaic.Lib.ValueIdx
import Idealize.ShloMosaic.Lib.Pipeline.Value

noncomputable section

open scoped BigOperators

namespace Cert.MatOpsNT

open Idealize.ShloMosaic Idealize.ShloMosaic.ValueIdx

variable {M K N : Nat}

/-- The contraction index set of the product "md,nd->mn" is `Fin K`. -/
abbrev ntContr (M K N : Nat) : (DotDims.transposedRhs M K N).contr.Idx ≃ Fin K :=
  contrEquiv1 (DotDims.transposedRhs M K N) K rfl rfl

/-- The left operand's index at output `(i, j)` and contraction coordinate `k` is `(i, k)`. -/
theorem nt_lhsIdx (i : Fin M) (j : Fin N) (k : Fin K) :
    (DotDims.transposedRhs M K N).lhsIdx (ix2 i j) ((ntContr M K N).symm k) = ix2 i k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 i j) _).trans hk

/-- The right operand's index at output `(i, j)` and contraction coordinate `k` is `(j, k)`. -/
theorem nt_rhsIdx (i : Fin M) (j : Fin N) (k : Fin K) :
    (DotDims.transposedRhs M K N).rhsIdx (ix2 i j) ((ntContr M K N).symm k) = ix2 j k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 i j) _).trans hk

/-- The product "md,nd->mn" into the zero accumulator at `(i, j)` is the sum over `k` of `l(i, k) · r(j, k)`. -/
theorem matmul_nt_zero_apply {φ₁ φ₂ : FTy} (prec : Option ContractPrecision) (l : FVec Ideal ⟨2, ![M, K]⟩ φ₁)
    (r : FVec Ideal ⟨2, ![N, K]⟩ φ₂) (i : Fin M) (j : Fin N) :
    matmul (F := Ideal) (DotDims.transposedRhs M K N) prec l r (constant ⟨2, ![M, N]⟩ .f32 0x00000000#32) (ix2 i j)
      = ∑ k : Fin K, l (ix2 i k) * r (ix2 j k) := by
  simp only [matmul]
  rw [Ideal.matmul_constant_zero_apply]
  rw [← Equiv.sum_comp (ntContr M K N).symm]
  refine Finset.sum_congr rfl fun k _ => ?_
  rw [nt_lhsIdx, nt_rhsIdx]

end Cert.MatOpsNT

end
-- ==== Proof.KBody.lean ====
/-
  What one grid point of a layer computes, row by row.

  Every one of the nine kernel bodies holds four blocks: 512 rows of the square matrix, the previous column laid as a
  row of 12288 numbers, the same 512 rows of the input column, and the layer's one weight. It multiplies the matrix
  block by the row (contracting the long axis of both), scales the product by the word nearest 0.7, adds the input
  block scaled by the word nearest 0.3, multiplies by the weight, and applies the layer's activation. Here that shared
  part is named once, read at a row of the block in the scalar operations the specification is written in, and joined
  to the specification's layer under the hypothesis that the four blocks are the right pieces of the four arrays.
-/
import proofs.«160488_j4389456576945_2_alg».proof.Proof.Gen.KernelIdeal.Skeleton
import proofs.«160488_j4389456576945_2_alg».proof.Proof.Spec
import proofs.«160488_j4389456576945_2_alg».proof.Proof.LibMatmulNT

noncomputable section

open scoped BigOperators

namespace Cert.KernelIdeal.Body

open Cert.KernelIdeal Cert.KernelIdeal.Gen Idealize.ShloMosaic Idealize.ShloMosaic.ValueIdx

/-- The part every layer's body shares, before its activation: the block of the matrix times the previous column (held as
    a row), scaled, plus the scaled block of the input column, all times the weight. -/
def mixed (v0 : FVec Ideal S512x12288 .f32) (v1 : FVec Ideal S1x12288 .f32) (v6 : FVec Ideal S512x1 .f32)
    (v10 : FVec Ideal S1x1 .f32) : FVec Ideal S512x1 .f32 :=
  mulf
    (addf
      (mulf (broadcast S512x1 (Scalar.ofBits .f32 0x3F333333#32))
        (matmul dot_S512x12288_S1x12288_S512x1_1_1_0_0_n_n none v0 (shapeCast S1x12288 v1 shapeCasts_S1x12288_S1x12288)
          (constant S512x1 .f32 0x00000000#32)))
      (mulf (broadcast S512x1 (Scalar.ofBits .f32 0x3E99999A#32)) v6))
    (broadcast S512x1 (extractAt ![0, 0] v10 inpos_S1x1_p0_0))

/-- The weight block's one entry. -/
theorem weight_entry (v10 : FVec Ideal S1x1 .f32) :
    extractAt ![0, 0] v10 inpos_S1x1_p0_0 = v10 (ix2 (0 : Fin 1) (0 : Fin 1)) :=
  congrArg v10 (funext fun a => Fin.ext (by match a with | ⟨0, _⟩ => rfl | ⟨1, _⟩ => rfl))

/-- The body's product contracts the last axis of both operands. -/
theorem dims_eq : dot_S512x12288_S1x12288_S512x1_1_1_0_0_n_n = DotDims.transposedRhs 512 12288 1 := rfl

/-- The product of the matrix block with the row, at row p of the block. -/
theorem product_apply (v0 : FVec Ideal S512x12288 .f32) (v1 : FVec Ideal S1x12288 .f32) (p : Fin 512) :
    matmul (F := Ideal) dot_S512x12288_S1x12288_S512x1_1_1_0_0_n_n none v0 (shapeCast S1x12288 v1 shapeCasts_S1x12288_S1x12288)
        (constant S512x1 .f32 0x00000000#32) (ix2 p (0 : Fin 1))
      = ∑ k : Fin 12288, v0 (ix2 p k) * v1 (ix2 (0 : Fin 1) k) := by
  rw [shapeCast_self, dims_eq]
  exact Cert.MatOpsNT.matmul_nt_zero_apply (M := 512) (K := 12288) (N := 1) none v0 v1 p 0

/-- The shared part at row p of the block, in the scalar operations of the specification. -/
theorem mixed_apply (v0 : FVec Ideal S512x12288 .f32) (v1 : FVec Ideal S1x12288 .f32) (v6 : FVec Ideal S512x1 .f32)
    (v10 : FVec Ideal S1x1 .f32) (p : Fin 512) :
    mixed v0 v1 v6 v10 (ix2 p (0 : Fin 1))
      = FloatOps.mulf
          (FloatOps.addf (FloatOps.mulf (Cert.Gcn.lit 0x3F333333#32) (∑ k : Fin 12288, v0 (ix2 p k) * v1 (ix2 (0 : Fin 1) k)))
            (FloatOps.mulf (Cert.Gcn.lit 0x3E99999A#32) (v6 (ix2 p (0 : Fin 1)))))
          (v10 (ix2 (0 : Fin 1) (0 : Fin 1))) := by
  rw [← product_apply v0 v1 p, ← weight_entry v10]
  rfl

/-- Zero offsets, spelt as a rank-two vector literal. -/
theorem zero_offsets : (![0, 0] : Fin 2 → Nat) = fun _ => 0 := funext fun a => by fin_cases a <;> rfl

/-- FROM BLOCKS TO THE LAYER. If the four blocks a grid point holds are: rows of the matrix starting where row p of the
    block is row r of the matrix, the whole row vector, the same rows of the input column, and the weight, then the shared
    part at row p under an activation is the layer at row r. -/
theorem layer_of_blocks (act : Ideal .f32 → Ideal .f32)
    (A : Cert.Gcn.SA.Idx → Ideal .f32) (xr : Cert.Gcn.SRow.Idx → Ideal .f32) (x0 : Cert.Gcn.SCol.Idx → Ideal .f32)
    (w : S1x1.Idx → Ideal .f32)
    (b0 : FVec Ideal S512x12288 .f32) (b1 : FVec Ideal S1x12288 .f32) (b2 : FVec Ideal S512x1 .f32) (b3 : FVec Ideal S1x1 .f32)
    (p : Fin 512) (r : Fin 12288)
    (h0 : ∀ k : Fin 12288, b0 (ix2 p k) = A (ix2 r k))
    (h1 : ∀ k : Fin 12288, b1 (ix2 (0 : Fin 1) k) = xr (ix2 (0 : Fin 1) k))
    (h2 : b2 (ix2 p (0 : Fin 1)) = x0 (ix2 r (0 : Fin 1)))
    (h3 : b3 (ix2 (0 : Fin 1) (0 : Fin 1)) = w (ix2 (0 : Fin 1) (0 : Fin 1))) :
    act (mixed b0 b1 b2 b3 (ix2 p (0 : Fin 1)))
      = Cert.Gcn.layer act A (fun k => xr (ix2 (0 : Fin 1) k)) (Cert.Gcn.rowsOf x0) (w (ix2 (0 : Fin 1) (0 : Fin 1))) r := by
  rw [mixed_apply, h2, h3, Finset.sum_congr rfl (fun k _ => by rw [h0 k, h1 k])]
  rfl

/-- Each body at row p of its block is its activation of the shared part there. -/
theorem pay0_row (b0 : FVec Ideal S512x12288 .f32) (b1 : FVec Ideal S1x12288 .f32) (b2 : FVec Ideal S512x1 .f32)
    (b3 : FVec Ideal S1x1 .f32) (p : Fin 512) :
    k0_pay1 b0 b1 b2 b3 (ix2 p (0 : Fin 1)) = Cert.Gcn.actId (mixed b0 b1 b2 b3 (ix2 p (0 : Fin 1))) := rfl
theorem pay1_row (b0 : FVec Ideal S512x12288 .f32) (b1 : FVec Ideal S1x12288 .f32) (b2 : FVec Ideal S512x1 .f32)
    (b3 : FVec Ideal S1x1 .f32) (p : Fin 512) :
    k1_pay1 b0 b1 b2 b3 (ix2 p (0 : Fin 1)) = Cert.Gcn.actLeaky (mixed b0 b1 b2 b3 (ix2 p (0 : Fin 1))) := rfl
theorem pay2_row (b0 : FVec Ideal S512x12288 .f32) (b1 : FVec Ideal S1x12288 .f32) (b2 : FVec Ideal S512x1 .f32)
    (b3 : FVec Ideal S1x1 .f32) (p : Fin 512) :
    k2_pay1 b0 b1 b2 b3 (ix2 p (0 : Fin 1)) = Cert.Gcn.actRelu (mixed b0 b1 b2 b3 (ix2 p (0 : Fin 1))) := rfl
theorem pay3_row (b0 : FVec Ideal S512x12288 .f32) (b1 : FVec Ideal S1x12288 .f32) (b2 : FVec Ideal S512x1 .f32)
    (b3 : FVec Ideal S1x1 .f32) (p : Fin 512) :
    k3_pay1 b0 b1 b2 b3 (ix2 p (0 : Fin 1)) = Cert.Gcn.actRelu (mixed b0 b1 b2 b3 (ix2 p (0 : Fin 1))) := rfl
theorem pay4_row (b0 : FVec Ideal S512x12288 .f32) (b1 : FVec Ideal S1x12288 .f32) (b2 : FVec Ideal S512x1 .f32)
    (b3 : FVec Ideal S1x1 .f32) (p : Fin 512) :
    k4_pay1 b0 b1 b2 b3 (ix2 p (0 : Fin 1)) = Cert.Gcn.actSig (mixed b0 b1 b2 b3 (ix2 p (0 : Fin 1))) := rfl
theorem pay5_row (b0 : FVec Ideal S512x12288 .f32) (b1 : FVec Ideal S1x12288 .f32) (b2 : FVec Ideal S512x1 .f32)
    (b3 : FVec Ideal S1x1 .f32) (p : Fin 512) :
    k5_pay1 b0 b1 b2 b3 (ix2 p (0 : Fin 1)) = Cert.Gcn.actRelu (mixed b0 b1 b2 b3 (ix2 p (0 : Fin 1))) := rfl
theorem pay6_row (b0 : FVec Ideal S512x12288 .f32) (b1 : FVec Ideal S1x12288 .f32) (b2 : FVec Ideal S512x1 .f32)
    (b3 : FVec Ideal S1x1 .f32) (p : Fin 512) :
    k6_pay1 b0 b1 b2 b3 (ix2 p (0 : Fin 1)) = Cert.Gcn.actRelu (mixed b0 b1 b2 b3 (ix2 p (0 : Fin 1))) := rfl
theorem pay7_row (b0 : FVec Ideal S512x12288 .f32) (b1 : FVec Ideal S1x12288 .f32) (b2 : FVec Ideal S512x1 .f32)
    (b3 : FVec Ideal S1x1 .f32) (p : Fin 512) :
    k7_pay1 b0 b1 b2 b3 (ix2 p (0 : Fin 1)) = Cert.Gcn.actRelu (mixed b0 b1 b2 b3 (ix2 p (0 : Fin 1))) := rfl
theorem pay8_row (b0 : FVec Ideal S512x12288 .f32) (b1 : FVec Ideal S1x12288 .f32) (b2 : FVec Ideal S512x1 .f32)
    (b3 : FVec Ideal S1x1 .f32) (p : Fin 512) :
    k8_pay1 b0 b1 b2 b3 (ix2 p (0 : Fin 1)) = Cert.Gcn.actSigN (mixed b0 b1 b2 b3 (ix2 p (0 : Fin 1))) := rfl

end Cert.KernelIdeal.Body
end
-- ==== Proof.Region0.lean ====
/-
  The first layer's kernel region, read as a whole column (no activation).

  The region runs its body at 24 grid points. Point t holds rows 512 t … 512 t + 511 of the square matrix and of the
  input column, the whole previous column laid as a row, and the layer's weight; it writes back those 512 rows of the
  new column. Row p of what it writes is the specification's layer at row 512 t + p; the 24 blocks tile the 12288
  rows; so the output array ends holding the specification's layer of the arrays the region found.
-/
import proofs.«160488_j4389456576945_2_alg».proof.Proof.Gen.KernelIdeal.Frame
import proofs.«160488_j4389456576945_2_alg».proof.Proof.Spec
import proofs.«160488_j4389456576945_2_alg».proof.Proof.KBody
import Idealize.ShloMosaic.Lib.Pipeline.Value

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Where the five blocks sit at grid point t: the matrix, the input column and the output column move down one block
    of 512 rows per point; the row vector and the weight are whole and stay. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The column this layer leaves: the specification's layer of the arrays as the region finds them. -/
abbrev column0 (c : Dev nD) : Cert.Gcn.SCol.Idx → Ideal .f32 :=
  Cert.Gcn.colOf (Cert.Gcn.layer Cert.Gcn.actId (V c main_arg1) (fun k => V c main_v0 (ix2 (0 : Fin 1) k))
    (Cert.Gcn.rowsOf (V c main_arg0)) (V c main_v2 (ix2 (0 : Fin 1) (0 : Fin 1))))

/-- What point t writes back is rows 512 t … 512 t + 511 of that column: row p of the block reads row 512 t + p of
    the matrix and of the input column, the whole row vector, and the weight. -/
theorem flushed0 (c : Dev nD) (t : Fin cfg0.N) :
    (dat0 (F := Ideal) V c).flushed 4 t = ((cfg0.win 4).blk t).view.read (Elt Ideal) (column0 V c) := by
  show (cfg0.win 4).cut (grid0.coords t) ((dat0 V c).after 4 t) = _
  rw [after0_4]
  unfold out0_4
  rw [View.canon_unit_zero Body.zero_offsets]
  simp only [View.ld_unit_zero (S := S512x12288) Body.zero_offsets, View.ld_unit_zero (S := S1x12288) Body.zero_offsets,
    View.ld_unit_zero (S := S512x1) Body.zero_offsets, View.ld_unit_zero (S := S1x1) Body.zero_offsets]
  obtain ⟨e00, e01, e10, e11, e20, e21, e30, e31, e40, e41⟩ := block_indices0 t
  funext j
  obtain ⟨p, q, rfl⟩ : ∃ (p : Fin 512) (q : Fin 1), j = ix2 p q := ⟨j 0, j 1, eq_ix2 j⟩
  obtain rfl : q = 0 := Subsingleton.elim _ _
  show k0_pay1 (iblk0 V c 0 t) (iblk0 V c 1 t) (iblk0 V c 2 t) (iblk0 V c 3 t) (ix2 p (0 : Fin 1))
    = column0 V c (((cfg0.win 4).blk t).view.emb (ix2 p (0 : Fin 1)))
  refine (Body.pay0_row (iblk0 V c 0 t) (iblk0 V c 1 t) (iblk0 V c 2 t) (iblk0 V c 3 t) p).trans ?_
  refine Body.layer_of_blocks Cert.Gcn.actId (V c main_arg1) (V c main_v0) (V c main_arg0) (V c main_v2)
    (iblk0 V c 0 t) (iblk0 V c 1 t) (iblk0 V c 2 t) (iblk0 V c 3 t) p
    ((((cfg0.win 4).blk t).view.emb (ix2 p (0 : Fin 1))) 0) ?_ ?_ ?_ ?_
  · intro k
    show V c main_arg1 (((cfg0.win 0).blk t).view.emb (ix2 p k)) = V c main_arg1 _
    refine congrArg _ (funext fun a => Fin.ext ?_)
    match a with
    | ⟨0, _⟩ =>
      show win0_0.index t (0 : Fin 2) * 512 + 1 * p.val = win0_4.index t (0 : Fin 2) * 512 + 1 * p.val
      omega
    | ⟨1, _⟩ =>
      show win0_0.index t (1 : Fin 2) * 12288 + 1 * k.val = k.val
      omega
  · intro k
    show V c main_v0 (((cfg0.win 1).blk t).view.emb (ix2 (0 : Fin 1) k)) = V c main_v0 _
    refine congrArg _ (funext fun a => Fin.ext ?_)
    match a with
    | ⟨0, _⟩ =>
      show win0_1.index t (0 : Fin 2) * 1 + 1 * 0 = 0
      omega
    | ⟨1, _⟩ =>
      show win0_1.index t (1 : Fin 2) * 12288 + 1 * k.val = k.val
      omega
  · show V c main_arg0 (((cfg0.win 2).blk t).view.emb (ix2 p (0 : Fin 1))) = V c main_arg0 _
    refine congrArg _ (funext fun a => Fin.ext ?_)
    match a with
    | ⟨0, _⟩ =>
      show win0_2.index t (0 : Fin 2) * 512 + 1 * p.val = win0_4.index t (0 : Fin 2) * 512 + 1 * p.val
      omega
    | ⟨1, _⟩ =>
      show win0_2.index t (1 : Fin 2) * 1 + 1 * 0 = 0
      omega
  · show V c main_v2 (((cfg0.win 3).blk t).view.emb (ix2 (0 : Fin 1) (0 : Fin 1))) = V c main_v2 _
    refine congrArg _ (funext fun a => Fin.ext ?_)
    match a with
    | ⟨0, _⟩ =>
      show win0_3.index t (0 : Fin 2) * 1 + 1 * 0 = 0
      omega
    | ⟨1, _⟩ =>
      show win0_3.index t (1 : Fin 2) * 1 + 1 * 0 = 0
      omega

/-- A row of the column is in point t's block iff it is one of the block's 512 rows. -/
theorem mem_block0 (t : Fin cfg0.N) (i : S12288x1.Idx) :
    i ∈ ((cfg0.win 4).blk t).view.set
      ↔ ∀ a : Fin 2, win0_4.index t a * S512x1.size a ≤ (i a).val ∧ (i a).val < win0_4.index t a * S512x1.size a + S512x1.size a := by
  show i ∈ ((View.whole main_v3).slice (win0_4.rect t)).set ↔ _
  rw [View.set_slice_whole, Rect.mem_set_unit]
  exact Iff.rfl

/-- Every row r of the column is written back, by point r / 512. -/
theorem covered0 (i : S12288x1.Idx) :
    ∃ t : Fin cfg0.N, (cfg0.win 4).flush t = true ∧ i ∈ ((cfg0.win 4).blk t).view.set := by
  have hi0 : (i 0).val < 12288 := (i 0).isLt
  have hi1 : (i 1).val < 1 := (i 1).isLt
  have hN : cfg0.N = 24 := N_0
  obtain ⟨t, ht⟩ : ∃ t : Fin cfg0.N, t.val = (i 0).val / 512 := ⟨⟨(i 0).val / 512, by rw [hN]; omega⟩, rfl⟩
  obtain ⟨-, -, -, -, -, -, -, -, e40, e41⟩ := block_indices0 t
  refine ⟨t, flush0_4 t, ?_⟩
  rw [mem_block0]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1 ≤ (i 1).val ∧ (i 1).val < win0_4.index t (1 : Fin 2) * 1 + 1
    omega

/-- THE REGION'S VALUE: after its 24 points the output column holds the specification's layer of the arrays the region
    found. -/
theorem region0_value (c : Dev nD) :
    (Gen.dat0 (F := Ideal) V c).arrAt 4 cfg0.N
      = Cert.Gcn.colOf (Cert.Gcn.layer Cert.Gcn.actId (V c main_arg1) (fun k => V c main_v0 (ix2 (0 : Fin 1) k))
          (Cert.Gcn.rowsOf (V c main_arg0)) (V c main_v2 (ix2 (0 : Fin 1) (0 : Fin 1)))) :=
  (dat0 (F := Ideal) V c).arrAt_eq_of_cover 4 (column0 V c) (fun t _ => flushed0 V c t) covered0

end Cert.KernelIdeal.RegionValue

end
-- ==== Proof.Region1.lean ====
/-
  The second layer's kernel region, read as a whole column (the leaky rectifier).

  The region runs its body at 24 grid points. Point t holds rows 512 t … 512 t + 511 of the square matrix and of the
  input column, the whole previous column laid as a row, and the layer's weight; it writes back those 512 rows of the
  new column. Row p of what it writes is the specification's layer at row 512 t + p; the 24 blocks tile the 12288
  rows; so the output array ends holding the specification's layer of the arrays the region found.
-/
import proofs.«160488_j4389456576945_2_alg».proof.Proof.Gen.KernelIdeal.Frame
import proofs.«160488_j4389456576945_2_alg».proof.Proof.Spec
import proofs.«160488_j4389456576945_2_alg».proof.Proof.KBody
import Idealize.ShloMosaic.Lib.Pipeline.Value

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Where the five blocks sit at grid point t: the matrix, the input column and the output column move down one block
    of 512 rows per point; the row vector and the weight are whole and stay. -/
theorem block_indices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The column this layer leaves: the specification's layer of the arrays as the region finds them. -/
abbrev column1 (c : Dev nD) : Cert.Gcn.SCol.Idx → Ideal .f32 :=
  Cert.Gcn.colOf (Cert.Gcn.layer Cert.Gcn.actLeaky (V c main_arg1) (fun k => V c main_v4 (ix2 (0 : Fin 1) k))
    (Cert.Gcn.rowsOf (V c main_arg0)) (V c main_v6 (ix2 (0 : Fin 1) (0 : Fin 1))))

/-- What point t writes back is rows 512 t … 512 t + 511 of that column: row p of the block reads row 512 t + p of
    the matrix and of the input column, the whole row vector, and the weight. -/
theorem flushed1 (c : Dev nD) (t : Fin cfg1.N) :
    (dat1 (F := Ideal) V c).flushed 4 t = ((cfg1.win 4).blk t).view.read (Elt Ideal) (column1 V c) := by
  show (cfg1.win 4).cut (grid1.coords t) ((dat1 V c).after 4 t) = _
  rw [after1_4]
  unfold out1_4
  rw [View.canon_unit_zero Body.zero_offsets]
  simp only [View.ld_unit_zero (S := S512x12288) Body.zero_offsets, View.ld_unit_zero (S := S1x12288) Body.zero_offsets,
    View.ld_unit_zero (S := S512x1) Body.zero_offsets, View.ld_unit_zero (S := S1x1) Body.zero_offsets]
  obtain ⟨e00, e01, e10, e11, e20, e21, e30, e31, e40, e41⟩ := block_indices1 t
  funext j
  obtain ⟨p, q, rfl⟩ : ∃ (p : Fin 512) (q : Fin 1), j = ix2 p q := ⟨j 0, j 1, eq_ix2 j⟩
  obtain rfl : q = 0 := Subsingleton.elim _ _
  show k1_pay1 (iblk1 V c 0 t) (iblk1 V c 1 t) (iblk1 V c 2 t) (iblk1 V c 3 t) (ix2 p (0 : Fin 1))
    = column1 V c (((cfg1.win 4).blk t).view.emb (ix2 p (0 : Fin 1)))
  refine (Body.pay1_row (iblk1 V c 0 t) (iblk1 V c 1 t) (iblk1 V c 2 t) (iblk1 V c 3 t) p).trans ?_
  refine Body.layer_of_blocks Cert.Gcn.actLeaky (V c main_arg1) (V c main_v4) (V c main_arg0) (V c main_v6)
    (iblk1 V c 0 t) (iblk1 V c 1 t) (iblk1 V c 2 t) (iblk1 V c 3 t) p
    ((((cfg1.win 4).blk t).view.emb (ix2 p (0 : Fin 1))) 0) ?_ ?_ ?_ ?_
  · intro k
    show V c main_arg1 (((cfg1.win 0).blk t).view.emb (ix2 p k)) = V c main_arg1 _
    refine congrArg _ (funext fun a => Fin.ext ?_)
    match a with
    | ⟨0, _⟩ =>
      show win1_0.index t (0 : Fin 2) * 512 + 1 * p.val = win1_4.index t (0 : Fin 2) * 512 + 1 * p.val
      omega
    | ⟨1, _⟩ =>
      show win1_0.index t (1 : Fin 2) * 12288 + 1 * k.val = k.val
      omega
  · intro k
    show V c main_v4 (((cfg1.win 1).blk t).view.emb (ix2 (0 : Fin 1) k)) = V c main_v4 _
    refine congrArg _ (funext fun a => Fin.ext ?_)
    match a with
    | ⟨0, _⟩ =>
      show win1_1.index t (0 : Fin 2) * 1 + 1 * 0 = 0
      omega
    | ⟨1, _⟩ =>
      show win1_1.index t (1 : Fin 2) * 12288 + 1 * k.val = k.val
      omega
  · show V c main_arg0 (((cfg1.win 2).blk t).view.emb (ix2 p (0 : Fin 1))) = V c main_arg0 _
    refine congrArg _ (funext fun a => Fin.ext ?_)
    match a with
    | ⟨0, _⟩ =>
      show win1_2.index t (0 : Fin 2) * 512 + 1 * p.val = win1_4.index t (0 : Fin 2) * 512 + 1 * p.val
      omega
    | ⟨1, _⟩ =>
      show win1_2.index t (1 : Fin 2) * 1 + 1 * 0 = 0
      omega
  · show V c main_v6 (((cfg1.win 3).blk t).view.emb (ix2 (0 : Fin 1) (0 : Fin 1))) = V c main_v6 _
    refine congrArg _ (funext fun a => Fin.ext ?_)
    match a with
    | ⟨0, _⟩ =>
      show win1_3.index t (0 : Fin 2) * 1 + 1 * 0 = 0
      omega
    | ⟨1, _⟩ =>
      show win1_3.index t (1 : Fin 2) * 1 + 1 * 0 = 0
      omega

/-- A row of the column is in point t's block iff it is one of the block's 512 rows. -/
theorem mem_block1 (t : Fin cfg1.N) (i : S12288x1.Idx) :
    i ∈ ((cfg1.win 4).blk t).view.set
      ↔ ∀ a : Fin 2, win1_4.index t a * S512x1.size a ≤ (i a).val ∧ (i a).val < win1_4.index t a * S512x1.size a + S512x1.size a := by
  show i ∈ ((View.whole main_v7).slice (win1_4.rect t)).set ↔ _
  rw [View.set_slice_whole, Rect.mem_set_unit]
  exact Iff.rfl

/-- Every row r of the column is written back, by point r / 512. -/
theorem covered1 (i : S12288x1.Idx) :
    ∃ t : Fin cfg1.N, (cfg1.win 4).flush t = true ∧ i ∈ ((cfg1.win 4).blk t).view.set := by
  have hi0 : (i 0).val < 12288 := (i 0).isLt
  have hi1 : (i 1).val < 1 := (i 1).isLt
  have hN : cfg1.N = 24 := N_1
  obtain ⟨t, ht⟩ : ∃ t : Fin cfg1.N, t.val = (i 0).val / 512 := ⟨⟨(i 0).val / 512, by rw [hN]; omega⟩, rfl⟩
  obtain ⟨-, -, -, -, -, -, -, -, e40, e41⟩ := block_indices1 t
  refine ⟨t, flush1_4 t, ?_⟩
  rw [mem_block1]
  intro a
  match a with
  | ⟨0, _⟩ =>
    show win1_4.index t (0 : Fin 2) * 512 ≤ (i 0).val ∧ (i 0).val < win1_4.index t (0 : Fin 2) * 512 + 512
    omega
  | ⟨1, _⟩ =>
    show win1_4.index t (1 : Fin 2) * 1 ≤ (i 1).val ∧ (i 1).val < win1_4.index t (1 : Fin 2) * 1 + 1
    omega

/-- THE REGION'S VALUE: after its 24 points the output column holds the specification's layer of the arrays the region
    found. -/
theorem region1_value (c : Dev nD) :
    (Gen.dat1 (F := Ideal) V c).arrAt 4 cfg1.N
      = Cert.Gcn.colOf (Cert.Gcn.layer Cert.Gcn.actLeaky (V c main_arg1) (fun k => V c main_v4 (ix2 (0 : Fin 1) k))
          (Cert.Gcn.rowsOf (V c main_arg0)) (V c main_v6 (ix2 (0 : Fin 1) (0 : Fin 1)))) :=
  (dat1 (F := Ideal) V c).arrAt_eq_of_cover 4 (column1 V c) (fun t _ => flushed1 V c t) covered1

end Cert.KernelIdeal.RegionValue

end
-- ==== Proof.Region2.lean ====
/-
  The third layer's kernel region, read as a whole column (the rectifier).

  The region runs its body at 24 grid points. Point t holds rows 512 t … 512 t + 511 of the square matrix and of the
  input column, the whole previous column laid as a row, and the layer's weight; it writes back those 512 rows of the
  new column. Row p of what it writes is the specification's layer at row 512 t + p; the 24 blocks tile the 12288
  rows; so the output array ends holding the specification's layer of the arrays the region found.
-/
import proofs.«160488_j4389456576945_2_alg».proof.Proof.Gen.KernelIdeal.Frame
import proofs.«160488_j4389456576945_2_alg».proof.Proof.Spec
import proofs.«160488_j4389456576945_2_alg».proof.Proof.KBody
import Idealize.ShloMosaic.Lib.Pipeline.Value

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Where the five blocks sit at grid point t: the matrix, the input column and the output column move down one block
    of 512 rows per point; the row vector and the weight are whole and stay. -/
theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The column this layer leaves: the specification's layer of the arrays as the region finds them. -/
abbrev column2 (c : Dev nD) : Cert.Gcn.SCol.Idx → Ideal .f32 :=
  Cert.Gcn.colOf (Cert.Gcn.layer Cert.Gcn.actRelu (V c main_arg1) (fun k => V c main_v8 (ix2 (0 : Fin 1) k))
    (Cert.Gcn.rowsOf (V c main_arg0)) (V c main_v10 (ix2 (0 : Fin 1) (0 : Fin 1))))

/-- What point t writes back is rows 512 t … 512 t + 511 of that column: row p of the block reads row 512 t + p of
    the matrix and of the input column, the whole row vector, and the weight. -/
theorem flushed2 (c : Dev nD) (t : Fin cfg2.N) :
    (dat2 (F := Ideal) V c).flushed 4 t = ((cfg2.win 4).blk t).view.read (Elt Ideal) (column2 V c) := by
  show (cfg2.win 4).cut (grid2.coords t) ((dat2 V c).after 4 t) = _
  rw [after2_4]
  unfold out2_4
  rw [View.canon_unit_zero Body.zero_offsets]
  simp only [View.ld_unit_zero (S := S512x12288) Body.zero_offsets, View.ld_unit_zero (S := S1x12288) Body.zero_offsets,
    View.ld_unit_zero (S := S512x1) Body.zero_offsets, View.ld_unit_zero (S := S1x1) Body.zero_offsets]
  obtain ⟨e00, e01, e10, e11, e20, e21, e30, e31, e40, e41⟩ := block_indices2 t
  funext j
  obtain ⟨p, q, rfl⟩ : ∃ (p : Fin 512) (q : Fin 1), j = ix2 p q := ⟨j 0, j 1, eq_ix2 j⟩
  obtain rfl : q = 0 := Subsingleton.elim _ _
  show k2_pay1 (iblk2 V c 0 t) (iblk2 V c 1 t) (iblk2 V c 2 t) (iblk2 V c 3 t) (ix2 p (0 : Fin 1))
    = column2 V c (((cfg2.win 4).blk t).view.emb (ix2 p (0 : Fin 1)))
  refine (Body.pay2_row (iblk2 V c 0 t) (iblk2 V c 1 t) (iblk2 V c 2 t) (iblk2 V c 3 t) p).trans ?_
  refine Body.layer_of_blocks Cert.Gcn.actRelu (V c main_arg1) (V c main_v8) (V c main_arg0) (V c main_v10)
    (iblk2 V c 0 t) (iblk2 V c 1 t) (iblk2 V c 2 t) (iblk2 V c 3 t) p
    ((((cfg2.win 4).blk t).view.emb (ix2 p (0 : Fin 1))) 0) ?_ ?_ ?_ ?_
  · intro k
    show V c main_arg1 (((cfg2.win 0).blk t).view.emb (ix2 p k)) = V c main_arg1 _
    refine congrArg _ (funext fun a => Fin.ext ?_)
    match a with
    | ⟨0, _⟩ =>
      show win2_0.index t (0 : Fin 2) * 512 + 1 * p.val = win2_4.index t (0 : Fin 2) * 512 + 1 * p.val
      omega
    | ⟨1, _⟩ =>
      show win2_0.index t (1 : Fin 2) * 12288 + 1 * k.val = k.val
      omega
  · intro k
    show V c main_v8 (((cfg2.win 1).blk t).view.emb (ix2 (0 : Fin 1) k)) = V c main_v8 _
    refine congrArg _ (funext fun a => Fin.ext ?_)
    match a with
    | ⟨0, _⟩ =>
      show win2_1.index t (0 : Fin 2) * 1 + 1 * 0 = 0
      omega
    | ⟨1, _⟩ =>
      show win2_1.index t (1 : Fin 2) * 12288 + 1 * k.val = k.val
      omega
  · show V c main_arg0 (((cfg2.win 2).blk t).view.emb (ix2 p (0 : Fin 1))) = V c main_arg0 _
    refine congrArg _ (funext fun a => Fin.ext ?_)
    match a with
    | ⟨0, _⟩ =>
      show win2_2.index t (0 : Fin 2) * 512 + 1 * p.val = win2_4.index t (0 : Fin 2) * 512 + 1 * p.val
      omega
    | ⟨1, _⟩ =>
      show win2_2.index t (1 : Fin 2) * 1 + 1 * 0 = 0
      omega
  · show V c main_v10 (((cfg2.win 3).blk t).view.emb (ix2 (0 : Fin 1) (0 : Fin 1))) = V c main_v10 _
    refine congrArg _ (funext fun a => Fin.ext ?_)
    match a with
    | ⟨0, _⟩ =>
      show win2_3.index t (0 : Fin 2) * 1 + 1 * 0 = 0
      omega
    | ⟨1, _⟩ =>
      show win2_3.index t (1 : Fin 2) * 1 + 1 * 0 = 0
      omega

/-- A row of the column is in point t's block iff it is one of the block's 512 rows. -/
theorem mem_block2 (t : Fin cfg2.N) (i : S12288x1.Idx) :
    i ∈ ((cfg2.win 4).blk t).view.set
      ↔ ∀ a : Fin 2, win2_4.index t a * S512x1.size a ≤ (i a).val ∧ (i a).val < win2_4.index t a * S512x1.size a + S512x1.size a := by
  show i ∈ ((View.whole main_v11).slice (win2_4.rect t)).set ↔ _
  rw [View.set_slice_whole, Rect.mem_set_unit]
  exact Iff.rfl

/-- Every row r of the column is written back, by point r / 512. -/
theorem covered2 (i : S12288x1.Idx) :
    ∃ t : Fin cfg2.N, (cfg2.win 4).flush t = true ∧ i ∈ ((cfg2.win 4).blk t).view.set := by
  have hi0 : (i 0).val < 12288 := (i 0).isLt
  have hi1 : (i 1).val < 1 := (i 1).isLt
  have hN : cfg2.N = 24 := N_2
  obtain ⟨t, ht⟩ : ∃ t : Fin cfg2.N, t.val = (i 0).val / 512 := ⟨⟨(i 0).val / 512, by rw [hN]; omega⟩, rfl⟩
  obtain ⟨-, -, -, -, -, -, -, -, e40, e41⟩ := block_indices2 t
  refine ⟨t, flush2_4 t, ?_⟩
  rw [mem_block2]
  intro a
  match a with
  | ⟨0, _⟩ =>
    show win2_4.index t (0 : Fin 2) * 512 ≤ (i 0).val ∧ (i 0).val < win2_4.index t (0 : Fin 2) * 512 + 512
    omega
  | ⟨1, _⟩ =>
    show win2_4.index t (1 : Fin 2) * 1 ≤ (i 1).val ∧ (i 1).val < win2_4.index t (1 : Fin 2) * 1 + 1
    omega

/-- THE REGION'S VALUE: after its 24 points the output column holds the specification's layer of the arrays the region
    found. -/
theorem region2_value (c : Dev nD) :
    (Gen.dat2 (F := Ideal) V c).arrAt 4 cfg2.N
      = Cert.Gcn.colOf (Cert.Gcn.layer Cert.Gcn.actRelu (V c main_arg1) (fun k => V c main_v8 (ix2 (0 : Fin 1) k))
          (Cert.Gcn.rowsOf (V c main_arg0)) (V c main_v10 (ix2 (0 : Fin 1) (0 : Fin 1)))) :=
  (dat2 (F := Ideal) V c).arrAt_eq_of_cover 4 (column2 V c) (fun t _ => flushed2 V c t) covered2

end Cert.KernelIdeal.RegionValue

end
-- ==== Proof.Region3.lean ====
/-
  The fourth layer's kernel region, read as a whole column (the rectifier).

  The region runs its body at 24 grid points. Point t holds rows 512 t … 512 t + 511 of the square matrix and of the
  input column, the whole previous column laid as a row, and the layer's weight; it writes back those 512 rows of the
  new column. Row p of what it writes is the specification's layer at row 512 t + p; the 24 blocks tile the 12288
  rows; so the output array ends holding the specification's layer of the arrays the region found.
-/
import proofs.«160488_j4389456576945_2_alg».proof.Proof.Gen.KernelIdeal.Frame
import proofs.«160488_j4389456576945_2_alg».proof.Proof.Spec
import proofs.«160488_j4389456576945_2_alg».proof.Proof.KBody
import Idealize.ShloMosaic.Lib.Pipeline.Value

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Where the five blocks sit at grid point t: the matrix, the input column and the output column move down one block
    of 512 rows per point; the row vector and the weight are whole and stay. -/
theorem block_indices3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The column this layer leaves: the specification's layer of the arrays as the region finds them. -/
abbrev column3 (c : Dev nD) : Cert.Gcn.SCol.Idx → Ideal .f32 :=
  Cert.Gcn.colOf (Cert.Gcn.layer Cert.Gcn.actRelu (V c main_arg1) (fun k => V c main_v12 (ix2 (0 : Fin 1) k))
    (Cert.Gcn.rowsOf (V c main_arg0)) (V c main_v14 (ix2 (0 : Fin 1) (0 : Fin 1))))

/-- What point t writes back is rows 512 t … 512 t + 511 of that column: row p of the block reads row 512 t + p of
    the matrix and of the input column, the whole row vector, and the weight. -/
theorem flushed3 (c : Dev nD) (t : Fin cfg3.N) :
    (dat3 (F := Ideal) V c).flushed 4 t = ((cfg3.win 4).blk t).view.read (Elt Ideal) (column3 V c) := by
  show (cfg3.win 4).cut (grid3.coords t) ((dat3 V c).after 4 t) = _
  rw [after3_4]
  unfold out3_4
  rw [View.canon_unit_zero Body.zero_offsets]
  simp only [View.ld_unit_zero (S := S512x12288) Body.zero_offsets, View.ld_unit_zero (S := S1x12288) Body.zero_offsets,
    View.ld_unit_zero (S := S512x1) Body.zero_offsets, View.ld_unit_zero (S := S1x1) Body.zero_offsets]
  obtain ⟨e00, e01, e10, e11, e20, e21, e30, e31, e40, e41⟩ := block_indices3 t
  funext j
  obtain ⟨p, q, rfl⟩ : ∃ (p : Fin 512) (q : Fin 1), j = ix2 p q := ⟨j 0, j 1, eq_ix2 j⟩
  obtain rfl : q = 0 := Subsingleton.elim _ _
  show k3_pay1 (iblk3 V c 0 t) (iblk3 V c 1 t) (iblk3 V c 2 t) (iblk3 V c 3 t) (ix2 p (0 : Fin 1))
    = column3 V c (((cfg3.win 4).blk t).view.emb (ix2 p (0 : Fin 1)))
  refine (Body.pay3_row (iblk3 V c 0 t) (iblk3 V c 1 t) (iblk3 V c 2 t) (iblk3 V c 3 t) p).trans ?_
  refine Body.layer_of_blocks Cert.Gcn.actRelu (V c main_arg1) (V c main_v12) (V c main_arg0) (V c main_v14)
    (iblk3 V c 0 t) (iblk3 V c 1 t) (iblk3 V c 2 t) (iblk3 V c 3 t) p
    ((((cfg3.win 4).blk t).view.emb (ix2 p (0 : Fin 1))) 0) ?_ ?_ ?_ ?_
  · intro k
    show V c main_arg1 (((cfg3.win 0).blk t).view.emb (ix2 p k)) = V c main_arg1 _
    refine congrArg _ (funext fun a => Fin.ext ?_)
    match a with
    | ⟨0, _⟩ =>
      show win3_0.index t (0 : Fin 2) * 512 + 1 * p.val = win3_4.index t (0 : Fin 2) * 512 + 1 * p.val
      omega
    | ⟨1, _⟩ =>
      show win3_0.index t (1 : Fin 2) * 12288 + 1 * k.val = k.val
      omega
  · intro k
    show V c main_v12 (((cfg3.win 1).blk t).view.emb (ix2 (0 : Fin 1) k)) = V c main_v12 _
    refine congrArg _ (funext fun a => Fin.ext ?_)
    match a with
    | ⟨0, _⟩ =>
      show win3_1.index t (0 : Fin 2) * 1 + 1 * 0 = 0
      omega
    | ⟨1, _⟩ =>
      show win3_1.index t (1 : Fin 2) * 12288 + 1 * k.val = k.val
      omega
  · show V c main_arg0 (((cfg3.win 2).blk t).view.emb (ix2 p (0 : Fin 1))) = V c main_arg0 _
    refine congrArg _ (funext fun a => Fin.ext ?_)
    match a with
    | ⟨0, _⟩ =>
      show win3_2.index t (0 : Fin 2) * 512 + 1 * p.val = win3_4.index t (0 : Fin 2) * 512 + 1 * p.val
      omega
    | ⟨1, _⟩ =>
      show win3_2.index t (1 : Fin 2) * 1 + 1 * 0 = 0
      omega
  · show V c main_v14 (((cfg3.win 3).blk t).view.emb (ix2 (0 : Fin 1) (0 : Fin 1))) = V c main_v14 _
    refine congrArg _ (funext fun a => Fin.ext ?_)
    match a with
    | ⟨0, _⟩ =>
      show win3_3.index t (0 : Fin 2) * 1 + 1 * 0 = 0
      omega
    | ⟨1, _⟩ =>
      show win3_3.index t (1 : Fin 2) * 1 + 1 * 0 = 0
      omega

/-- A row of the column is in point t's block iff it is one of the block's 512 rows. -/
theorem mem_block3 (t : Fin cfg3.N) (i : S12288x1.Idx) :
    i ∈ ((cfg3.win 4).blk t).view.set
      ↔ ∀ a : Fin 2, win3_4.index t a * S512x1.size a ≤ (i a).val ∧ (i a).val < win3_4.index t a * S512x1.size a + S512x1.size a := by
  show i ∈ ((View.whole main_v15).slice (win3_4.rect t)).set ↔ _
  rw [View.set_slice_whole, Rect.mem_set_unit]
  exact Iff.rfl

/-- Every row r of the column is written back, by point r / 512. -/
theorem covered3 (i : S12288x1.Idx) :
    ∃ t : Fin cfg3.N, (cfg3.win 4).flush t = true ∧ i ∈ ((cfg3.win 4).blk t).view.set := by
  have hi0 : (i 0).val < 12288 := (i 0).isLt
  have hi1 : (i 1).val < 1 := (i 1).isLt
  have hN : cfg3.N = 24 := N_3
  obtain ⟨t, ht⟩ : ∃ t : Fin cfg3.N, t.val = (i 0).val / 512 := ⟨⟨(i 0).val / 512, by rw [hN]; omega⟩, rfl⟩
  obtain ⟨-, -, -, -, -, -, -, -, e40, e41⟩ := block_indices3 t
  refine ⟨t, flush3_4 t, ?_⟩
  rw [mem_block3]
  intro a
  match a with
  | ⟨0, _⟩ =>
    show win3_4.index t (0 : Fin 2) * 512 ≤ (i 0).val ∧ (i 0).val < win3_4.index t (0 : Fin 2) * 512 + 512
    omega
  | ⟨1, _⟩ =>
    show win3_4.index t (1 : Fin 2) * 1 ≤ (i 1).val ∧ (i 1).val < win3_4.index t (1 : Fin 2) * 1 + 1
    omega

/-- THE REGION'S VALUE: after its 24 points the output column holds the specification's layer of the arrays the region
    found. -/
theorem region3_value (c : Dev nD) :
    (Gen.dat3 (F := Ideal) V c).arrAt 4 cfg3.N
      = Cert.Gcn.colOf (Cert.Gcn.layer Cert.Gcn.actRelu (V c main_arg1) (fun k => V c main_v12 (ix2 (0 : Fin 1) k))
          (Cert.Gcn.rowsOf (V c main_arg0)) (V c main_v14 (ix2 (0 : Fin 1) (0 : Fin 1)))) :=
  (dat3 (F := Ideal) V c).arrAt_eq_of_cover 4 (column3 V c) (fun t _ => flushed3 V c t) covered3

end Cert.KernelIdeal.RegionValue

end
-- ==== Proof.Region4.lean ====
/-
  The fifth layer's kernel region, read as a whole column (the logistic function).

  The region runs its body at 24 grid points. Point t holds rows 512 t … 512 t + 511 of the square matrix and of the
  input column, the whole previous column laid as a row, and the layer's weight; it writes back those 512 rows of the
  new column. Row p of what it writes is the specification's layer at row 512 t + p; the 24 blocks tile the 12288
  rows; so the output array ends holding the specification's layer of the arrays the region found.
-/
import proofs.«160488_j4389456576945_2_alg».proof.Proof.Gen.KernelIdeal.Frame
import proofs.«160488_j4389456576945_2_alg».proof.Proof.Spec
import proofs.«160488_j4389456576945_2_alg».proof.Proof.KBody
import Idealize.ShloMosaic.Lib.Pipeline.Value

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Where the five blocks sit at grid point t: the matrix, the input column and the output column move down one block
    of 512 rows per point; the row vector and the weight are whole and stay. -/
theorem block_indices4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The column this layer leaves: the specification's layer of the arrays as the region finds them. -/
abbrev column4 (c : Dev nD) : Cert.Gcn.SCol.Idx → Ideal .f32 :=
  Cert.Gcn.colOf (Cert.Gcn.layer Cert.Gcn.actSig (V c main_arg1) (fun k => V c main_v16 (ix2 (0 : Fin 1) k))
    (Cert.Gcn.rowsOf (V c main_arg0)) (V c main_v18 (ix2 (0 : Fin 1) (0 : Fin 1))))

/-- What point t writes back is rows 512 t … 512 t + 511 of that column: row p of the block reads row 512 t + p of
    the matrix and of the input column, the whole row vector, and the weight. -/
theorem flushed4 (c : Dev nD) (t : Fin cfg4.N) :
    (dat4 (F := Ideal) V c).flushed 4 t = ((cfg4.win 4).blk t).view.read (Elt Ideal) (column4 V c) := by
  show (cfg4.win 4).cut (grid4.coords t) ((dat4 V c).after 4 t) = _
  rw [after4_4]
  unfold out4_4
  rw [View.canon_unit_zero Body.zero_offsets]
  simp only [View.ld_unit_zero (S := S512x12288) Body.zero_offsets, View.ld_unit_zero (S := S1x12288) Body.zero_offsets,
    View.ld_unit_zero (S := S512x1) Body.zero_offsets, View.ld_unit_zero (S := S1x1) Body.zero_offsets]
  obtain ⟨e00, e01, e10, e11, e20, e21, e30, e31, e40, e41⟩ := block_indices4 t
  funext j
  obtain ⟨p, q, rfl⟩ : ∃ (p : Fin 512) (q : Fin 1), j = ix2 p q := ⟨j 0, j 1, eq_ix2 j⟩
  obtain rfl : q = 0 := Subsingleton.elim _ _
  show k4_pay1 (iblk4 V c 0 t) (iblk4 V c 1 t) (iblk4 V c 2 t) (iblk4 V c 3 t) (ix2 p (0 : Fin 1))
    = column4 V c (((cfg4.win 4).blk t).view.emb (ix2 p (0 : Fin 1)))
  refine (Body.pay4_row (iblk4 V c 0 t) (iblk4 V c 1 t) (iblk4 V c 2 t) (iblk4 V c 3 t) p).trans ?_
  refine Body.layer_of_blocks Cert.Gcn.actSig (V c main_arg1) (V c main_v16) (V c main_arg0) (V c main_v18)
    (iblk4 V c 0 t) (iblk4 V c 1 t) (iblk4 V c 2 t) (iblk4 V c 3 t) p
    ((((cfg4.win 4).blk t).view.emb (ix2 p (0 : Fin 1))) 0) ?_ ?_ ?_ ?_
  · intro k
    show V c main_arg1 (((cfg4.win 0).blk t).view.emb (ix2 p k)) = V c main_arg1 _
    refine congrArg _ (funext fun a => Fin.ext ?_)
    match a with
    | ⟨0, _⟩ =>
      show win4_0.index t (0 : Fin 2) * 512 + 1 * p.val = win4_4.index t (0 : Fin 2) * 512 + 1 * p.val
      omega
    | ⟨1, _⟩ =>
      show win4_0.index t (1 : Fin 2) * 12288 + 1 * k.val = k.val
      omega
  · intro k
    show V c main_v16 (((cfg4.win 1).blk t).view.emb (ix2 (0 : Fin 1) k)) = V c main_v16 _
    refine congrArg _ (funext fun a => Fin.ext ?_)
    match a with
    | ⟨0, _⟩ =>
      show win4_1.index t (0 : Fin 2) * 1 + 1 * 0 = 0
      omega
    | ⟨1, _⟩ =>
      show win4_1.index t (1 : Fin 2) * 12288 + 1 * k.val = k.val
      omega
  · show V c main_arg0 (((cfg4.win 2).blk t).view.emb (ix2 p (0 : Fin 1))) = V c main_arg0 _
    refine congrArg _ (funext fun a => Fin.ext ?_)
    match a with
    | ⟨0, _⟩ =>
      show win4_2.index t (0 : Fin 2) * 512 + 1 * p.val = win4_4.index t (0 : Fin 2) * 512 + 1 * p.val
      omega
    | ⟨1, _⟩ =>
      show win4_2.index t (1 : Fin 2) * 1 + 1 * 0 = 0
      omega
  · show V c main_v18 (((cfg4.win 3).blk t).view.emb (ix2 (0 : Fin 1) (0 : Fin 1))) = V c main_v18 _
    refine congrArg _ (funext fun a => Fin.ext ?_)
    match a with
    | ⟨0, _⟩ =>
      show win4_3.index t (0 : Fin 2) * 1 + 1 * 0 = 0
      omega
    | ⟨1, _⟩ =>
      show win4_3.index t (1 : Fin 2) * 1 + 1 * 0 = 0
      omega

/-- A row of the column is in point t's block iff it is one of the block's 512 rows. -/
theorem mem_block4 (t : Fin cfg4.N) (i : S12288x1.Idx) :
    i ∈ ((cfg4.win 4).blk t).view.set
      ↔ ∀ a : Fin 2, win4_4.index t a * S512x1.size a ≤ (i a).val ∧ (i a).val < win4_4.index t a * S512x1.size a + S512x1.size a := by
  show i ∈ ((View.whole main_v19).slice (win4_4.rect t)).set ↔ _
  rw [View.set_slice_whole, Rect.mem_set_unit]
  exact Iff.rfl

/-- Every row r of the column is written back, by point r / 512. -/
theorem covered4 (i : S12288x1.Idx) :
    ∃ t : Fin cfg4.N, (cfg4.win 4).flush t = true ∧ i ∈ ((cfg4.win 4).blk t).view.set := by
  have hi0 : (i 0).val < 12288 := (i 0).isLt
  have hi1 : (i 1).val < 1 := (i 1).isLt
  have hN : cfg4.N = 24 := N_4
  obtain ⟨t, ht⟩ : ∃ t : Fin cfg4.N, t.val = (i 0).val / 512 := ⟨⟨(i 0).val / 512, by rw [hN]; omega⟩, rfl⟩
  obtain ⟨-, -, -, -, -, -, -, -, e40, e41⟩ := block_indices4 t
  refine ⟨t, flush4_4 t, ?_⟩
  rw [mem_block4]
  intro a
  match a with
  | ⟨0, _⟩ =>
    show win4_4.index t (0 : Fin 2) * 512 ≤ (i 0).val ∧ (i 0).val < win4_4.index t (0 : Fin 2) * 512 + 512
    omega
  | ⟨1, _⟩ =>
    show win4_4.index t (1 : Fin 2) * 1 ≤ (i 1).val ∧ (i 1).val < win4_4.index t (1 : Fin 2) * 1 + 1
    omega

/-- THE REGION'S VALUE: after its 24 points the output column holds the specification's layer of the arrays the region
    found. -/
theorem region4_value (c : Dev nD) :
    (Gen.dat4 (F := Ideal) V c).arrAt 4 cfg4.N
      = Cert.Gcn.colOf (Cert.Gcn.layer Cert.Gcn.actSig (V c main_arg1) (fun k => V c main_v16 (ix2 (0 : Fin 1) k))
          (Cert.Gcn.rowsOf (V c main_arg0)) (V c main_v18 (ix2 (0 : Fin 1) (0 : Fin 1)))) :=
  (dat4 (F := Ideal) V c).arrAt_eq_of_cover 4 (column4 V c) (fun t _ => flushed4 V c t) covered4

end Cert.KernelIdeal.RegionValue

end
-- ==== Proof.Region5.lean ====
/-
  The sixth layer's kernel region, read as a whole column (the rectifier).

  The region runs its body at 24 grid points. Point t holds rows 512 t … 512 t + 511 of the square matrix and of the
  input column, the whole previous column laid as a row, and the layer's weight; it writes back those 512 rows of the
  new column. Row p of what it writes is the specification's layer at row 512 t + p; the 24 blocks tile the 12288
  rows; so the output array ends holding the specification's layer of the arrays the region found.
-/
import proofs.«160488_j4389456576945_2_alg».proof.Proof.Gen.KernelIdeal.Frame
import proofs.«160488_j4389456576945_2_alg».proof.Proof.Spec
import proofs.«160488_j4389456576945_2_alg».proof.Proof.KBody
import Idealize.ShloMosaic.Lib.Pipeline.Value

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Where the five blocks sit at grid point t: the matrix, the input column and the output column move down one block
    of 512 rows per point; the row vector and the weight are whole and stay. -/
theorem block_indices5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The column this layer leaves: the specification's layer of the arrays as the region finds them. -/
abbrev column5 (c : Dev nD) : Cert.Gcn.SCol.Idx → Ideal .f32 :=
  Cert.Gcn.colOf (Cert.Gcn.layer Cert.Gcn.actRelu (V c main_arg1) (fun k => V c main_v20 (ix2 (0 : Fin 1) k))
    (Cert.Gcn.rowsOf (V c main_arg0)) (V c main_v22 (ix2 (0 : Fin 1) (0 : Fin 1))))

/-- What point t writes back is rows 512 t … 512 t + 511 of that column: row p of the block reads row 512 t + p of
    the matrix and of the input column, the whole row vector, and the weight. -/
theorem flushed5 (c : Dev nD) (t : Fin cfg5.N) :
    (dat5 (F := Ideal) V c).flushed 4 t = ((cfg5.win 4).blk t).view.read (Elt Ideal) (column5 V c) := by
  show (cfg5.win 4).cut (grid5.coords t) ((dat5 V c).after 4 t) = _
  rw [after5_4]
  unfold out5_4
  rw [View.canon_unit_zero Body.zero_offsets]
  simp only [View.ld_unit_zero (S := S512x12288) Body.zero_offsets, View.ld_unit_zero (S := S1x12288) Body.zero_offsets,
    View.ld_unit_zero (S := S512x1) Body.zero_offsets, View.ld_unit_zero (S := S1x1) Body.zero_offsets]
  obtain ⟨e00, e01, e10, e11, e20, e21, e30, e31, e40, e41⟩ := block_indices5 t
  funext j
  obtain ⟨p, q, rfl⟩ : ∃ (p : Fin 512) (q : Fin 1), j = ix2 p q := ⟨j 0, j 1, eq_ix2 j⟩
  obtain rfl : q = 0 := Subsingleton.elim _ _
  show k5_pay1 (iblk5 V c 0 t) (iblk5 V c 1 t) (iblk5 V c 2 t) (iblk5 V c 3 t) (ix2 p (0 : Fin 1))
    = column5 V c (((cfg5.win 4).blk t).view.emb (ix2 p (0 : Fin 1)))
  refine (Body.pay5_row (iblk5 V c 0 t) (iblk5 V c 1 t) (iblk5 V c 2 t) (iblk5 V c 3 t) p).trans ?_
  refine Body.layer_of_blocks Cert.Gcn.actRelu (V c main_arg1) (V c main_v20) (V c main_arg0) (V c main_v22)
    (iblk5 V c 0 t) (iblk5 V c 1 t) (iblk5 V c 2 t) (iblk5 V c 3 t) p
    ((((cfg5.win 4).blk t).view.emb (ix2 p (0 : Fin 1))) 0) ?_ ?_ ?_ ?_
  · intro k
    show V c main_arg1 (((cfg5.win 0).blk t).view.emb (ix2 p k)) = V c main_arg1 _
    refine congrArg _ (funext fun a => Fin.ext ?_)
    match a with
    | ⟨0, _⟩ =>
      show win5_0.index t (0 : Fin 2) * 512 + 1 * p.val = win5_4.index t (0 : Fin 2) * 512 + 1 * p.val
      omega
    | ⟨1, _⟩ =>
      show win5_0.index t (1 : Fin 2) * 12288 + 1 * k.val = k.val
      omega
  · intro k
    show V c main_v20 (((cfg5.win 1).blk t).view.emb (ix2 (0 : Fin 1) k)) = V c main_v20 _
    refine congrArg _ (funext fun a => Fin.ext ?_)
    match a with
    | ⟨0, _⟩ =>
      show win5_1.index t (0 : Fin 2) * 1 + 1 * 0 = 0
      omega
    | ⟨1, _⟩ =>
      show win5_1.index t (1 : Fin 2) * 12288 + 1 * k.val = k.val
      omega
  · show V c main_arg0 (((cfg5.win 2).blk t).view.emb (ix2 p (0 : Fin 1))) = V c main_arg0 _
    refine congrArg _ (funext fun a => Fin.ext ?_)
    match a with
    | ⟨0, _⟩ =>
      show win5_2.index t (0 : Fin 2) * 512 + 1 * p.val = win5_4.index t (0 : Fin 2) * 512 + 1 * p.val
      omega
    | ⟨1, _⟩ =>
      show win5_2.index t (1 : Fin 2) * 1 + 1 * 0 = 0
      omega
  · show V c main_v22 (((cfg5.win 3).blk t).view.emb (ix2 (0 : Fin 1) (0 : Fin 1))) = V c main_v22 _
    refine congrArg _ (funext fun a => Fin.ext ?_)
    match a with
    | ⟨0, _⟩ =>
      show win5_3.index t (0 : Fin 2) * 1 + 1 * 0 = 0
      omega
    | ⟨1, _⟩ =>
      show win5_3.index t (1 : Fin 2) * 1 + 1 * 0 = 0
      omega

/-- A row of the column is in point t's block iff it is one of the block's 512 rows. -/
theorem mem_block5 (t : Fin cfg5.N) (i : S12288x1.Idx) :
    i ∈ ((cfg5.win 4).blk t).view.set
      ↔ ∀ a : Fin 2, win5_4.index t a * S512x1.size a ≤ (i a).val ∧ (i a).val < win5_4.index t a * S512x1.size a + S512x1.size a := by
  show i ∈ ((View.whole main_v23).slice (win5_4.rect t)).set ↔ _
  rw [View.set_slice_whole, Rect.mem_set_unit]
  exact Iff.rfl

/-- Every row r of the column is written back, by point r / 512. -/
theorem covered5 (i : S12288x1.Idx) :
    ∃ t : Fin cfg5.N, (cfg5.win 4).flush t = true ∧ i ∈ ((cfg5.win 4).blk t).view.set := by
  have hi0 : (i 0).val < 12288 := (i 0).isLt
  have hi1 : (i 1).val < 1 := (i 1).isLt
  have hN : cfg5.N = 24 := N_5
  obtain ⟨t, ht⟩ : ∃ t : Fin cfg5.N, t.val = (i 0).val / 512 := ⟨⟨(i 0).val / 512, by rw [hN]; omega⟩, rfl⟩
  obtain ⟨-, -, -, -, -, -, -, -, e40, e41⟩ := block_indices5 t
  refine ⟨t, flush5_4 t, ?_⟩
  rw [mem_block5]
  intro a
  match a with
  | ⟨0, _⟩ =>
    show win5_4.index t (0 : Fin 2) * 512 ≤ (i 0).val ∧ (i 0).val < win5_4.index t (0 : Fin 2) * 512 + 512
    omega
  | ⟨1, _⟩ =>
    show win5_4.index t (1 : Fin 2) * 1 ≤ (i 1).val ∧ (i 1).val < win5_4.index t (1 : Fin 2) * 1 + 1
    omega

/-- THE REGION'S VALUE: after its 24 points the output column holds the specification's layer of the arrays the region
    found. -/
theorem region5_value (c : Dev nD) :
    (Gen.dat5 (F := Ideal) V c).arrAt 4 cfg5.N
      = Cert.Gcn.colOf (Cert.Gcn.layer Cert.Gcn.actRelu (V c main_arg1) (fun k => V c main_v20 (ix2 (0 : Fin 1) k))
          (Cert.Gcn.rowsOf (V c main_arg0)) (V c main_v22 (ix2 (0 : Fin 1) (0 : Fin 1)))) :=
  (dat5 (F := Ideal) V c).arrAt_eq_of_cover 4 (column5 V c) (fun t _ => flushed5 V c t) covered5

end Cert.KernelIdeal.RegionValue

end
-- ==== Proof.Region6.lean ====
/-
  The seventh layer's kernel region, read as a whole column (the rectifier).

  The region runs its body at 24 grid points. Point t holds rows 512 t … 512 t + 511 of the square matrix and of the
  input column, the whole previous column laid as a row, and the layer's weight; it writes back those 512 rows of the
  new column. Row p of what it writes is the specification's layer at row 512 t + p; the 24 blocks tile the 12288
  rows; so the output array ends holding the specification's layer of the arrays the region found.
-/
import proofs.«160488_j4389456576945_2_alg».proof.Proof.Gen.KernelIdeal.Frame
import proofs.«160488_j4389456576945_2_alg».proof.Proof.Spec
import proofs.«160488_j4389456576945_2_alg».proof.Proof.KBody
import Idealize.ShloMosaic.Lib.Pipeline.Value

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Where the five blocks sit at grid point t: the matrix, the input column and the output column move down one block
    of 512 rows per point; the row vector and the weight are whole and stay. -/
theorem block_indices6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- The column this layer leaves: the specification's layer of the arrays as the region finds them. -/
abbrev column6 (c : Dev nD) : Cert.Gcn.SCol.Idx → Ideal .f32 :=
  Cert.Gcn.colOf (Cert.Gcn.layer Cert.Gcn.actRelu (V c main_arg1) (fun k => V c main_v24 (ix2 (0 : Fin 1) k))
    (Cert.Gcn.rowsOf (V c main_arg0)) (V c main_v26 (ix2 (0 : Fin 1) (0 : Fin 1))))

/-- What point t writes back is rows 512 t … 512 t + 511 of that column: row p of the block reads row 512 t + p of
    the matrix and of the input column, the whole row vector, and the weight. -/
theorem flushed6 (c : Dev nD) (t : Fin cfg6.N) :
    (dat6 (F := Ideal) V c).flushed 4 t = ((cfg6.win 4).blk t).view.read (Elt Ideal) (column6 V c) := by
  show (cfg6.win 4).cut (grid6.coords t) ((dat6 V c).after 4 t) = _
  rw [after6_4]
  unfold out6_4
  rw [View.canon_unit_zero Body.zero_offsets]
  simp only [View.ld_unit_zero (S := S512x12288) Body.zero_offsets, View.ld_unit_zero (S := S1x12288) Body.zero_offsets,
    View.ld_unit_zero (S := S512x1) Body.zero_offsets, View.ld_unit_zero (S := S1x1) Body.zero_offsets]
  obtain ⟨e00, e01, e10, e11, e20, e21, e30, e31, e40, e41⟩ := block_indices6 t
  funext j
  obtain ⟨p, q, rfl⟩ : ∃ (p : Fin 512) (q : Fin 1), j = ix2 p q := ⟨j 0, j 1, eq_ix2 j⟩
  obtain rfl : q = 0 := Subsingleton.elim _ _
  show k6_pay1 (iblk6 V c 0 t) (iblk6 V c 1 t) (iblk6 V c 2 t) (iblk6 V c 3 t) (ix2 p (0 : Fin 1))
    = column6 V c (((cfg6.win 4).blk t).view.emb (ix2 p (0 : Fin 1)))
  refine (Body.pay6_row (iblk6 V c 0 t) (iblk6 V c 1 t) (iblk6 V c 2 t) (iblk6 V c 3 t) p).trans ?_
  refine Body.layer_of_blocks Cert.Gcn.actRelu (V c main_arg1) (V c main_v24) (V c main_arg0) (V c main_v26)
    (iblk6 V c 0 t) (iblk6 V c 1 t) (iblk6 V c 2 t) (iblk6 V c 3 t) p
    ((((cfg6.win 4).blk t).view.emb (ix2 p (0 : Fin 1))) 0) ?_ ?_ ?_ ?_
  · intro k
    show V c main_arg1 (((cfg6.win 0).blk t).view.emb (ix2 p k)) = V c main_arg1 _
    refine congrArg _ (funext fun a => Fin.ext ?_)
    match a with
    | ⟨0, _⟩ =>
      show win6_0.index t (0 : Fin 2) * 512 + 1 * p.val = win6_4.index t (0 : Fin 2) * 512 + 1 * p.val
      omega
    | ⟨1, _⟩ =>
      show win6_0.index t (1 : Fin 2) * 12288 + 1 * k.val = k.val
      omega
  · intro k
    show V c main_v24 (((cfg6.win 1).blk t).view.emb (ix2 (0 : Fin 1) k)) = V c main_v24 _
    refine congrArg _ (funext fun a => Fin.ext ?_)
    match a with
    | ⟨0, _⟩ =>
      show win6_1.index t (0 : Fin 2) * 1 + 1 * 0 = 0
      omega
    | ⟨1, _⟩ =>
      show win6_1.index t (1 : Fin 2) * 12288 + 1 * k.val = k.val
      omega
  · show V c main_arg0 (((cfg6.win 2).blk t).view.emb (ix2 p (0 : Fin 1))) = V c main_arg0 _
    refine congrArg _ (funext fun a => Fin.ext ?_)
    match a with
    | ⟨0, _⟩ =>
      show win6_2.index t (0 : Fin 2) * 512 + 1 * p.val = win6_4.index t (0 : Fin 2) * 512 + 1 * p.val
      omega
    | ⟨1, _⟩ =>
      show win6_2.index t (1 : Fin 2) * 1 + 1 * 0 = 0
      omega
  · show V c main_v26 (((cfg6.win 3).blk t).view.emb (ix2 (0 : Fin 1) (0 : Fin 1))) = V c main_v26 _
    refine congrArg _ (funext fun a => Fin.ext ?_)
    match a with
    | ⟨0, _⟩ =>
      show win6_3.index t (0 : Fin 2) * 1 + 1 * 0 = 0
      omega
    | ⟨1, _⟩ =>
      show win6_3.index t (1 : Fin 2) * 1 + 1 * 0 = 0
      omega

/-- A row of the column is in point t's block iff it is one of the block's 512 rows. -/
theorem mem_block6 (t : Fin cfg6.N) (i : S12288x1.Idx) :
    i ∈ ((cfg6.win 4).blk t).view.set
      ↔ ∀ a : Fin 2, win6_4.index t a * S512x1.size a ≤ (i a).val ∧ (i a).val < win6_4.index t a * S512x1.size a + S512x1.size a := by
  show i ∈ ((View.whole main_v27).slice (win6_4.rect t)).set ↔ _
  rw [View.set_slice_whole, Rect.mem_set_unit]
  exact Iff.rfl

/-- Every row r of the column is written back, by point r / 512. -/
theorem covered6 (i : S12288x1.Idx) :
    ∃ t : Fin cfg6.N, (cfg6.win 4).flush t = true ∧ i ∈ ((cfg6.win 4).blk t).view.set := by
  have hi0 : (i 0).val < 12288 := (i 0).isLt
  have hi1 : (i 1).val < 1 := (i 1).isLt
  have hN : cfg6.N = 24 := N_6
  obtain ⟨t, ht⟩ : ∃ t : Fin cfg6.N, t.val = (i 0).val / 512 := ⟨⟨(i 0).val / 512, by rw [hN]; omega⟩, rfl⟩
  obtain ⟨-, -, -, -, -, -, -, -, e40, e41⟩ := block_indices6 t
  refine ⟨t, flush6_4 t, ?_⟩
  rw [mem_block6]
  intro a
  match a with
  | ⟨0, _⟩ =>
    show win6_4.index t (0 : Fin 2) * 512 ≤ (i 0).val ∧ (i 0).val < win6_4.index t (0 : Fin 2) * 512 + 512
    omega
  | ⟨1, _⟩ =>
    show win6_4.index t (1 : Fin 2) * 1 ≤ (i 1).val ∧ (i 1).val < win6_4.index t (1 : Fin 2) * 1 + 1
    omega

/-- THE REGION'S VALUE: after its 24 points the output column holds the specification's layer of the arrays the region
    found. -/
theorem region6_value (c : Dev nD) :
    (Gen.dat6 (F := Ideal) V c).arrAt 4 cfg6.N
      = Cert.Gcn.colOf (Cert.Gcn.layer Cert.Gcn.actRelu (V c main_arg1) (fun k => V c main_v24 (ix2 (0 : Fin 1) k))
          (Cert.Gcn.rowsOf (V c main_arg0)) (V c main_v26 (ix2 (0 : Fin 1) (0 : Fin 1)))) :=
  (dat6 (F := Ideal) V c).arrAt_eq_of_cover 4 (column6 V c) (fun t _ => flushed6 V c t) covered6

end Cert.KernelIdeal.RegionValue

end
-- ==== Proof.Region7.lean ====
/-
  The eighth layer's kernel region, read as a whole column (the rectifier).

  The region runs its body at 24 grid points. Point t holds rows 512 t … 512 t + 511 of the square matrix and of the
  input column, the whole previous column laid as a row, and the layer's weight; it writes back those 512 rows of the
  new column. Row p of what it writes is the specification's layer at row 512 t + p; the 24 blocks tile the 12288
  rows; so the output array ends holding the specification's layer of the arrays the region found.
-/
import proofs.«160488_j4389456576945_2_alg».proof.Proof.Gen.KernelIdeal.Frame
import proofs.«160488_j4389456576945_2_alg».proof.Proof.Spec
import proofs.«160488_j4389456576945_2_alg».proof.Proof.KBody
import Idealize.ShloMosaic.Lib.Pipeline.Value

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Where the five blocks sit at grid point t: the matrix, the input column and the output column move down one block
    of 512 rows per point; the row vector and the weight are whole and stay. -/
theorem block_indices7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- The column this layer leaves: the specification's layer of the arrays as the region finds them. -/
abbrev column7 (c : Dev nD) : Cert.Gcn.SCol.Idx → Ideal .f32 :=
  Cert.Gcn.colOf (Cert.Gcn.layer Cert.Gcn.actRelu (V c main_arg1) (fun k => V c main_v28 (ix2 (0 : Fin 1) k))
    (Cert.Gcn.rowsOf (V c main_arg0)) (V c main_v30 (ix2 (0 : Fin 1) (0 : Fin 1))))

/-- What point t writes back is rows 512 t … 512 t + 511 of that column: row p of the block reads row 512 t + p of
    the matrix and of the input column, the whole row vector, and the weight. -/
theorem flushed7 (c : Dev nD) (t : Fin cfg7.N) :
    (dat7 (F := Ideal) V c).flushed 4 t = ((cfg7.win 4).blk t).view.read (Elt Ideal) (column7 V c) := by
  show (cfg7.win 4).cut (grid7.coords t) ((dat7 V c).after 4 t) = _
  rw [after7_4]
  unfold out7_4
  rw [View.canon_unit_zero Body.zero_offsets]
  simp only [View.ld_unit_zero (S := S512x12288) Body.zero_offsets, View.ld_unit_zero (S := S1x12288) Body.zero_offsets,
    View.ld_unit_zero (S := S512x1) Body.zero_offsets, View.ld_unit_zero (S := S1x1) Body.zero_offsets]
  obtain ⟨e00, e01, e10, e11, e20, e21, e30, e31, e40, e41⟩ := block_indices7 t
  funext j
  obtain ⟨p, q, rfl⟩ : ∃ (p : Fin 512) (q : Fin 1), j = ix2 p q := ⟨j 0, j 1, eq_ix2 j⟩
  obtain rfl : q = 0 := Subsingleton.elim _ _
  show k7_pay1 (iblk7 V c 0 t) (iblk7 V c 1 t) (iblk7 V c 2 t) (iblk7 V c 3 t) (ix2 p (0 : Fin 1))
    = column7 V c (((cfg7.win 4).blk t).view.emb (ix2 p (0 : Fin 1)))
  refine (Body.pay7_row (iblk7 V c 0 t) (iblk7 V c 1 t) (iblk7 V c 2 t) (iblk7 V c 3 t) p).trans ?_
  refine Body.layer_of_blocks Cert.Gcn.actRelu (V c main_arg1) (V c main_v28) (V c main_arg0) (V c main_v30)
    (iblk7 V c 0 t) (iblk7 V c 1 t) (iblk7 V c 2 t) (iblk7 V c 3 t) p
    ((((cfg7.win 4).blk t).view.emb (ix2 p (0 : Fin 1))) 0) ?_ ?_ ?_ ?_
  · intro k
    show V c main_arg1 (((cfg7.win 0).blk t).view.emb (ix2 p k)) = V c main_arg1 _
    refine congrArg _ (funext fun a => Fin.ext ?_)
    match a with
    | ⟨0, _⟩ =>
      show win7_0.index t (0 : Fin 2) * 512 + 1 * p.val = win7_4.index t (0 : Fin 2) * 512 + 1 * p.val
      omega
    | ⟨1, _⟩ =>
      show win7_0.index t (1 : Fin 2) * 12288 + 1 * k.val = k.val
      omega
  · intro k
    show V c main_v28 (((cfg7.win 1).blk t).view.emb (ix2 (0 : Fin 1) k)) = V c main_v28 _
    refine congrArg _ (funext fun a => Fin.ext ?_)
    match a with
    | ⟨0, _⟩ =>
      show win7_1.index t (0 : Fin 2) * 1 + 1 * 0 = 0
      omega
    | ⟨1, _⟩ =>
      show win7_1.index t (1 : Fin 2) * 12288 + 1 * k.val = k.val
      omega
  · show V c main_arg0 (((cfg7.win 2).blk t).view.emb (ix2 p (0 : Fin 1))) = V c main_arg0 _
    refine congrArg _ (funext fun a => Fin.ext ?_)
    match a with
    | ⟨0, _⟩ =>
      show win7_2.index t (0 : Fin 2) * 512 + 1 * p.val = win7_4.index t (0 : Fin 2) * 512 + 1 * p.val
      omega
    | ⟨1, _⟩ =>
      show win7_2.index t (1 : Fin 2) * 1 + 1 * 0 = 0
      omega
  · show V c main_v30 (((cfg7.win 3).blk t).view.emb (ix2 (0 : Fin 1) (0 : Fin 1))) = V c main_v30 _
    refine congrArg _ (funext fun a => Fin.ext ?_)
    match a with
    | ⟨0, _⟩ =>
      show win7_3.index t (0 : Fin 2) * 1 + 1 * 0 = 0
      omega
    | ⟨1, _⟩ =>
      show win7_3.index t (1 : Fin 2) * 1 + 1 * 0 = 0
      omega

/-- A row of the column is in point t's block iff it is one of the block's 512 rows. -/
theorem mem_block7 (t : Fin cfg7.N) (i : S12288x1.Idx) :
    i ∈ ((cfg7.win 4).blk t).view.set
      ↔ ∀ a : Fin 2, win7_4.index t a * S512x1.size a ≤ (i a).val ∧ (i a).val < win7_4.index t a * S512x1.size a + S512x1.size a := by
  show i ∈ ((View.whole main_v31).slice (win7_4.rect t)).set ↔ _
  rw [View.set_slice_whole, Rect.mem_set_unit]
  exact Iff.rfl

/-- Every row r of the column is written back, by point r / 512. -/
theorem covered7 (i : S12288x1.Idx) :
    ∃ t : Fin cfg7.N, (cfg7.win 4).flush t = true ∧ i ∈ ((cfg7.win 4).blk t).view.set := by
  have hi0 : (i 0).val < 12288 := (i 0).isLt
  have hi1 : (i 1).val < 1 := (i 1).isLt
  have hN : cfg7.N = 24 := N_7
  obtain ⟨t, ht⟩ : ∃ t : Fin cfg7.N, t.val = (i 0).val / 512 := ⟨⟨(i 0).val / 512, by rw [hN]; omega⟩, rfl⟩
  obtain ⟨-, -, -, -, -, -, -, -, e40, e41⟩ := block_indices7 t
  refine ⟨t, flush7_4 t, ?_⟩
  rw [mem_block7]
  intro a
  match a with
  | ⟨0, _⟩ =>
    show win7_4.index t (0 : Fin 2) * 512 ≤ (i 0).val ∧ (i 0).val < win7_4.index t (0 : Fin 2) * 512 + 512
    omega
  | ⟨1, _⟩ =>
    show win7_4.index t (1 : Fin 2) * 1 ≤ (i 1).val ∧ (i 1).val < win7_4.index t (1 : Fin 2) * 1 + 1
    omega

/-- THE REGION'S VALUE: after its 24 points the output column holds the specification's layer of the arrays the region
    found. -/
theorem region7_value (c : Dev nD) :
    (Gen.dat7 (F := Ideal) V c).arrAt 4 cfg7.N
      = Cert.Gcn.colOf (Cert.Gcn.layer Cert.Gcn.actRelu (V c main_arg1) (fun k => V c main_v28 (ix2 (0 : Fin 1) k))
          (Cert.Gcn.rowsOf (V c main_arg0)) (V c main_v30 (ix2 (0 : Fin 1) (0 : Fin 1)))) :=
  (dat7 (F := Ideal) V c).arrAt_eq_of_cover 4 (column7 V c) (fun t _ => flushed7 V c t) covered7

end Cert.KernelIdeal.RegionValue

end
-- ==== Proof.Region8.lean ====
/-
  The ninth layer's kernel region, read as a whole column (the logistic function scaled by 12288).

  The region runs its body at 24 grid points. Point t holds rows 512 t … 512 t + 511 of the square matrix and of the
  input column, the whole previous column laid as a row, and the layer's weight; it writes back those 512 rows of the
  new column. Row p of what it writes is the specification's layer at row 512 t + p; the 24 blocks tile the 12288
  rows; so the output array ends holding the specification's layer of the arrays the region found.
-/
import proofs.«160488_j4389456576945_2_alg».proof.Proof.Gen.KernelIdeal.Frame
import proofs.«160488_j4389456576945_2_alg».proof.Proof.Spec
import proofs.«160488_j4389456576945_2_alg».proof.Proof.KBody
import Idealize.ShloMosaic.Lib.Pipeline.Value

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- Where the five blocks sit at grid point t: the matrix, the input column and the output column move down one block
    of 512 rows per point; the row vector and the weight are whole and stay. -/
theorem block_indices8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

/-- The column this layer leaves: the specification's layer of the arrays as the region finds them. -/
abbrev column8 (c : Dev nD) : Cert.Gcn.SCol.Idx → Ideal .f32 :=
  Cert.Gcn.colOf (Cert.Gcn.layer Cert.Gcn.actSigN (V c main_arg1) (fun k => V c main_v32 (ix2 (0 : Fin 1) k))
    (Cert.Gcn.rowsOf (V c main_arg0)) (V c main_v34 (ix2 (0 : Fin 1) (0 : Fin 1))))

/-- What point t writes back is rows 512 t … 512 t + 511 of that column: row p of the block reads row 512 t + p of
    the matrix and of the input column, the whole row vector, and the weight. -/
theorem flushed8 (c : Dev nD) (t : Fin cfg8.N) :
    (dat8 (F := Ideal) V c).flushed 4 t = ((cfg8.win 4).blk t).view.read (Elt Ideal) (column8 V c) := by
  show (cfg8.win 4).cut (grid8.coords t) ((dat8 V c).after 4 t) = _
  rw [after8_4]
  unfold out8_4
  rw [View.canon_unit_zero Body.zero_offsets]
  simp only [View.ld_unit_zero (S := S512x12288) Body.zero_offsets, View.ld_unit_zero (S := S1x12288) Body.zero_offsets,
    View.ld_unit_zero (S := S512x1) Body.zero_offsets, View.ld_unit_zero (S := S1x1) Body.zero_offsets]
  obtain ⟨e00, e01, e10, e11, e20, e21, e30, e31, e40, e41⟩ := block_indices8 t
  funext j
  obtain ⟨p, q, rfl⟩ : ∃ (p : Fin 512) (q : Fin 1), j = ix2 p q := ⟨j 0, j 1, eq_ix2 j⟩
  obtain rfl : q = 0 := Subsingleton.elim _ _
  show k8_pay1 (iblk8 V c 0 t) (iblk8 V c 1 t) (iblk8 V c 2 t) (iblk8 V c 3 t) (ix2 p (0 : Fin 1))
    = column8 V c (((cfg8.win 4).blk t).view.emb (ix2 p (0 : Fin 1)))
  refine (Body.pay8_row (iblk8 V c 0 t) (iblk8 V c 1 t) (iblk8 V c 2 t) (iblk8 V c 3 t) p).trans ?_
  refine Body.layer_of_blocks Cert.Gcn.actSigN (V c main_arg1) (V c main_v32) (V c main_arg0) (V c main_v34)
    (iblk8 V c 0 t) (iblk8 V c 1 t) (iblk8 V c 2 t) (iblk8 V c 3 t) p
    ((((cfg8.win 4).blk t).view.emb (ix2 p (0 : Fin 1))) 0) ?_ ?_ ?_ ?_
  · intro k
    show V c main_arg1 (((cfg8.win 0).blk t).view.emb (ix2 p k)) = V c main_arg1 _
    refine congrArg _ (funext fun a => Fin.ext ?_)
    match a with
    | ⟨0, _⟩ =>
      show win8_0.index t (0 : Fin 2) * 512 + 1 * p.val = win8_4.index t (0 : Fin 2) * 512 + 1 * p.val
      omega
    | ⟨1, _⟩ =>
      show win8_0.index t (1 : Fin 2) * 12288 + 1 * k.val = k.val
      omega
  · intro k
    show V c main_v32 (((cfg8.win 1).blk t).view.emb (ix2 (0 : Fin 1) k)) = V c main_v32 _
    refine congrArg _ (funext fun a => Fin.ext ?_)
    match a with
    | ⟨0, _⟩ =>
      show win8_1.index t (0 : Fin 2) * 1 + 1 * 0 = 0
      omega
    | ⟨1, _⟩ =>
      show win8_1.index t (1 : Fin 2) * 12288 + 1 * k.val = k.val
      omega
  · show V c main_arg0 (((cfg8.win 2).blk t).view.emb (ix2 p (0 : Fin 1))) = V c main_arg0 _
    refine congrArg _ (funext fun a => Fin.ext ?_)
    match a with
    | ⟨0, _⟩ =>
      show win8_2.index t (0 : Fin 2) * 512 + 1 * p.val = win8_4.index t (0 : Fin 2) * 512 + 1 * p.val
      omega
    | ⟨1, _⟩ =>
      show win8_2.index t (1 : Fin 2) * 1 + 1 * 0 = 0
      omega
  · show V c main_v34 (((cfg8.win 3).blk t).view.emb (ix2 (0 : Fin 1) (0 : Fin 1))) = V c main_v34 _
    refine congrArg _ (funext fun a => Fin.ext ?_)
    match a with
    | ⟨0, _⟩ =>
      show win8_3.index t (0 : Fin 2) * 1 + 1 * 0 = 0
      omega
    | ⟨1, _⟩ =>
      show win8_3.index t (1 : Fin 2) * 1 + 1 * 0 = 0
      omega

/-- A row of the column is in point t's block iff it is one of the block's 512 rows. -/
theorem mem_block8 (t : Fin cfg8.N) (i : S12288x1.Idx) :
    i ∈ ((cfg8.win 4).blk t).view.set
      ↔ ∀ a : Fin 2, win8_4.index t a * S512x1.size a ≤ (i a).val ∧ (i a).val < win8_4.index t a * S512x1.size a + S512x1.size a := by
  show i ∈ ((View.whole main_v35).slice (win8_4.rect t)).set ↔ _
  rw [View.set_slice_whole, Rect.mem_set_unit]
  exact Iff.rfl

/-- Every row r of the column is written back, by point r / 512. -/
theorem covered8 (i : S12288x1.Idx) :
    ∃ t : Fin cfg8.N, (cfg8.win 4).flush t = true ∧ i ∈ ((cfg8.win 4).blk t).view.set := by
  have hi0 : (i 0).val < 12288 := (i 0).isLt
  have hi1 : (i 1).val < 1 := (i 1).isLt
  have hN : cfg8.N = 24 := N_8
  obtain ⟨t, ht⟩ : ∃ t : Fin cfg8.N, t.val = (i 0).val / 512 := ⟨⟨(i 0).val / 512, by rw [hN]; omega⟩, rfl⟩
  obtain ⟨-, -, -, -, -, -, -, -, e40, e41⟩ := block_indices8 t
  refine ⟨t, flush8_4 t, ?_⟩
  rw [mem_block8]
  intro a
  match a with
  | ⟨0, _⟩ =>
    show win8_4.index t (0 : Fin 2) * 512 ≤ (i 0).val ∧ (i 0).val < win8_4.index t (0 : Fin 2) * 512 + 512
    omega
  | ⟨1, _⟩ =>
    show win8_4.index t (1 : Fin 2) * 1 ≤ (i 1).val ∧ (i 1).val < win8_4.index t (1 : Fin 2) * 1 + 1
    omega

/-- THE REGION'S VALUE: after its 24 points the output column holds the specification's layer of the arrays the region
    found. -/
theorem region8_value (c : Dev nD) :
    (Gen.dat8 (F := Ideal) V c).arrAt 4 cfg8.N
      = Cert.Gcn.colOf (Cert.Gcn.layer Cert.Gcn.actSigN (V c main_arg1) (fun k => V c main_v32 (ix2 (0 : Fin 1) k))
          (Cert.Gcn.rowsOf (V c main_arg0)) (V c main_v34 (ix2 (0 : Fin 1) (0 : Fin 1)))) :=
  (dat8 (F := Ideal) V c).arrAt_eq_of_cover 4 (column8 V c) (fun t _ => flushed8 V c t) covered8

end Cert.KernelIdeal.RegionValue

end
-- ==== Proof.KChain.lean ====
/-
  The kernel program's result as the specification's function of its arguments.

  The program's buffer contents at each boundary between a stretch of host operations and a region are a fold from
  the launch memory. Going through the fold once: the arguments are never written, so every boundary holds them as
  launched; before region l the host lays the previous column as a row and picks weight l; region l leaves in its
  output column the propagation step of its inputs (the region's value); so after region l the output column is the
  specification's column l + 1, by induction along the nine regions. The last stretch converts the ninth column.
-/
import proofs.«160488_j4389456576945_2_alg».proof.Proof.Gen.KernelIdeal.Frame
import proofs.«160488_j4389456576945_2_alg».proof.Proof.Spec
import proofs.«160488_j4389456576945_2_alg».proof.Proof.KHost
import proofs.«160488_j4389456576945_2_alg».proof.Proof.LibColumn
import proofs.«160488_j4389456576945_2_alg».proof.Proof.Region0
import proofs.«160488_j4389456576945_2_alg».proof.Proof.Region1
import proofs.«160488_j4389456576945_2_alg».proof.Proof.Region2
import proofs.«160488_j4389456576945_2_alg».proof.Proof.Region3
import proofs.«160488_j4389456576945_2_alg».proof.Proof.Region4
import proofs.«160488_j4389456576945_2_alg».proof.Proof.Region5
import proofs.«160488_j4389456576945_2_alg».proof.Proof.Region6
import proofs.«160488_j4389456576945_2_alg».proof.Proof.Region7
import proofs.«160488_j4389456576945_2_alg».proof.Proof.Region8

noncomputable section

namespace Cert.KernelIdeal.KChain

open Cert.KernelIdeal Cert.KernelIdeal.Gen Idealize.ShloMosaic Idealize.ShloMosaic.TcCoe Idealize.SL.Sem Idealize.ShloMosaic.StableHlo
open Idealize.ShloMosaic.ValueIdx Cert.Gcn Cert.KernelIdeal.KHost Cert.KernelIdeal.RegionValue

/-! ## A column and its rows -/

/-- A column array is the column of its rows. -/
theorem colOf_rowsOf {α : Type} (a : SCol.Idx → α) : colOf (rowsOf a) = a := by
  funext i
  obtain ⟨p, u, rfl⟩ : ∃ (p : Fin 12288) (u : Fin 1), i = ix2 p u := ⟨i 0, i 1, eq_ix2 i⟩
  have hu : u = 0 := Subsingleton.elim _ _
  subst hu
  rfl

/-- The inputs a region finds — the square matrix, the previous column laid as a row by the host, the input column,
    and the weight the host picked — give the specification's propagation step of the previous column. -/
theorem step_of_inputs (act : Ideal .f32 → Ideal .f32) (A : SA.Idx → Ideal .f32) (xprev : Fin 12288 → Ideal .f32)
    (x0c : SCol.Idx → Ideal .f32) (Wt : SW.Idx → Ideal .f32) (l : Fin 9) (off : Fin 3 → ℕ)
    (h0 : off 0 = l.val) (h1 : off 1 = 0) (h2 : off 2 = 0)
    (hs : SW.Slices off ⟨3, ![1, 1, 1]⟩) (hc : (⟨3, ![1, 1, 1]⟩ : Shape).ShapeCasts ⟨2, ![1, 1]⟩)
    (hr : SCol.ShapeCasts SRow)
    (VA : SA.Idx → Ideal .f32) (Vrow : SRow.Idx → Ideal .f32) (V0 : SCol.Idx → Ideal .f32)
    (Vw : (⟨2, ![1, 1]⟩ : Shape).Idx → Ideal .f32)
    (eA : VA = A) (erow : Vrow = shapeCast SRow (colOf xprev) hr) (e0 : V0 = x0c)
    (ew : Vw = shapeCast ⟨2, ![1, 1]⟩ (extractStridedSlice ⟨3, ![1, 1, 1]⟩ off Wt hs) hc) :
    colOf (layer act VA (fun k => Vrow (ix2 (0 : Fin 1) k)) (rowsOf V0) (Vw (ix2 (0 : Fin 1) (0 : Fin 1))))
      = colOf (layer act A xprev (rowsOf x0c) (weight Wt l)) := by
  subst eA erow e0 ew
  have e1 : (fun k : Fin 12288 => shapeCast SRow (colOf xprev) hr (ix2 (0 : Fin 1) k)) = xprev := by
    funext k
    exact (row_of_col_apply (colOf xprev) hr (0 : Fin 1) k).trans (colOf_apply xprev k 0)
  have e2 : shapeCast ⟨2, ![1, 1]⟩ (extractStridedSlice ⟨3, ![1, 1, 1]⟩ off Wt hs) hc (ix2 (0 : Fin 1) (0 : Fin 1)) = weight Wt l :=
    weight_apply Wt off l h0 h1 h2 hs hc 0 0
  rw [e1, e2]

/-! ## The arguments at every boundary -/

variable (m : (ℓ : Loc nD τ sig) → Buf (Elt Ideal) ℓ) (ρ : Dev nD → PrngReg) (c : Dev nD)

/-- A valuation that holds the three arguments as launched. -/
structure Kept (U : Valuation τ sig (Elt Ideal)) : Prop where
  a0 : U (Proc.devRef .tc main_arg0) = m ((c : Thread nD τ).loc main_arg0)
  a1 : U (Proc.devRef .tc main_arg1) = m ((c : Thread nD τ).loc main_arg1)
  a2 : U (Proc.devRef .tc main_arg2) = m ((c : Thread nD τ).loc main_arg2)

theorem kept0 : Kept m c (W0 m ρ c) := ⟨rfl, rfl, rfl⟩

theorem kept1 : Kept m c (W1 m ρ c) :=
  ⟨(host0_arg0 _).trans (kept0 m ρ c).a0, (host0_arg1 _).trans (kept0 m ρ c).a1, (host0_arg2 _).trans (kept0 m ρ c).a2⟩
theorem kept2 : Kept m c (W2 m ρ c) :=
  ⟨((W2_arr m ρ c 2).trans (((dat0 (V1 m ρ) c).arrAt_in 2 rfl _).trans (A_eq0 (V1 m ρ) c 2))).trans (kept1 m ρ c).a0,
   ((W2_arr m ρ c 0).trans (((dat0 (V1 m ρ) c).arrAt_in 0 rfl _).trans (A_eq0 (V1 m ρ) c 0))).trans (kept1 m ρ c).a1,
   (W2_of_ne m ρ c main_arg2 (by decide)).trans (kept1 m ρ c).a2⟩

/-- After region 0 its output column is the specification's column 1. -/
theorem col1 : W2 m ρ c (Proc.devRef .tc main_v3)
    = colOf (out1 (m ((c : Thread nD τ).loc main_arg1)) (rowsOf (m ((c : Thread nD τ).loc main_arg0))) (m ((c : Thread nD τ).loc main_arg2))) :=
  ((W2_arr m ρ c 4).trans (region0_value (V1 m ρ) c)).trans
    (step_of_inputs actId _ _ _ _ 0 ![0, 0, 0] rfl rfl rfl slices_S9x1x1_S1x1x1_0_0_0 shapeCasts_S1x1x1_S1x1 shapeCasts_S12288x1_S1x12288
      _ _ _ _ (kept1 m ρ c).a1
      ((host0_row _).trans (congrArg (fun a => shapeCast S1x12288 a shapeCasts_S12288x1_S1x12288) (((kept0 m ρ c).a0).trans (colOf_rowsOf _).symm)))
      (kept1 m ρ c).a0
      ((host0_weight _).trans (congrArg (fun w => shapeCast S1x1 (extractStridedSlice S1x1x1 ![0, 0, 0] w slices_S9x1x1_S1x1x1_0_0_0) shapeCasts_S1x1x1_S1x1)
        (kept0 m ρ c).a2)))

theorem kept3 : Kept m c (W3 m ρ c) :=
  ⟨(host1_arg0 _).trans (kept2 m ρ c).a0, (host1_arg1 _).trans (kept2 m ρ c).a1, (host1_arg2 _).trans (kept2 m ρ c).a2⟩
theorem kept4 : Kept m c (W4 m ρ c) :=
  ⟨((W4_arr m ρ c 2).trans (((dat1 (V3 m ρ) c).arrAt_in 2 rfl _).trans (A_eq1 (V3 m ρ) c 2))).trans (kept3 m ρ c).a0,
   ((W4_arr m ρ c 0).trans (((dat1 (V3 m ρ) c).arrAt_in 0 rfl _).trans (A_eq1 (V3 m ρ) c 0))).trans (kept3 m ρ c).a1,
   (W4_of_ne m ρ c main_arg2 (by decide)).trans (kept3 m ρ c).a2⟩

/-- After region 1 its output column is the specification's column 2. -/
theorem col2 : W4 m ρ c (Proc.devRef .tc main_v7)
    = colOf (out2 (m ((c : Thread nD τ).loc main_arg1)) (rowsOf (m ((c : Thread nD τ).loc main_arg0))) (m ((c : Thread nD τ).loc main_arg2))) :=
  ((W4_arr m ρ c 4).trans (region1_value (V3 m ρ) c)).trans
    (step_of_inputs actLeaky _ _ _ _ 1 ![1, 0, 0] rfl rfl rfl slices_S9x1x1_S1x1x1_1_0_0 shapeCasts_S1x1x1_S1x1 shapeCasts_S12288x1_S1x12288
      _ _ _ _ (kept3 m ρ c).a1
      ((host1_row _).trans (congrArg (fun a => shapeCast S1x12288 a shapeCasts_S12288x1_S1x12288) (col1 m ρ c)))
      (kept3 m ρ c).a0
      ((host1_weight _).trans (congrArg (fun w => shapeCast S1x1 (extractStridedSlice S1x1x1 ![1, 0, 0] w slices_S9x1x1_S1x1x1_1_0_0) shapeCasts_S1x1x1_S1x1)
        (kept2 m ρ c).a2)))

theorem kept5 : Kept m c (W5 m ρ c) :=
  ⟨(host2_arg0 _).trans (kept4 m ρ c).a0, (host2_arg1 _).trans (kept4 m ρ c).a1, (host2_arg2 _).trans (kept4 m ρ c).a2⟩
theorem kept6 : Kept m c (W6 m ρ c) :=
  ⟨((W6_arr m ρ c 2).trans (((dat2 (V5 m ρ) c).arrAt_in 2 rfl _).trans (A_eq2 (V5 m ρ) c 2))).trans (kept5 m ρ c).a0,
   ((W6_arr m ρ c 0).trans (((dat2 (V5 m ρ) c).arrAt_in 0 rfl _).trans (A_eq2 (V5 m ρ) c 0))).trans (kept5 m ρ c).a1,
   (W6_of_ne m ρ c main_arg2 (by decide)).trans (kept5 m ρ c).a2⟩

/-- After region 2 its output column is the specification's column 3. -/
theorem col3 : W6 m ρ c (Proc.devRef .tc main_v11)
    = colOf (out3 (m ((c : Thread nD τ).loc main_arg1)) (rowsOf (m ((c : Thread nD τ).loc main_arg0))) (m ((c : Thread nD τ).loc main_arg2))) :=
  ((W6_arr m ρ c 4).trans (region2_value (V5 m ρ) c)).trans
    (step_of_inputs actRelu _ _ _ _ 2 ![2, 0, 0] rfl rfl rfl slices_S9x1x1_S1x1x1_2_0_0 shapeCasts_S1x1x1_S1x1 shapeCasts_S12288x1_S1x12288
      _ _ _ _ (kept5 m ρ c).a1
      ((host2_row _).trans (congrArg (fun a => shapeCast S1x12288 a shapeCasts_S12288x1_S1x12288) (col2 m ρ c)))
      (kept5 m ρ c).a0
      ((host2_weight _).trans (congrArg (fun w => shapeCast S1x1 (extractStridedSlice S1x1x1 ![2, 0, 0] w slices_S9x1x1_S1x1x1_2_0_0) shapeCasts_S1x1x1_S1x1)
        (kept4 m ρ c).a2)))

theorem kept7 : Kept m c (W7 m ρ c) :=
  ⟨(host3_arg0 _).trans (kept6 m ρ c).a0, (host3_arg1 _).trans (kept6 m ρ c).a1, (host3_arg2 _).trans (kept6 m ρ c).a2⟩
theorem kept8 : Kept m c (W8 m ρ c) :=
  ⟨((W8_arr m ρ c 2).trans (((dat3 (V7 m ρ) c).arrAt_in 2 rfl _).trans (A_eq3 (V7 m ρ) c 2))).trans (kept7 m ρ c).a0,
   ((W8_arr m ρ c 0).trans (((dat3 (V7 m ρ) c).arrAt_in 0 rfl _).trans (A_eq3 (V7 m ρ) c 0))).trans (kept7 m ρ c).a1,
   (W8_of_ne m ρ c main_arg2 (by decide)).trans (kept7 m ρ c).a2⟩

/-- After region 3 its output column is the specification's column 4. -/
theorem col4 : W8 m ρ c (Proc.devRef .tc main_v15)
    = colOf (out4 (m ((c : Thread nD τ).loc main_arg1)) (rowsOf (m ((c : Thread nD τ).loc main_arg0))) (m ((c : Thread nD τ).loc main_arg2))) :=
  ((W8_arr m ρ c 4).trans (region3_value (V7 m ρ) c)).trans
    (step_of_inputs actRelu _ _ _ _ 3 ![3, 0, 0] rfl rfl rfl slices_S9x1x1_S1x1x1_3_0_0 shapeCasts_S1x1x1_S1x1 shapeCasts_S12288x1_S1x12288
      _ _ _ _ (kept7 m ρ c).a1
      ((host3_row _).trans (congrArg (fun a => shapeCast S1x12288 a shapeCasts_S12288x1_S1x12288) (col3 m ρ c)))
      (kept7 m ρ c).a0
      ((host3_weight _).trans (congrArg (fun w => shapeCast S1x1 (extractStridedSlice S1x1x1 ![3, 0, 0] w slices_S9x1x1_S1x1x1_3_0_0) shapeCasts_S1x1x1_S1x1)
        (kept6 m ρ c).a2)))

theorem kept9 : Kept m c (W9 m ρ c) :=
  ⟨(host4_arg0 _).trans (kept8 m ρ c).a0, (host4_arg1 _).trans (kept8 m ρ c).a1, (host4_arg2 _).trans (kept8 m ρ c).a2⟩
theorem kept10 : Kept m c (W10 m ρ c) :=
  ⟨((W10_arr m ρ c 2).trans (((dat4 (V9 m ρ) c).arrAt_in 2 rfl _).trans (A_eq4 (V9 m ρ) c 2))).trans (kept9 m ρ c).a0,
   ((W10_arr m ρ c 0).trans (((dat4 (V9 m ρ) c).arrAt_in 0 rfl _).trans (A_eq4 (V9 m ρ) c 0))).trans (kept9 m ρ c).a1,
   (W10_of_ne m ρ c main_arg2 (by decide)).trans (kept9 m ρ c).a2⟩

/-- After region 4 its output column is the specification's column 5. -/
theorem col5 : W10 m ρ c (Proc.devRef .tc main_v19)
    = colOf (out5 (m ((c : Thread nD τ).loc main_arg1)) (rowsOf (m ((c : Thread nD τ).loc main_arg0))) (m ((c : Thread nD τ).loc main_arg2))) :=
  ((W10_arr m ρ c 4).trans (region4_value (V9 m ρ) c)).trans
    (step_of_inputs actSig _ _ _ _ 4 ![4, 0, 0] rfl rfl rfl slices_S9x1x1_S1x1x1_4_0_0 shapeCasts_S1x1x1_S1x1 shapeCasts_S12288x1_S1x12288
      _ _ _ _ (kept9 m ρ c).a1
      ((host4_row _).trans (congrArg (fun a => shapeCast S1x12288 a shapeCasts_S12288x1_S1x12288) (col4 m ρ c)))
      (kept9 m ρ c).a0
      ((host4_weight _).trans (congrArg (fun w => shapeCast S1x1 (extractStridedSlice S1x1x1 ![4, 0, 0] w slices_S9x1x1_S1x1x1_4_0_0) shapeCasts_S1x1x1_S1x1)
        (kept8 m ρ c).a2)))

theorem kept11 : Kept m c (W11 m ρ c) :=
  ⟨(host5_arg0 _).trans (kept10 m ρ c).a0, (host5_arg1 _).trans (kept10 m ρ c).a1, (host5_arg2 _).trans (kept10 m ρ c).a2⟩
theorem kept12 : Kept m c (W12 m ρ c) :=
  ⟨((W12_arr m ρ c 2).trans (((dat5 (V11 m ρ) c).arrAt_in 2 rfl _).trans (A_eq5 (V11 m ρ) c 2))).trans (kept11 m ρ c).a0,
   ((W12_arr m ρ c 0).trans (((dat5 (V11 m ρ) c).arrAt_in 0 rfl _).trans (A_eq5 (V11 m ρ) c 0))).trans (kept11 m ρ c).a1,
   (W12_of_ne m ρ c main_arg2 (by decide)).trans (kept11 m ρ c).a2⟩

/-- After region 5 its output column is the specification's column 6. -/
theorem col6 : W12 m ρ c (Proc.devRef .tc main_v23)
    = colOf (out6 (m ((c : Thread nD τ).loc main_arg1)) (rowsOf (m ((c : Thread nD τ).loc main_arg0))) (m ((c : Thread nD τ).loc main_arg2))) :=
  ((W12_arr m ρ c 4).trans (region5_value (V11 m ρ) c)).trans
    (step_of_inputs actRelu _ _ _ _ 5 ![5, 0, 0] rfl rfl rfl slices_S9x1x1_S1x1x1_5_0_0 shapeCasts_S1x1x1_S1x1 shapeCasts_S12288x1_S1x12288
      _ _ _ _ (kept11 m ρ c).a1
      ((host5_row _).trans (congrArg (fun a => shapeCast S1x12288 a shapeCasts_S12288x1_S1x12288) (col5 m ρ c)))
      (kept11 m ρ c).a0
      ((host5_weight _).trans (congrArg (fun w => shapeCast S1x1 (extractStridedSlice S1x1x1 ![5, 0, 0] w slices_S9x1x1_S1x1x1_5_0_0) shapeCasts_S1x1x1_S1x1)
        (kept10 m ρ c).a2)))

theorem kept13 : Kept m c (W13 m ρ c) :=
  ⟨(host6_arg0 _).trans (kept12 m ρ c).a0, (host6_arg1 _).trans (kept12 m ρ c).a1, (host6_arg2 _).trans (kept12 m ρ c).a2⟩
theorem kept14 : Kept m c (W14 m ρ c) :=
  ⟨((W14_arr m ρ c 2).trans (((dat6 (V13 m ρ) c).arrAt_in 2 rfl _).trans (A_eq6 (V13 m ρ) c 2))).trans (kept13 m ρ c).a0,
   ((W14_arr m ρ c 0).trans (((dat6 (V13 m ρ) c).arrAt_in 0 rfl _).trans (A_eq6 (V13 m ρ) c 0))).trans (kept13 m ρ c).a1,
   (W14_of_ne m ρ c main_arg2 (by decide)).trans (kept13 m ρ c).a2⟩

/-- After region 6 its output column is the specification's column 7. -/
theorem col7 : W14 m ρ c (Proc.devRef .tc main_v27)
    = colOf (out7 (m ((c : Thread nD τ).loc main_arg1)) (rowsOf (m ((c : Thread nD τ).loc main_arg0))) (m ((c : Thread nD τ).loc main_arg2))) :=
  ((W14_arr m ρ c 4).trans (region6_value (V13 m ρ) c)).trans
    (step_of_inputs actRelu _ _ _ _ 6 ![6, 0, 0] rfl rfl rfl slices_S9x1x1_S1x1x1_6_0_0 shapeCasts_S1x1x1_S1x1 shapeCasts_S12288x1_S1x12288
      _ _ _ _ (kept13 m ρ c).a1
      ((host6_row _).trans (congrArg (fun a => shapeCast S1x12288 a shapeCasts_S12288x1_S1x12288) (col6 m ρ c)))
      (kept13 m ρ c).a0
      ((host6_weight _).trans (congrArg (fun w => shapeCast S1x1 (extractStridedSlice S1x1x1 ![6, 0, 0] w slices_S9x1x1_S1x1x1_6_0_0) shapeCasts_S1x1x1_S1x1)
        (kept12 m ρ c).a2)))

theorem kept15 : Kept m c (W15 m ρ c) :=
  ⟨(host7_arg0 _).trans (kept14 m ρ c).a0, (host7_arg1 _).trans (kept14 m ρ c).a1, (host7_arg2 _).trans (kept14 m ρ c).a2⟩
theorem kept16 : Kept m c (W16 m ρ c) :=
  ⟨((W16_arr m ρ c 2).trans (((dat7 (V15 m ρ) c).arrAt_in 2 rfl _).trans (A_eq7 (V15 m ρ) c 2))).trans (kept15 m ρ c).a0,
   ((W16_arr m ρ c 0).trans (((dat7 (V15 m ρ) c).arrAt_in 0 rfl _).trans (A_eq7 (V15 m ρ) c 0))).trans (kept15 m ρ c).a1,
   (W16_of_ne m ρ c main_arg2 (by decide)).trans (kept15 m ρ c).a2⟩

/-- After region 7 its output column is the specification's column 8. -/
theorem col8 : W16 m ρ c (Proc.devRef .tc main_v31)
    = colOf (out8 (m ((c : Thread nD τ).loc main_arg1)) (rowsOf (m ((c : Thread nD τ).loc main_arg0))) (m ((c : Thread nD τ).loc main_arg2))) :=
  ((W16_arr m ρ c 4).trans (region7_value (V15 m ρ) c)).trans
    (step_of_inputs actRelu _ _ _ _ 7 ![7, 0, 0] rfl rfl rfl slices_S9x1x1_S1x1x1_7_0_0 shapeCasts_S1x1x1_S1x1 shapeCasts_S12288x1_S1x12288
      _ _ _ _ (kept15 m ρ c).a1
      ((host7_row _).trans (congrArg (fun a => shapeCast S1x12288 a shapeCasts_S12288x1_S1x12288) (col7 m ρ c)))
      (kept15 m ρ c).a0
      ((host7_weight _).trans (congrArg (fun w => shapeCast S1x1 (extractStridedSlice S1x1x1 ![7, 0, 0] w slices_S9x1x1_S1x1x1_7_0_0) shapeCasts_S1x1x1_S1x1)
        (kept14 m ρ c).a2)))

theorem kept17 : Kept m c (W17 m ρ c) :=
  ⟨(host8_arg0 _).trans (kept16 m ρ c).a0, (host8_arg1 _).trans (kept16 m ρ c).a1, (host8_arg2 _).trans (kept16 m ρ c).a2⟩
theorem kept18 : Kept m c (W18 m ρ c) :=
  ⟨((W18_arr m ρ c 2).trans (((dat8 (V17 m ρ) c).arrAt_in 2 rfl _).trans (A_eq8 (V17 m ρ) c 2))).trans (kept17 m ρ c).a0,
   ((W18_arr m ρ c 0).trans (((dat8 (V17 m ρ) c).arrAt_in 0 rfl _).trans (A_eq8 (V17 m ρ) c 0))).trans (kept17 m ρ c).a1,
   (W18_of_ne m ρ c main_arg2 (by decide)).trans (kept17 m ρ c).a2⟩

/-- After region 8 its output column is the specification's column 9. -/
theorem col9 : W18 m ρ c (Proc.devRef .tc main_v35)
    = colOf (out9 (m ((c : Thread nD τ).loc main_arg1)) (rowsOf (m ((c : Thread nD τ).loc main_arg0))) (m ((c : Thread nD τ).loc main_arg2))) :=
  ((W18_arr m ρ c 4).trans (region8_value (V17 m ρ) c)).trans
    (step_of_inputs actSigN _ _ _ _ 8 ![8, 0, 0] rfl rfl rfl slices_S9x1x1_S1x1x1_8_0_0 shapeCasts_S1x1x1_S1x1 shapeCasts_S12288x1_S1x12288
      _ _ _ _ (kept17 m ρ c).a1
      ((host8_row _).trans (congrArg (fun a => shapeCast S1x12288 a shapeCasts_S12288x1_S1x12288) (col8 m ρ c)))
      (kept17 m ρ c).a0
      ((host8_weight _).trans (congrArg (fun w => shapeCast S1x1 (extractStridedSlice S1x1x1 ![8, 0, 0] w slices_S9x1x1_S1x1x1_8_0_0) shapeCasts_S1x1x1_S1x1)
        (kept16 m ρ c).a2)))

/-! ## The result -/

/-- The kernel program's result buffer, at the end of the fold, holds the specification's result of the arguments as
    launched: the ninth column, reshaped to a vector (entry i is the column's entry (i, 0)) and converted entry by
    entry. -/
theorem kernel_value : W19 m ρ c (Proc.devRef .tc main_v38)
    = Cert.Gcn.result (m ((c : Thread nD τ).loc main_arg1)) (m ((c : Thread nD τ).loc main_arg0)) (m ((c : Thread nD τ).loc main_arg2)) := by
  refine (host9_result _).trans
    ((congrArg (fun a => fptosi 32 (shapeCast S12288 a shapeCasts_S12288x1_S12288)) (col9 m ρ c)).trans ?_)
  funext i
  obtain ⟨r, rfl⟩ : ∃ r : Fin 12288, i = ix1 r := ⟨i 0, eq_ix1 i⟩
  show FloatOps.fptosi 32 (shapeCast S12288 (colOf (out9 _ _ _)) shapeCasts_S12288x1_S12288 (ix1 r)) = _
  rw [Idealize.ShloMosaic.Column.shapeCast_a1_a_apply]
  rfl

end Cert.KernelIdeal.KChain

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.RefLayer.lean ====
/-
  One propagation step of the reference network, read at a row.

  Every step of the reference first forms the same column from the square matrix `A`, the previous column `x`, the
  input column `x0` and the weights: the product `A · x`, scaled by the word nearest 0.7, plus `x0` scaled by the
  word nearest 0.3, and that column contracted with the `1 × 1` matrix holding the step's weight. The contraction of a
  `12288 × 1` column with a `1 × 1` matrix is a sum over one index, hence one product; the weight is entry
  `(l, 0, 0)` of the weights read through a slice and a change of shape; and the product `A · x` at row `r` is the sum
  over `k` of `A(r, k) · x(k)`. So at row `r` the column is the specification's `mix`. The five activations are
  pointwise, and each is the specification's function of the entry: the only facts used are that the word
  `0x3F800000` is one, that the logistic function at the extended reals is `1 / (1 + e^(-z))` by definition, and that a
  product of two extended reals commutes.
-/
import proofs.«160488_j4389456576945_2_alg».proof.Proof.RefOps
import proofs.«160488_j4389456576945_2_alg».proof.Proof.Spec
import proofs.«160488_j4389456576945_2_alg».proof.Proof.LibMatmul

noncomputable section

open scoped BigOperators

namespace Cert.ReferenceIdeal.RefLayer

open Cert.ReferenceIdeal Cert.ReferenceIdeal.Gen Idealize.ShloMosaic Idealize.ShloMosaic.ValueIdx Idealize.ShloMosaic.StableHlo Cert.Gcn

/-- The two contractions of a step are plain matrix products. -/
theorem dotA_eq : dot_S12288x12288_S12288x1_S12288x1_1_0_0_1_n_n = DotDims.plain 12288 12288 1 := rfl
theorem dotW_eq : dot_S12288x1_S1x1_S12288x1_1_0_0_1_n_n = DotDims.plain 12288 1 1 := rfl

/-- A word spread over a column. -/
abbrev spread (b : BitVec 32) : FVec Ideal S12288x1 .f32 :=
  broadcastInDim S12288x1 ![] bcast_S_S12288x1 (constant S_ .f32 b)

theorem spread_apply (b : BitVec 32) (j : S12288x1.Idx) : spread b j = lit b := rfl

/-- The column a step holds before its activation: `(0.7 · (A · x) + 0.3 · x0)` contracted with the `1 × 1` matrix
    cut out of the weights at `off`. -/
def pre (off : Fin 3 → Nat) (h : S9x1x1.Slices off S1x1x1) (A : FVec Ideal S12288x12288 .f32) (x x0 : FVec Ideal S12288x1 .f32)
    (w3 : FVec Ideal S9x1x1 .f32) : FVec Ideal S12288x1 .f32 :=
  Host.dotGeneral dot_S12288x1_S1x1_S12288x1_1_0_0_1_n_n none
    (addf (mulf (spread 0x3F333333#32) (Host.dotGeneral dot_S12288x12288_S12288x1_S12288x1_1_0_0_1_n_n none A x))
      (mulf (spread 0x3E99999A#32) x0))
    (shapeCast S1x1 (extractStridedSlice S1x1x1 off w3 h) shapeCasts_S1x1x1_S1x1)

/-- The `1 × 1` matrix cut out at `(l, 0, 0)` holds weight `l`. -/
theorem weight_read (l : Fin 9) (h : S9x1x1.Slices ![l.val, 0, 0] S1x1x1) (w3 : FVec Ideal S9x1x1 .f32) (a b : Fin 1) :
    shapeCast S1x1 (extractStridedSlice S1x1x1 ![l.val, 0, 0] w3 h) shapeCasts_S1x1x1_S1x1 (ix2 a b) = weight w3 l := by
  refine (shapeCast_apply _ _ (ix2 a b) (ix3 (0 : Fin 1) (0 : Fin 1) (0 : Fin 1)) ?_).trans ?_
  · rw [Shape.rowMajor_val_three, Shape.rowMajor_val_two]
    show ((0 : Fin 1).val * 1 + (0 : Fin 1).val) * 1 + (0 : Fin 1).val = a.val * 1 + b.val
    have := a.isLt; have := b.isLt
    show (0 * 1 + 0) * 1 + 0 = a.val * 1 + b.val
    omega
  · refine extractStridedSlice_apply _ _ h _ (ix3 l (0 : Fin 1) (0 : Fin 1)) fun c => ?_
    match c with
    | ⟨0, _⟩ => rfl
    | ⟨1, _⟩ => rfl
    | ⟨2, _⟩ => rfl

/-- The column before the activation, at row `p`, is the specification's mixed row. -/
theorem pre_apply (l : Fin 9) (h : S9x1x1.Slices ![l.val, 0, 0] S1x1x1) (A : FVec Ideal S12288x12288 .f32)
    (x x0 : FVec Ideal S12288x1 .f32) (w3 : FVec Ideal S9x1x1 .f32) (p : Fin 12288) (u : Fin 1) :
    pre ![l.val, 0, 0] h A x x0 w3 (ix2 p u) = mix A (rowsOf x) (rowsOf x0) (weight w3 l) p := by
  unfold pre
  rw [dotW_eq, Cert.MatOps.dotGeneral_plain_apply, Fin.sum_univ_one, weight_read]
  show (spread 0x3F333333#32 (ix2 p (0 : Fin 1))
        * Host.dotGeneral dot_S12288x12288_S12288x1_S12288x1_1_0_0_1_n_n none A x (ix2 p (0 : Fin 1))
      + spread 0x3E99999A#32 (ix2 p (0 : Fin 1)) * x0 (ix2 p (0 : Fin 1))) * weight w3 l = _
  rw [dotA_eq, Cert.MatOps.dotGeneral_plain_apply]
  rfl

/-! The five activations as the reference spells them on a column `z`. -/

/-- The leaky rectifier: `z` where `z ≥ 0`, the slope word times `z` elsewhere. -/
def leakyV (z : FVec Ideal S12288x1 .f32) : FVec Ideal S12288x1 .f32 :=
  select (cmpf .oge z (spread 0x00000000#32)) z (mulf (spread 0x3C23D70A#32) z)
/-- The rectifier: the larger of `z` and zero. -/
def reluV (z : FVec Ideal S12288x1 .f32) : FVec Ideal S12288x1 .f32 := maximumf z (spread 0x00000000#32)
/-- The logistic function spelt `1 / (1 + e^(-z))`, with the word `0x3F800000` for one. -/
def sigV (z : FVec Ideal S12288x1 .f32) : FVec Ideal S12288x1 .f32 :=
  Host.divf (spread 0x3F800000#32) (addf (spread 0x3F800000#32) (Host.exp (Host.negf z)))
/-- The word for 12288 times the logistic function. -/
def sigNV (z : FVec Ideal S12288x1 .f32) : FVec Ideal S12288x1 .f32 := mulf (spread 0x46400000#32) (sigV z)

end Cert.ReferenceIdeal.RefLayer

end
-- ==== Proof.RefLayer0.lean ====
/-
  The first propagation step of the reference, read off its operations.

  From any contents `U` of the buffers, the step's operations leave at its result buffer the column of
  `RefLayer` built from the square matrix, the previous column, the input column and the weights as `U` holds them:
  each operation writes one buffer of its own and reads buffers written before it or never written by the step, so the
  fold of the operations' results is the composed term. The three argument buffers are written by no operation.
-/
import proofs.«160488_j4389456576945_2_alg».proof.Proof.RefLayer

noncomputable section

namespace Cert.ReferenceIdeal.RefLayer

open Cert.ReferenceIdeal Cert.ReferenceIdeal.Gen Idealize.ShloMosaic Idealize.ShloMosaic.TcCoe Idealize.SL.Sem Idealize.ShloMosaic.StableHlo

/-- What the step leaves at its result buffer. -/
theorem L0_y (U : Valuation τ sig (Elt Ideal)) :
    after (RefOps.opsL0 (F := Ideal)) U (main_v8 : DevRef τ sig)
      = pre ![0, 0, 0] slices_S9x1x1_S1x1x1_0_0_0 (U (main_arg1 : DevRef τ sig)) (U (main_arg0 : DevRef τ sig)) (U (main_arg0 : DevRef τ sig)) (U (main_arg2 : DevRef τ sig)) := by
  after_results
  rfl

/-- The step writes none of the three arguments. -/
theorem L0_arg0 (U : Valuation τ sig (Elt Ideal)) :
    after (RefOps.opsL0 (F := Ideal)) U (main_arg0 : DevRef τ sig) = U (main_arg0 : DevRef τ sig) := by
  after_results
theorem L0_arg1 (U : Valuation τ sig (Elt Ideal)) :
    after (RefOps.opsL0 (F := Ideal)) U (main_arg1 : DevRef τ sig) = U (main_arg1 : DevRef τ sig) := by
  after_results
theorem L0_arg2 (U : Valuation τ sig (Elt Ideal)) :
    after (RefOps.opsL0 (F := Ideal)) U (main_arg2 : DevRef τ sig) = U (main_arg2 : DevRef τ sig) := by
  after_results

end Cert.ReferenceIdeal.RefLayer

end
-- ==== Proof.RefLayer1.lean ====
/-
  The second propagation step of the reference, read off its operations.

  From any contents `U` of the buffers, the step's operations leave at its result buffer the column of
  `RefLayer` built from the square matrix, the previous column, the input column and the weights as `U` holds them:
  each operation writes one buffer of its own and reads buffers written before it or never written by the step, so the
  fold of the operations' results is the composed term. The three argument buffers are written by no operation.
-/
import proofs.«160488_j4389456576945_2_alg».proof.Proof.RefLayer

noncomputable section

namespace Cert.ReferenceIdeal.RefLayer

open Cert.ReferenceIdeal Cert.ReferenceIdeal.Gen Idealize.ShloMosaic Idealize.ShloMosaic.TcCoe Idealize.SL.Sem Idealize.ShloMosaic.StableHlo

/-- What the step leaves at its result buffer. -/
theorem L1_y (U : Valuation τ sig (Elt Ideal)) :
    after (RefOps.opsL1 (F := Ideal)) U (main_v18 : DevRef τ sig)
      = leakyV (pre ![1, 0, 0] slices_S9x1x1_S1x1x1_1_0_0 (U (main_arg1 : DevRef τ sig)) (U (main_v8 : DevRef τ sig)) (U (main_arg0 : DevRef τ sig)) (U (main_arg2 : DevRef τ sig))) := by
  after_results
  rfl

/-- The step writes none of the three arguments. -/
theorem L1_arg0 (U : Valuation τ sig (Elt Ideal)) :
    after (RefOps.opsL1 (F := Ideal)) U (main_arg0 : DevRef τ sig) = U (main_arg0 : DevRef τ sig) := by
  after_results
theorem L1_arg1 (U : Valuation τ sig (Elt Ideal)) :
    after (RefOps.opsL1 (F := Ideal)) U (main_arg1 : DevRef τ sig) = U (main_arg1 : DevRef τ sig) := by
  after_results
theorem L1_arg2 (U : Valuation τ sig (Elt Ideal)) :
    after (RefOps.opsL1 (F := Ideal)) U (main_arg2 : DevRef τ sig) = U (main_arg2 : DevRef τ sig) := by
  after_results

end Cert.ReferenceIdeal.RefLayer

end
-- ==== Proof.RefLayer2.lean ====
/-
  The third propagation step of the reference, read off its operations.

  From any contents `U` of the buffers, the step's operations leave at its result buffer the column of
  `RefLayer` built from the square matrix, the previous column, the input column and the weights as `U` holds them:
  each operation writes one buffer of its own and reads buffers written before it or never written by the step, so the
  fold of the operations' results is the composed term. The three argument buffers are written by no operation.
-/
import proofs.«160488_j4389456576945_2_alg».proof.Proof.RefLayer

noncomputable section

namespace Cert.ReferenceIdeal.RefLayer

open Cert.ReferenceIdeal Cert.ReferenceIdeal.Gen Idealize.ShloMosaic Idealize.ShloMosaic.TcCoe Idealize.SL.Sem Idealize.ShloMosaic.StableHlo

/-- What the step leaves at its result buffer. -/
theorem L2_y (U : Valuation τ sig (Elt Ideal)) :
    after (RefOps.opsL2 (F := Ideal)) U (main_v28 : DevRef τ sig)
      = reluV (pre ![2, 0, 0] slices_S9x1x1_S1x1x1_2_0_0 (U (main_arg1 : DevRef τ sig)) (U (main_v18 : DevRef τ sig)) (U (main_arg0 : DevRef τ sig)) (U (main_arg2 : DevRef τ sig))) := by
  after_results
  rfl

/-- The step writes none of the three arguments. -/
theorem L2_arg0 (U : Valuation τ sig (Elt Ideal)) :
    after (RefOps.opsL2 (F := Ideal)) U (main_arg0 : DevRef τ sig) = U (main_arg0 : DevRef τ sig) := by
  after_results
theorem L2_arg1 (U : Valuation τ sig (Elt Ideal)) :
    after (RefOps.opsL2 (F := Ideal)) U (main_arg1 : DevRef τ sig) = U (main_arg1 : DevRef τ sig) := by
  after_results
theorem L2_arg2 (U : Valuation τ sig (Elt Ideal)) :
    after (RefOps.opsL2 (F := Ideal)) U (main_arg2 : DevRef τ sig) = U (main_arg2 : DevRef τ sig) := by
  after_results

end Cert.ReferenceIdeal.RefLayer

end
-- ==== Proof.RefLayer3.lean ====
/-
  The fourth propagation step of the reference, read off its operations.

  From any contents `U` of the buffers, the step's operations leave at its result buffer the column of
  `RefLayer` built from the square matrix, the previous column, the input column and the weights as `U` holds them:
  each operation writes one buffer of its own and reads buffers written before it or never written by the step, so the
  fold of the operations' results is the composed term. The three argument buffers are written by no operation.
-/
import proofs.«160488_j4389456576945_2_alg».proof.Proof.RefLayer

noncomputable section

namespace Cert.ReferenceIdeal.RefLayer

open Cert.ReferenceIdeal Cert.ReferenceIdeal.Gen Idealize.ShloMosaic Idealize.ShloMosaic.TcCoe Idealize.SL.Sem Idealize.ShloMosaic.StableHlo

/-- What the step leaves at its result buffer. -/
theorem L3_y (U : Valuation τ sig (Elt Ideal)) :
    after (RefOps.opsL3 (F := Ideal)) U (main_v38 : DevRef τ sig)
      = reluV (pre ![3, 0, 0] slices_S9x1x1_S1x1x1_3_0_0 (U (main_arg1 : DevRef τ sig)) (U (main_v28 : DevRef τ sig)) (U (main_arg0 : DevRef τ sig)) (U (main_arg2 : DevRef τ sig))) := by
  after_results
  rfl

/-- The step writes none of the three arguments. -/
theorem L3_arg0 (U : Valuation τ sig (Elt Ideal)) :
    after (RefOps.opsL3 (F := Ideal)) U (main_arg0 : DevRef τ sig) = U (main_arg0 : DevRef τ sig) := by
  after_results
theorem L3_arg1 (U : Valuation τ sig (Elt Ideal)) :
    after (RefOps.opsL3 (F := Ideal)) U (main_arg1 : DevRef τ sig) = U (main_arg1 : DevRef τ sig) := by
  after_results
theorem L3_arg2 (U : Valuation τ sig (Elt Ideal)) :
    after (RefOps.opsL3 (F := Ideal)) U (main_arg2 : DevRef τ sig) = U (main_arg2 : DevRef τ sig) := by
  after_results

end Cert.ReferenceIdeal.RefLayer

end
-- ==== Proof.RefLayer4.lean ====
/-
  The fifth propagation step of the reference, read off its operations.

  From any contents `U` of the buffers, the step's operations leave at its result buffer the column of
  `RefLayer` built from the square matrix, the previous column, the input column and the weights as `U` holds them:
  each operation writes one buffer of its own and reads buffers written before it or never written by the step, so the
  fold of the operations' results is the composed term. The three argument buffers are written by no operation.
-/
import proofs.«160488_j4389456576945_2_alg».proof.Proof.RefLayer

noncomputable section

namespace Cert.ReferenceIdeal.RefLayer

open Cert.ReferenceIdeal Cert.ReferenceIdeal.Gen Idealize.ShloMosaic Idealize.ShloMosaic.TcCoe Idealize.SL.Sem Idealize.ShloMosaic.StableHlo

/-- What the step leaves at its result buffer. -/
theorem L4_y (U : Valuation τ sig (Elt Ideal)) :
    after (RefOps.opsL4 (F := Ideal)) U (main_v53 : DevRef τ sig)
      = sigV (pre ![4, 0, 0] slices_S9x1x1_S1x1x1_4_0_0 (U (main_arg1 : DevRef τ sig)) (U (main_v38 : DevRef τ sig)) (U (main_arg0 : DevRef τ sig)) (U (main_arg2 : DevRef τ sig))) := by
  after_results
  rfl

/-- The step writes none of the three arguments. -/
theorem L4_arg0 (U : Valuation τ sig (Elt Ideal)) :
    after (RefOps.opsL4 (F := Ideal)) U (main_arg0 : DevRef τ sig) = U (main_arg0 : DevRef τ sig) := by
  after_results
theorem L4_arg1 (U : Valuation τ sig (Elt Ideal)) :
    after (RefOps.opsL4 (F := Ideal)) U (main_arg1 : DevRef τ sig) = U (main_arg1 : DevRef τ sig) := by
  after_results
theorem L4_arg2 (U : Valuation τ sig (Elt Ideal)) :
    after (RefOps.opsL4 (F := Ideal)) U (main_arg2 : DevRef τ sig) = U (main_arg2 : DevRef τ sig) := by
  after_results

end Cert.ReferenceIdeal.RefLayer

end
-- ==== Proof.RefLayer5.lean ====
/-
  The sixth propagation step of the reference, read off its operations.

  From any contents `U` of the buffers, the step's operations leave at its result buffer the column of
  `RefLayer` built from the square matrix, the previous column, the input column and the weights as `U` holds them:
  each operation writes one buffer of its own and reads buffers written before it or never written by the step, so the
  fold of the operations' results is the composed term. The three argument buffers are written by no operation.
-/
import proofs.«160488_j4389456576945_2_alg».proof.Proof.RefLayer

noncomputable section

namespace Cert.ReferenceIdeal.RefLayer

open Cert.ReferenceIdeal Cert.ReferenceIdeal.Gen Idealize.ShloMosaic Idealize.ShloMosaic.TcCoe Idealize.SL.Sem Idealize.ShloMosaic.StableHlo

/-- What the step leaves at its result buffer. -/
theorem L5_y (U : Valuation τ sig (Elt Ideal)) :
    after (RefOps.opsL5 (F := Ideal)) U (main_v63 : DevRef τ sig)
      = reluV (pre ![5, 0, 0] slices_S9x1x1_S1x1x1_5_0_0 (U (main_arg1 : DevRef τ sig)) (U (main_v53 : DevRef τ sig)) (U (main_arg0 : DevRef τ sig)) (U (main_arg2 : DevRef τ sig))) := by
  after_results
  rfl

/-- The step writes none of the three arguments. -/
theorem L5_arg0 (U : Valuation τ sig (Elt Ideal)) :
    after (RefOps.opsL5 (F := Ideal)) U (main_arg0 : DevRef τ sig) = U (main_arg0 : DevRef τ sig) := by
  after_results
theorem L5_arg1 (U : Valuation τ sig (Elt Ideal)) :
    after (RefOps.opsL5 (F := Ideal)) U (main_arg1 : DevRef τ sig) = U (main_arg1 : DevRef τ sig) := by
  after_results
theorem L5_arg2 (U : Valuation τ sig (Elt Ideal)) :
    after (RefOps.opsL5 (F := Ideal)) U (main_arg2 : DevRef τ sig) = U (main_arg2 : DevRef τ sig) := by
  after_results

end Cert.ReferenceIdeal.RefLayer

end
-- ==== Proof.RefLayer6.lean ====
/-
  The seventh propagation step of the reference, read off its operations.

  From any contents `U` of the buffers, the step's operations leave at its result buffer the column of
  `RefLayer` built from the square matrix, the previous column, the input column and the weights as `U` holds them:
  each operation writes one buffer of its own and reads buffers written before it or never written by the step, so the
  fold of the operations' results is the composed term. The three argument buffers are written by no operation.
-/
import proofs.«160488_j4389456576945_2_alg».proof.Proof.RefLayer

noncomputable section

namespace Cert.ReferenceIdeal.RefLayer

open Cert.ReferenceIdeal Cert.ReferenceIdeal.Gen Idealize.ShloMosaic Idealize.ShloMosaic.TcCoe Idealize.SL.Sem Idealize.ShloMosaic.StableHlo

/-- What the step leaves at its result buffer. -/
theorem L6_y (U : Valuation τ sig (Elt Ideal)) :
    after (RefOps.opsL6 (F := Ideal)) U (main_v73 : DevRef τ sig)
      = reluV (pre ![6, 0, 0] slices_S9x1x1_S1x1x1_6_0_0 (U (main_arg1 : DevRef τ sig)) (U (main_v63 : DevRef τ sig)) (U (main_arg0 : DevRef τ sig)) (U (main_arg2 : DevRef τ sig))) := by
  after_results
  rfl

/-- The step writes none of the three arguments. -/
theorem L6_arg0 (U : Valuation τ sig (Elt Ideal)) :
    after (RefOps.opsL6 (F := Ideal)) U (main_arg0 : DevRef τ sig) = U (main_arg0 : DevRef τ sig) := by
  after_results
theorem L6_arg1 (U : Valuation τ sig (Elt Ideal)) :
    after (RefOps.opsL6 (F := Ideal)) U (main_arg1 : DevRef τ sig) = U (main_arg1 : DevRef τ sig) := by
  after_results
theorem L6_arg2 (U : Valuation τ sig (Elt Ideal)) :
    after (RefOps.opsL6 (F := Ideal)) U (main_arg2 : DevRef τ sig) = U (main_arg2 : DevRef τ sig) := by
  after_results

end Cert.ReferenceIdeal.RefLayer

end
-- ==== Proof.RefLayer7.lean ====
/-
  The eighth propagation step of the reference, read off its operations.

  From any contents `U` of the buffers, the step's operations leave at its result buffer the column of
  `RefLayer` built from the square matrix, the previous column, the input column and the weights as `U` holds them:
  each operation writes one buffer of its own and reads buffers written before it or never written by the step, so the
  fold of the operations' results is the composed term. The three argument buffers are written by no operation.
-/
import proofs.«160488_j4389456576945_2_alg».proof.Proof.RefLayer

noncomputable section

namespace Cert.ReferenceIdeal.RefLayer

open Cert.ReferenceIdeal Cert.ReferenceIdeal.Gen Idealize.ShloMosaic Idealize.ShloMosaic.TcCoe Idealize.SL.Sem Idealize.ShloMosaic.StableHlo

/-- What the step leaves at its result buffer. -/
theorem L7_y (U : Valuation τ sig (Elt Ideal)) :
    after (RefOps.opsL7 (F := Ideal)) U (main_v83 : DevRef τ sig)
      = reluV (pre ![7, 0, 0] slices_S9x1x1_S1x1x1_7_0_0 (U (main_arg1 : DevRef τ sig)) (U (main_v73 : DevRef τ sig)) (U (main_arg0 : DevRef τ sig)) (U (main_arg2 : DevRef τ sig))) := by
  after_results
  rfl

/-- The step writes none of the three arguments. -/
theorem L7_arg0 (U : Valuation τ sig (Elt Ideal)) :
    after (RefOps.opsL7 (F := Ideal)) U (main_arg0 : DevRef τ sig) = U (main_arg0 : DevRef τ sig) := by
  after_results
theorem L7_arg1 (U : Valuation τ sig (Elt Ideal)) :
    after (RefOps.opsL7 (F := Ideal)) U (main_arg1 : DevRef τ sig) = U (main_arg1 : DevRef τ sig) := by
  after_results
theorem L7_arg2 (U : Valuation τ sig (Elt Ideal)) :
    after (RefOps.opsL7 (F := Ideal)) U (main_arg2 : DevRef τ sig) = U (main_arg2 : DevRef τ sig) := by
  after_results

end Cert.ReferenceIdeal.RefLayer

end
-- ==== Proof.RefLayer8.lean ====
/-
  The ninth propagation step of the reference, read off its operations.

  From any contents `U` of the buffers, the step's operations leave at its result buffer the column of
  `RefLayer` built from the square matrix, the previous column, the input column and the weights as `U` holds them:
  each operation writes one buffer of its own and reads buffers written before it or never written by the step, so the
  fold of the operations' results is the composed term. The three argument buffers are written by no operation.
-/
import proofs.«160488_j4389456576945_2_alg».proof.Proof.RefLayer

noncomputable section

namespace Cert.ReferenceIdeal.RefLayer

open Cert.ReferenceIdeal Cert.ReferenceIdeal.Gen Idealize.ShloMosaic Idealize.ShloMosaic.TcCoe Idealize.SL.Sem Idealize.ShloMosaic.StableHlo

/-- What the step leaves at its result buffer. -/
theorem L8_y (U : Valuation τ sig (Elt Ideal)) :
    after (RefOps.opsL8 (F := Ideal)) U (main_v100 : DevRef τ sig)
      = sigNV (pre ![8, 0, 0] slices_S9x1x1_S1x1x1_8_0_0 (U (main_arg1 : DevRef τ sig)) (U (main_v83 : DevRef τ sig)) (U (main_arg0 : DevRef τ sig)) (U (main_arg2 : DevRef τ sig))) := by
  after_results
  rfl

/-- The step writes none of the three arguments. -/
theorem L8_arg0 (U : Valuation τ sig (Elt Ideal)) :
    after (RefOps.opsL8 (F := Ideal)) U (main_arg0 : DevRef τ sig) = U (main_arg0 : DevRef τ sig) := by
  after_results
theorem L8_arg1 (U : Valuation τ sig (Elt Ideal)) :
    after (RefOps.opsL8 (F := Ideal)) U (main_arg1 : DevRef τ sig) = U (main_arg1 : DevRef τ sig) := by
  after_results
theorem L8_arg2 (U : Valuation τ sig (Elt Ideal)) :
    after (RefOps.opsL8 (F := Ideal)) U (main_arg2 : DevRef τ sig) = U (main_arg2 : DevRef τ sig) := by
  after_results

end Cert.ReferenceIdeal.RefLayer

end
-- ==== Proof.RefLayerActs.lean ====
/-
  The reference's activations are the specification's, and a step's column is the specification's layer.

  On a column `z` each activation is pointwise. The leaky rectifier and the rectifier are the specification's by
  definition. The logistic function is spelt `w₁ / (w₁ + e^(-z))` with `w₁` the word `0x3F800000`; that word is the
  extended real one (sign 0, exponent field 127 = the bias, fraction 0), and at the extended reals the logistic function
  is `1 / (1 + e^(-z))` by definition. The last step multiplies the word for 12288 by the logistic value, the
  specification multiplies the logistic value by that word: the product of extended reals commutes.
  With `RefLayer.pre_apply` — the column before the activation is the mixed row — each step's column is
  `colOf (layer act A (rowsOf x) (rowsOf x0) (weight W l))`.
-/
import proofs.«160488_j4389456576945_2_alg».proof.Proof.RefLayer

noncomputable section

namespace Cert.ReferenceIdeal.RefLayer

open Cert.ReferenceIdeal Cert.ReferenceIdeal.Gen Idealize.ShloMosaic Idealize.ShloMosaic.ValueIdx Cert.Gcn

/-- The word `0x3F800000` is one. -/
theorem lit_one : lit 0x3F800000#32 = (1 : Ideal .f32) := by
  show Ideal.ofBits .f32 0x3F800000#32 = 1
  simp [Ideal.ofBits, Ideal.ieee, -EReal.coe_mul]; norm_num

theorem leakyV_apply (z : FVec Ideal S12288x1 .f32) (j : S12288x1.Idx) : leakyV z j = actLeaky (z j) := rfl
theorem reluV_apply (z : FVec Ideal S12288x1 .f32) (j : S12288x1.Idx) : reluV z j = actRelu (z j) := rfl
theorem sigV_apply (z : FVec Ideal S12288x1 .f32) (j : S12288x1.Idx) : sigV z j = actSig (z j) := by
  show FloatOps.hostDivf (lit 0x3F800000#32) (FloatOps.addf (lit 0x3F800000#32) (FloatOps.hostUnary .exp (FloatOps.hostNegf (z j))))
    = FloatOps.logistic (z j)
  rw [lit_one]
  rfl
theorem sigNV_apply (z : FVec Ideal S12288x1 .f32) (j : S12288x1.Idx) : sigNV z j = actSigN (z j) := by
  show FloatOps.mulf (lit 0x46400000#32) (sigV z j) = FloatOps.mulf (FloatOps.logistic (z j)) (lit 0x46400000#32)
  rw [sigV_apply]
  exact mul_comm _ _

section Layer
variable (l : Fin 9) (h : S9x1x1.Slices ![l.val, 0, 0] S1x1x1) (A : FVec Ideal S12288x12288 .f32)
  (x x0 : FVec Ideal S12288x1 .f32) (w3 : FVec Ideal S9x1x1 .f32)

/-- A step with no activation. -/
theorem id_layer : pre ![l.val, 0, 0] h A x x0 w3 = colOf (layer actId A (rowsOf x) (rowsOf x0) (weight w3 l)) := by
  funext j
  obtain ⟨p, u, rfl⟩ : ∃ (p : Fin 12288) (u : Fin 1), j = ix2 p u := ⟨j 0, j 1, eq_ix2 j⟩
  rw [pre_apply]
  rfl
/-- A step with the leaky rectifier. -/
theorem leaky_layer : leakyV (pre ![l.val, 0, 0] h A x x0 w3) = colOf (layer actLeaky A (rowsOf x) (rowsOf x0) (weight w3 l)) := by
  funext j
  obtain ⟨p, u, rfl⟩ : ∃ (p : Fin 12288) (u : Fin 1), j = ix2 p u := ⟨j 0, j 1, eq_ix2 j⟩
  rw [leakyV_apply, pre_apply]
  rfl
/-- A step with the rectifier. -/
theorem relu_layer : reluV (pre ![l.val, 0, 0] h A x x0 w3) = colOf (layer actRelu A (rowsOf x) (rowsOf x0) (weight w3 l)) := by
  funext j
  obtain ⟨p, u, rfl⟩ : ∃ (p : Fin 12288) (u : Fin 1), j = ix2 p u := ⟨j 0, j 1, eq_ix2 j⟩
  rw [reluV_apply, pre_apply]
  rfl
/-- A step with the logistic function. -/
theorem sig_layer : sigV (pre ![l.val, 0, 0] h A x x0 w3) = colOf (layer actSig A (rowsOf x) (rowsOf x0) (weight w3 l)) := by
  funext j
  obtain ⟨p, u, rfl⟩ : ∃ (p : Fin 12288) (u : Fin 1), j = ix2 p u := ⟨j 0, j 1, eq_ix2 j⟩
  rw [sigV_apply, pre_apply]
  rfl
/-- A step with the scaled logistic function. -/
theorem sigN_layer : sigNV (pre ![l.val, 0, 0] h A x x0 w3) = colOf (layer actSigN A (rowsOf x) (rowsOf x0) (weight w3 l)) := by
  funext j
  obtain ⟨p, u, rfl⟩ : ∃ (p : Fin 12288) (u : Fin 1), j = ix2 p u := ⟨j 0, j 1, eq_ix2 j⟩
  rw [sigNV_apply, pre_apply]
  rfl
end Layer

end Cert.ReferenceIdeal.RefLayer

end
-- ==== Proof.RefValue.lean ====
/-
  What the reference's operations leave at its result buffer, as the specification's function of the arguments.

  The operations are nine propagation steps and a conversion, run one after the other, so the contents after all of
  them are the conversion's after the ninth step's after … after the first step's. No step writes an argument buffer,
  so every step reads the square matrix, the input column and the weights as they were at launch; step `l + 1` reads
  the previous column at the buffer step `l` wrote. By induction along the nine steps the buffer written by step `l`
  holds the specification's column `out l`; the conversion lays the ninth column out as a vector — entry `i` of the
  vector is row `i` of the column — and converts each entry to a 32-bit integer, which is the specification's result.
-/
import proofs.«160488_j4389456576945_2_alg».proof.Proof.RefLayer0
import proofs.«160488_j4389456576945_2_alg».proof.Proof.RefLayer1
import proofs.«160488_j4389456576945_2_alg».proof.Proof.RefLayer2
import proofs.«160488_j4389456576945_2_alg».proof.Proof.RefLayer3
import proofs.«160488_j4389456576945_2_alg».proof.Proof.RefLayer4
import proofs.«160488_j4389456576945_2_alg».proof.Proof.RefLayer5
import proofs.«160488_j4389456576945_2_alg».proof.Proof.RefLayer6
import proofs.«160488_j4389456576945_2_alg».proof.Proof.RefLayer7
import proofs.«160488_j4389456576945_2_alg».proof.Proof.RefLayer8
import proofs.«160488_j4389456576945_2_alg».proof.Proof.RefLayerActs
import proofs.«160488_j4389456576945_2_alg».proof.Proof.LibColumn

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefLayer Cert.Gcn Idealize.ShloMosaic.ValueIdx

/-- The contents `U` hold at the three argument buffers what the contents `V` hold there. -/
structure Keeps (V U : Valuation τ sig (Elt Ideal)) : Prop where
  a0 : U (main_arg0 : DevRef τ sig) = V (main_arg0 : DevRef τ sig)
  a1 : U (main_arg1 : DevRef τ sig) = V (main_arg1 : DevRef τ sig)
  a2 : U (main_arg2 : DevRef τ sig) = V (main_arg2 : DevRef τ sig)

variable {V U : Valuation τ sig (Elt Ideal)}

/-! No step writes an argument. -/
theorem keeps0 (k : Keeps V U) : Keeps V (after (RefOps.opsL0 (F := Ideal)) U) :=
  ⟨(L0_arg0 U).trans k.a0, (L0_arg1 U).trans k.a1, (L0_arg2 U).trans k.a2⟩
theorem keeps1 (k : Keeps V U) : Keeps V (after (RefOps.opsL1 (F := Ideal)) U) :=
  ⟨(L1_arg0 U).trans k.a0, (L1_arg1 U).trans k.a1, (L1_arg2 U).trans k.a2⟩
theorem keeps2 (k : Keeps V U) : Keeps V (after (RefOps.opsL2 (F := Ideal)) U) :=
  ⟨(L2_arg0 U).trans k.a0, (L2_arg1 U).trans k.a1, (L2_arg2 U).trans k.a2⟩
theorem keeps3 (k : Keeps V U) : Keeps V (after (RefOps.opsL3 (F := Ideal)) U) :=
  ⟨(L3_arg0 U).trans k.a0, (L3_arg1 U).trans k.a1, (L3_arg2 U).trans k.a2⟩
theorem keeps4 (k : Keeps V U) : Keeps V (after (RefOps.opsL4 (F := Ideal)) U) :=
  ⟨(L4_arg0 U).trans k.a0, (L4_arg1 U).trans k.a1, (L4_arg2 U).trans k.a2⟩
theorem keeps5 (k : Keeps V U) : Keeps V (after (RefOps.opsL5 (F := Ideal)) U) :=
  ⟨(L5_arg0 U).trans k.a0, (L5_arg1 U).trans k.a1, (L5_arg2 U).trans k.a2⟩
theorem keeps6 (k : Keeps V U) : Keeps V (after (RefOps.opsL6 (F := Ideal)) U) :=
  ⟨(L6_arg0 U).trans k.a0, (L6_arg1 U).trans k.a1, (L6_arg2 U).trans k.a2⟩
theorem keeps7 (k : Keeps V U) : Keeps V (after (RefOps.opsL7 (F := Ideal)) U) :=
  ⟨(L7_arg0 U).trans k.a0, (L7_arg1 U).trans k.a1, (L7_arg2 U).trans k.a2⟩
theorem keeps8 (k : Keeps V U) : Keeps V (after (RefOps.opsL8 (F := Ideal)) U) :=
  ⟨(L8_arg0 U).trans k.a0, (L8_arg1 U).trans k.a1, (L8_arg2 U).trans k.a2⟩

/-! Step by step: the buffer a step writes holds the specification's column. -/

/-- The first step starts from the input column itself. -/
theorem col1 (V : Valuation τ sig (Elt Ideal)) :
    after (RefOps.opsL0 (F := Ideal)) V (main_v8 : DevRef τ sig) = colOf (out1 (V (main_arg1 : DevRef τ sig)) (rowsOf (V (main_arg0 : DevRef τ sig))) (V (main_arg2 : DevRef τ sig))) :=
  (L0_y V).trans (id_layer 0 _ _ _ _ _)
theorem col2 (k : Keeps V U) (hx : U (main_v8 : DevRef τ sig) = colOf (out1 (V (main_arg1 : DevRef τ sig)) (rowsOf (V (main_arg0 : DevRef τ sig))) (V (main_arg2 : DevRef τ sig)))) :
    after (RefOps.opsL1 (F := Ideal)) U (main_v18 : DevRef τ sig) = colOf (out2 (V (main_arg1 : DevRef τ sig)) (rowsOf (V (main_arg0 : DevRef τ sig))) (V (main_arg2 : DevRef τ sig))) := by
  refine (L1_y U).trans ((leaky_layer 1 _ _ _ _ _).trans ?_)
  rw [k.a0, k.a1, k.a2, hx]
  rfl
theorem col3 (k : Keeps V U) (hx : U (main_v18 : DevRef τ sig) = colOf (out2 (V (main_arg1 : DevRef τ sig)) (rowsOf (V (main_arg0 : DevRef τ sig))) (V (main_arg2 : DevRef τ sig)))) :
    after (RefOps.opsL2 (F := Ideal)) U (main_v28 : DevRef τ sig) = colOf (out3 (V (main_arg1 : DevRef τ sig)) (rowsOf (V (main_arg0 : DevRef τ sig))) (V (main_arg2 : DevRef τ sig))) := by
  refine (L2_y U).trans ((relu_layer 2 _ _ _ _ _).trans ?_)
  rw [k.a0, k.a1, k.a2, hx]
  rfl
theorem col4 (k : Keeps V U) (hx : U (main_v28 : DevRef τ sig) = colOf (out3 (V (main_arg1 : DevRef τ sig)) (rowsOf (V (main_arg0 : DevRef τ sig))) (V (main_arg2 : DevRef τ sig)))) :
    after (RefOps.opsL3 (F := Ideal)) U (main_v38 : DevRef τ sig) = colOf (out4 (V (main_arg1 : DevRef τ sig)) (rowsOf (V (main_arg0 : DevRef τ sig))) (V (main_arg2 : DevRef τ sig))) := by
  refine (L3_y U).trans ((relu_layer 3 _ _ _ _ _).trans ?_)
  rw [k.a0, k.a1, k.a2, hx]
  rfl
theorem col5 (k : Keeps V U) (hx : U (main_v38 : DevRef τ sig) = colOf (out4 (V (main_arg1 : DevRef τ sig)) (rowsOf (V (main_arg0 : DevRef τ sig))) (V (main_arg2 : DevRef τ sig)))) :
    after (RefOps.opsL4 (F := Ideal)) U (main_v53 : DevRef τ sig) = colOf (out5 (V (main_arg1 : DevRef τ sig)) (rowsOf (V (main_arg0 : DevRef τ sig))) (V (main_arg2 : DevRef τ sig))) := by
  refine (L4_y U).trans ((sig_layer 4 _ _ _ _ _).trans ?_)
  rw [k.a0, k.a1, k.a2, hx]
  rfl
theorem col6 (k : Keeps V U) (hx : U (main_v53 : DevRef τ sig) = colOf (out5 (V (main_arg1 : DevRef τ sig)) (rowsOf (V (main_arg0 : DevRef τ sig))) (V (main_arg2 : DevRef τ sig)))) :
    after (RefOps.opsL5 (F := Ideal)) U (main_v63 : DevRef τ sig) = colOf (out6 (V (main_arg1 : DevRef τ sig)) (rowsOf (V (main_arg0 : DevRef τ sig))) (V (main_arg2 : DevRef τ sig))) := by
  refine (L5_y U).trans ((relu_layer 5 _ _ _ _ _).trans ?_)
  rw [k.a0, k.a1, k.a2, hx]
  rfl
theorem col7 (k : Keeps V U) (hx : U (main_v63 : DevRef τ sig) = colOf (out6 (V (main_arg1 : DevRef τ sig)) (rowsOf (V (main_arg0 : DevRef τ sig))) (V (main_arg2 : DevRef τ sig)))) :
    after (RefOps.opsL6 (F := Ideal)) U (main_v73 : DevRef τ sig) = colOf (out7 (V (main_arg1 : DevRef τ sig)) (rowsOf (V (main_arg0 : DevRef τ sig))) (V (main_arg2 : DevRef τ sig))) := by
  refine (L6_y U).trans ((relu_layer 6 _ _ _ _ _).trans ?_)
  rw [k.a0, k.a1, k.a2, hx]
  rfl
theorem col8 (k : Keeps V U) (hx : U (main_v73 : DevRef τ sig) = colOf (out7 (V (main_arg1 : DevRef τ sig)) (rowsOf (V (main_arg0 : DevRef τ sig))) (V (main_arg2 : DevRef τ sig)))) :
    after (RefOps.opsL7 (F := Ideal)) U (main_v83 : DevRef τ sig) = colOf (out8 (V (main_arg1 : DevRef τ sig)) (rowsOf (V (main_arg0 : DevRef τ sig))) (V (main_arg2 : DevRef τ sig))) := by
  refine (L7_y U).trans ((relu_layer 7 _ _ _ _ _).trans ?_)
  rw [k.a0, k.a1, k.a2, hx]
  rfl
theorem col9 (k : Keeps V U) (hx : U (main_v83 : DevRef τ sig) = colOf (out8 (V (main_arg1 : DevRef τ sig)) (rowsOf (V (main_arg0 : DevRef τ sig))) (V (main_arg2 : DevRef τ sig)))) :
    after (RefOps.opsL8 (F := Ideal)) U (main_v100 : DevRef τ sig) = colOf (out9 (V (main_arg1 : DevRef τ sig)) (rowsOf (V (main_arg0 : DevRef τ sig))) (V (main_arg2 : DevRef τ sig))) := by
  refine (L8_y U).trans ((sigN_layer 8 _ _ _ _ _).trans ?_)
  rw [k.a0, k.a1, k.a2, hx]
  rfl

/-! The conversion. -/

theorem tail_y (U : Valuation τ sig (Elt Ideal)) :
    after (RefOps.opsTail (F := Ideal)) U (main_v102 : DevRef τ sig)
      = fptosi (F := Ideal) (φ := .f32) 32 (shapeCast S12288 (U (main_v100 : DevRef τ sig)) shapeCasts_S12288x1_S12288) := by
  after_results
  rfl
theorem tail_arg0 (U : Valuation τ sig (Elt Ideal)) :
    after (RefOps.opsTail (F := Ideal)) U (main_arg0 : DevRef τ sig) = U (main_arg0 : DevRef τ sig) := by
  after_results
theorem tail_arg1 (U : Valuation τ sig (Elt Ideal)) :
    after (RefOps.opsTail (F := Ideal)) U (main_arg1 : DevRef τ sig) = U (main_arg1 : DevRef τ sig) := by
  after_results
theorem tail_arg2 (U : Valuation τ sig (Elt Ideal)) :
    after (RefOps.opsTail (F := Ideal)) U (main_arg2 : DevRef τ sig) = U (main_arg2 : DevRef τ sig) := by
  after_results
theorem keepsTail (k : Keeps V U) : Keeps V (after (RefOps.opsTail (F := Ideal)) U) :=
  ⟨(tail_arg0 U).trans k.a0, (tail_arg1 U).trans k.a1, (tail_arg2 U).trans k.a2⟩

/-- The ninth column as a vector, converted entry by entry, is the specification's result. -/
theorem tail_result (hx : U (main_v100 : DevRef τ sig) = colOf (out9 (V (main_arg1 : DevRef τ sig)) (rowsOf (V (main_arg0 : DevRef τ sig))) (V (main_arg2 : DevRef τ sig)))) :
    after (RefOps.opsTail (F := Ideal)) U (main_v102 : DevRef τ sig) = Cert.Gcn.result (V (main_arg1 : DevRef τ sig)) (V (main_arg0 : DevRef τ sig)) (V (main_arg2 : DevRef τ sig)) := by
  rw [tail_y, hx]
  funext i
  obtain ⟨p, rfl⟩ : ∃ p : Fin 12288, i = ix1 p := ⟨i 0, eq_ix1 i⟩
  exact congrArg (FloatOps.fptosi 32)
    (Idealize.ShloMosaic.Column.shapeCast_a1_a_apply (colOf (out9 (V (main_arg1 : DevRef τ sig)) (rowsOf (V (main_arg0 : DevRef τ sig))) (V (main_arg2 : DevRef τ sig)))) shapeCasts_S12288x1_S12288 p)

/-! The whole line. -/

/-- The operations run in order: the conversion after the ninth step after … after the first. -/
theorem ops_split (V : Valuation τ sig (Elt Ideal)) :
    after (RefOps.ops (F := Ideal)) V
      = after (RefOps.opsTail (F := Ideal)) (after (RefOps.opsL8 (F := Ideal)) (after (RefOps.opsL7 (F := Ideal)) (after (RefOps.opsL6 (F := Ideal)) (after (RefOps.opsL5 (F := Ideal)) (after (RefOps.opsL4 (F := Ideal)) (after (RefOps.opsL3 (F := Ideal)) (after (RefOps.opsL2 (F := Ideal)) (after (RefOps.opsL1 (F := Ideal)) (after (RefOps.opsL0 (F := Ideal)) (V)))))))))) :=
  (StableHlo.after_append (RefOps.opsL0 (F := Ideal)) _ _).trans <|
  (StableHlo.after_append (RefOps.opsL1 (F := Ideal)) _ _).trans <|
  (StableHlo.after_append (RefOps.opsL2 (F := Ideal)) _ _).trans <|
  (StableHlo.after_append (RefOps.opsL3 (F := Ideal)) _ _).trans <|
  (StableHlo.after_append (RefOps.opsL4 (F := Ideal)) _ _).trans <|
  (StableHlo.after_append (RefOps.opsL5 (F := Ideal)) _ _).trans <|
  (StableHlo.after_append (RefOps.opsL6 (F := Ideal)) _ _).trans <|
  (StableHlo.after_append (RefOps.opsL7 (F := Ideal)) _ _).trans <|
  (StableHlo.after_append (RefOps.opsL8 (F := Ideal)) _ _).trans <|
  rfl

/-- The nine steps keep the arguments. -/
theorem keepsAll (V : Valuation τ sig (Elt Ideal)) :
    Keeps V (after (RefOps.opsL8 (F := Ideal)) (after (RefOps.opsL7 (F := Ideal)) (after (RefOps.opsL6 (F := Ideal)) (after (RefOps.opsL5 (F := Ideal)) (after (RefOps.opsL4 (F := Ideal)) (after (RefOps.opsL3 (F := Ideal)) (after (RefOps.opsL2 (F := Ideal)) (after (RefOps.opsL1 (F := Ideal)) (after (RefOps.opsL0 (F := Ideal)) (V)))))))))) :=
  keeps8 (keeps7 (keeps6 (keeps5 (keeps4 (keeps3 (keeps2 (keeps1 (keeps0 (⟨rfl, rfl, rfl⟩)))))))))

theorem ops_result (V : Valuation τ sig (Elt Ideal)) :
    after (RefOps.ops (F := Ideal)) V (main_v102 : DevRef τ sig)
      = Cert.Gcn.result (V (main_arg1 : DevRef τ sig)) (V (main_arg0 : DevRef τ sig)) (V (main_arg2 : DevRef τ sig)) := by
  have k0 : Keeps V V := ⟨rfl, rfl, rfl⟩
  have c1 := col1 V
  have k1 := keeps0 k0
  have c2 := col2 k1 c1
  have k2 := keeps1 k1
  have c3 := col3 k2 c2
  have k3 := keeps2 k2
  have c4 := col4 k3 c3
  have k4 := keeps3 k3
  have c5 := col5 k4 c4
  have k5 := keeps4 k4
  have c6 := col6 k5 c5
  have k6 := keeps5 k5
  have c7 := col7 k6 c6
  have k7 := keeps6 k6
  have c8 := col8 k7 c7
  have k8 := keeps7 k7
  have c9 := col9 k8 c8
  have k9 := keeps8 k8
  rw [ops_split]
  exact tail_result c9

theorem ops_arg0 (V : Valuation τ sig (Elt Ideal)) :
    after (RefOps.ops (F := Ideal)) V (main_arg0 : DevRef τ sig) = V (main_arg0 : DevRef τ sig) := by
  rw [ops_split]
  exact (keepsTail (keepsAll V)).a0
theorem ops_arg1 (V : Valuation τ sig (Elt Ideal)) :
    after (RefOps.ops (F := Ideal)) V (main_arg1 : DevRef τ sig) = V (main_arg1 : DevRef τ sig) := by
  rw [ops_split]
  exact (keepsTail (keepsAll V)).a1
theorem ops_arg2 (V : Valuation τ sig (Elt Ideal)) :
    after (RefOps.ops (F := Ideal)) V (main_arg2 : DevRef τ sig) = V (main_arg2 : DevRef τ sig) := by
  rw [ops_split]
  exact (keepsTail (keepsAll V)).a2

end Cert.ReferenceIdeal.RefValue

end
-- ==== Proof.lean ====
/-
  A nine-layer graph network on 12288 nodes, computed two ways, gives one result on the extended reals.

  Both programs take an input column x0 (12288 × 1), a square matrix A (12288 × 12288) and nine weights, and chain nine
  propagation steps x ↦ act((c₇ · A x + c₃ · x0) · w) — c₇, c₃ the single-precision words nearest 0.7 and 0.3, act in
  turn nothing, a leaky rectifier, two rectifiers, the logistic function, three rectifiers, and the logistic function
  scaled by 12288 — and convert the last column to integers (Proof/Spec.lean states this as one function of the
  arguments, row by row).

  The kernel program runs each step as one region over 24 blocks of 512 rows: a block of A against the previous
  column, laid as a row by the host, contracted along that row's axis; the mix, the product with the weight and the
  activation follow entry by entry. Read exactly, block t of a region's output column is rows 512 t … 512 t + 511 of
  the step, the blocks tile the column, so the region leaves the step's column (Proof/Region0 … Region8 over
  Proof/KBody); the fold of the program's buffer contents through its host stretches and regions then carries the
  specification's columns one after the other to the result (Proof/KHost, Proof/KChain, the run in Proof/KRun).
  The reference is one straight line of host operations (Proof/RefOps, Proof/RefMain); step by step its fold is the same
  columns (Proof/RefLayer…, Proof/RefValue): its matrix products are the same sums, its product with the 1 × 1 weight is a
  sum over one entry, its logistic function is spelt 1 / (1 + e^(-z)), which is what the kernel's one operation
  denotes, and its last scaling has the factors in the other order. No law used needs the inputs finite.

  The two programs' runs, terminating and leaving the arguments as launched, are the generated frames (the kernel
  programs) and the run of a straight line of host operations (the reference); the idealization rewrote nothing, so it
  preserves the word-level program trivially.
-/
import proofs.«160488_j4389456576945_2_alg».proof.Defs
import proofs.«160488_j4389456576945_2_alg».proof.Proof.Gen.Kernel
import proofs.«160488_j4389456576945_2_alg».proof.Proof.Gen.Kernel.Frame
import proofs.«160488_j4389456576945_2_alg».proof.Proof.Gen.KernelIdeal
import proofs.«160488_j4389456576945_2_alg».proof.Proof.Gen.KernelIdeal.Frame
import proofs.«160488_j4389456576945_2_alg».proof.Proof.Gen.ReferenceIdeal
import proofs.«160488_j4389456576945_2_alg».proof.Proof.Gen.Pre_finite_inputs
import proofs.«160488_j4389456576945_2_alg».proof.Proof.KRun
import proofs.«160488_j4389456576945_2_alg».proof.Proof.RefMain
import proofs.«160488_j4389456576945_2_alg».proof.Proof.KChain
import proofs.«160488_j4389456576945_2_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel [Cert.Kernel.Facts] [Cert.Pre_finite_inputs.Facts] : Cert.frame_Kernel :=
  fun m ρ _ => Cert.Kernel.Gen.frame m ρ

/-- The idealized kernel program runs and leaves its arguments as launched. -/
theorem frame_kernelIdeal [Cert.KernelIdeal.Facts] [Cert.Pre_finite_inputs.Facts] : Cert.frame_KernelIdeal :=
  fun m ρ _ => Cert.KernelIdeal.Gen.frame m ρ

/-- The reference runs to the fold of its operations, none of which writes an argument. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono
    (fun _ h c => ⟨(h c Cert.ReferenceIdeal.main_arg0).trans (Cert.ReferenceIdeal.RefValue.ops_arg0 _),
      (h c Cert.ReferenceIdeal.main_arg1).trans (Cert.ReferenceIdeal.RefValue.ops_arg1 _),
      (h c Cert.ReferenceIdeal.main_arg2).trans (Cert.ReferenceIdeal.RefValue.ops_arg2 _)⟩)
    (Cert.ReferenceIdeal.RefMain.run_main (F := Ideal) m ρ)

/-- Both idealized programs end with the specification's result of the arguments: the kernel program by its run, the
    fold through its regions and the regions' values; the reference by its run and its operations' fold. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Gcn.result (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.KChain.kernel_value m ρ c), (h c).2.1, (h c).2.2.1, (h c).2.2.2⟩)
      (Cert.KernelIdeal.KRun.run_named (F := Ideal) m ρ)
  · refine (θ_run Cert.ReferenceIdeal.defs _ _).mono (fun _ h c => ⟨?_,
        (h c Cert.ReferenceIdeal.main_arg0).trans (Cert.ReferenceIdeal.RefValue.ops_arg0 _),
        (h c Cert.ReferenceIdeal.main_arg1).trans (Cert.ReferenceIdeal.RefValue.ops_arg1 _),
        (h c Cert.ReferenceIdeal.main_arg2).trans (Cert.ReferenceIdeal.RefValue.ops_arg2 _)⟩)
      (Cert.ReferenceIdeal.RefMain.run_main (F := Ideal) m' ρ')
    refine ((h c Cert.ReferenceIdeal.main_v102).trans (Cert.ReferenceIdeal.RefValue.ops_result _)).trans ?_
    exact congr (congr (congrArg Cert.Gcn.result (hagree c).2.1) (hagree c).1) (hagree c).2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
